-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v16_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v16_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S2048x1024 : Shape := ⟨2, ![2048, 1024]⟩
abbrev S2048x2048 : Shape := ⟨2, ![2048, 2048]⟩
abbrev S1024x1024 : Shape := ⟨2, ![1024, 1024]⟩
abbrev S1024 : Shape := ⟨1, ![1024]⟩
abbrev S2048 : Shape := ⟨1, ![2048]⟩
abbrev S1024x4096 : Shape := ⟨2, ![1024, 4096]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2048 : S_.BroadcastsInDim S2048 (![] : Fin 0 → Fin S2048.rank)
  reducesTo_S2048_S_d0 : S2048.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part5 {F : FTy → Type} [FloatOps F] (main_arg18 : FVec F S4096 .f32) (main_v83 : IVec S_ 1) (main_v84 : FVec F S1024x4096 .f32) (main_cst_32 : FVec F S_ .f32) : IVec S_ 1 :=
  let main_v85 : FVec F S1024x4096 .f32 := broadcastInDim S1024x4096 ![] bcast_S_S1024x4096 main_cst_32
  let main_v86 : IVec S1024x4096 1 := cmpf .olt main_v84 main_v85
  let main_c_33 : IVec S_ 1 := constantI S_ 1 1#1
  let main_v87 : IVec S_ 1 := (fun x v => Host.reduce IntOp.andi x v reducesTo_S1024x4096_S_d0_1 h_S_) main_v86 main_c_33
  let main_v88 : IVec S_ 1 := andi main_v83 main_v87
  let main_v89 : FVec F S4096 .f32 := Host.absf main_arg18
  let main_cst_34 : FVec F S_ .f32 := constant S_ .f32 0x7F800000#32
  let main_v90 : FVec F S4096 .f32 := broadcastInDim S4096 ![] bcast_S_S4096 main_cst_34
  let main_v91 : IVec S4096 1 := cmpf .olt main_v89 main_v90
  let main_c_35 : IVec S_ 1 := constantI S_ 1 1#1
  let main_v92 : IVec S_ 1 := (fun x v => Host.reduce IntOp.andi x v reducesTo_S4096_S_d0 h_S_) main_v91 main_c_35
  let main_v93 : IVec S_ 1 := andi main_v88 main_v92
  main_v93

def fn_part4 {F : FTy → Type} [FloatOps F] (main_arg14 : FVec F S2048x2048 .f32) (main_arg15 : FVec F S2048 .f32) (main_arg16 : FVec F S2048x4096 .f32) (main_arg17 : FVec F S1024x4096 .f32) (main_arg18 : FVec F S4096 .f32) (main_v63 : IVec S_ 1) (main_v67 : IVec S_ 1) : IVec S_ 1 :=
  let main_v68 : IVec S_ 1 := andi main_v63 main_v67
  let main_v69 : FVec F S2048x2048 .f32 := Host.absf main_arg14
  let main_cst_26 : FVec F S_ .f32 := constant S_ .f32 0x7F800000#32
  let main_v70 : FVec F S2048x2048 .f32 := broadcastInDim S2048x2048 ![] bcast_S_S2048x2048 main_cst_26
  let main_v71 : IVec S2048x2048 1 := cmpf .olt main_v69 main_v70
  let main_c_27 : IVec S_ 1 := constantI S_ 1 1#1
  let main_v72 : IVec S_ 1 := (fun x v => Host.reduce IntOp.andi x v reducesTo_S2048x2048_S_d0_1 h_S_) main_v71 main_c_27
  let main_v73 : IVec S_ 1 := andi main_v68 main_v72
  let main_v74 : FVec F S2048 .f32 := Host.absf main_arg15
  let main_cst_28 : FVec F S_ .f32 := constant S_ .f32 0x7F800000#32
  let main_v75 : FVec F S2048 .f32 := broadcastInDim S2048 ![] bcast_S_S2048 main_cst_28
  let main_v76 : IVec S2048 1 := cmpf .olt main_v74 main_v75
  let main_c_29 : IVec S_ 1 := constantI S_ 1 1#1
  let main_v77 : IVec S_ 1 := (fun x v => Host.reduce IntOp.andi x v reducesTo_S2048_S_d0 h_S_) main_v76 main_c_29
  let main_v78 : IVec S_ 1 := andi main_v73 main_v77
  let main_v79 : FVec F S2048x4096 .f32 := Host.absf main_arg16
  let main_cst_30 : FVec F S_ .f32 := constant S_ .f32 0x7F800000#32
  let main_v80 : FVec F S2048x4096 .f32 := broadcastInDim S2048x4096 ![] bcast_S_S2048x4096 main_cst_30
  let main_v81 : IVec S2048x4096 1 := cmpf .olt main_v79 main_v80
  let main_c_31 : IVec S_ 1 := constantI S_ 1 1#1
  let main_v82 : IVec S_ 1 := (fun x v => Host.reduce IntOp.andi x v reducesTo_S2048x4096_S_d0_1 h_S_) main_v81 main_c_31
  let main_v83 : IVec S_ 1 := andi main_v78 main_v82
  let main_v84 : FVec F S1024x4096 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S2048x1024 .f32) (main_arg13 : FVec F S1024 .f32) (main_arg14 : FVec F S2048x2048 .f32) (main_arg15 : FVec F S2048 .f32) (main_arg16 : FVec F S2048x4096 .f32) (main_arg17 : FVec F S1024x4096 .f32) (main_arg18 : FVec F S4096 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S2048x1024 .f32 := Host.absf main_arg12
  let main_cst_22 : FVec F S_ .f32 := constant S_ .f32 0x7F800000#32
  let main_v60 : FVec F S2048x1024 .f32 := broadcastInDim S2048x1024 ![] bcast_S_S2048x1024 main_cst_22
  let main_v61 : IVec S2048x1024 1 := cmpf .olt main_v59 main_v60
  let main_c_23 : IVec S_ 1 := constantI S_ 1 1#1
  let main_v62 : IVec S_ 1 := (fun x v => Host.reduce IntOp.andi x v reducesTo_S2048x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S2048x1024 .f32) (main_arg13 : FVec F S1024 .f32) (main_arg14 : FVec F S2048x2048 .f32) (main_arg15 : FVec F S2048 .f32) (main_arg16 : FVec F S2048x4096 .f32) (main_arg17 : FVec F S1024x4096 .f32) (main_arg18 : FVec F S4096 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_arg18 main_v48 main_v49 main_v50

def fn_part1 {F : FTy → Type} [FloatOps F] (main_arg4 : FVec F S2048x1024 .f32) (main_arg5 : FVec F S2048x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S2048x1024 .f32) (main_arg13 : FVec F S1024 .f32) (main_arg14 : FVec F S2048x2048 .f32) (main_arg15 : FVec F S2048 .f32) (main_arg16 : FVec F S2048x4096 .f32) (main_arg17 : FVec F S1024x4096 .f32) (main_arg18 : FVec F S4096 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S2048x4096 .f32) (main_arg1 : FVec F S2048x1024 .f32) (main_arg2 : FVec F S2048x1024 .f32) (main_arg3 : FVec F S2048x2048 .f32) (main_arg4 : FVec F S2048x1024 .f32) (main_arg5 : FVec F S2048x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S2048x1024 .f32) (main_arg13 : FVec F S1024 .f32) (main_arg14 : FVec F S2048x2048 .f32) (main_arg15 : FVec F S2048 .f32) (main_arg16 : FVec F S2048x4096 .f32) (main_arg17 : FVec F S1024x4096 .f32) (main_arg18 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S2048x4096 : Shape := ⟨2, ![2048, 4096]⟩
abbrev S2048x1024 : Shape := ⟨2, ![2048, 1024]⟩
abbrev S2048x2048 : Shape := ⟨2, ![2048, 2048]⟩
abbrev S1024x1024 : Shape := ⟨2, ![1024, 1024]⟩
abbrev S1024 : Shape := ⟨1, ![1024]⟩
abbrev S2048 : Shape := ⟨1, ![2048]⟩
abbrev S1024x4096 : Shape := ⟨2, ![1024, 4096]⟩
abbrev S4096 : Shape := ⟨1, ![4096]⟩
abbrev S1x2048 : Shape := ⟨2, ![1, 2048]⟩
abbrev S1x1024 : Shape := ⟨2, ![1, 1024]⟩
abbrev S1x4096 : Shape := ⟨2, ![1, 4096]⟩
abbrev S128x4096 : Shape := ⟨2, ![128, 4096]⟩
abbrev S128x2048 : Shape := ⟨2, ![128, 2048]⟩
abbrev S128x1024 : Shape := ⟨2, ![128, 1024]⟩
abbrev S128 : Shape := ⟨1, ![128]⟩
abbrev S128x1 : Shape := ⟨2, ![128, 1]⟩

abbrev nBuf : Space → Nat
  | .hbm => 39
  | .vmem => 39
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S2048x1024, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S2048x1024, .f32⟩
  | .hbm, ⟨13, _⟩ => ⟨S1024, .f32⟩
  | .hbm, ⟨14, _⟩ => ⟨S2048x2048, .f32⟩
  | .hbm, ⟨15, _⟩ => ⟨S2048, .f32⟩
  | .hbm, ⟨16, _⟩ => ⟨S2048x4096, .f32⟩
  | .hbm, ⟨17, _⟩ => ⟨S1024x4096, .f32⟩
  | .hbm, ⟨18, _⟩ => ⟨S4096, .f32⟩
  | .hbm, ⟨19, _⟩ => ⟨S2048x1024, .bf16⟩
  | .hbm, ⟨20, _⟩ => ⟨S2048x1024, .bf16⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S1024x1024, .bf16⟩
  | .hbm, ⟨27, _⟩ => ⟨S2048x2048, .bf16⟩
  | .hbm, ⟨28, _⟩ => ⟨S2048x1024, .bf16⟩
  | .hbm, ⟨29, _⟩ => ⟨S2048x4096, .bf16⟩
  | .hbm, ⟨30, _⟩ => ⟨S1024x4096, .bf16⟩
  | .hbm, ⟨31, _⟩ => ⟨S1x2048, .f32⟩
  | .hbm, ⟨32, _⟩ => ⟨S1x1024, .f32⟩
  | .hbm, ⟨33, _⟩ => ⟨S1x4096, .f32⟩
  | .hbm, ⟨34, _⟩ => ⟨S2048x2048, .f32⟩
  | .hbm, ⟨35, _⟩ => ⟨S2048x2048, .f32⟩
  | .hbm, ⟨36, _⟩ => ⟨S2048x1024, .f32⟩
  | .hbm, ⟨37, _⟩ => ⟨S2048x1024, .f32⟩
  | .hbm, ⟨38, _⟩ => ⟨S2048x1024, .f32⟩
  | .local _ .vmem, ⟨0, _⟩ => ⟨S128x4096, .f32⟩
  | .local _ .vmem, ⟨1, _⟩ => ⟨S128x4096, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S2048x2048, .bf16⟩
  | .local _ .vmem, ⟨17, _⟩ => ⟨S1x2048, .f32⟩
  | .local _ .vmem, ⟨18, _⟩ => ⟨S2048x1024, .bf16⟩
  | .local _ .vmem, ⟨19, _⟩ => ⟨S1x1024, .f32⟩
  | .local _ .vmem, ⟨20, _⟩ => ⟨S128x2048, .f32⟩
  | .local _ .vmem, ⟨21, _⟩ => ⟨S128x2048, .f32⟩
  | .local _ .vmem, ⟨22, _⟩ => ⟨S128x1024, .f32⟩
  | .local _ .vmem, ⟨23, _⟩ => ⟨S128x1024, .f32⟩
  | .local _ .vmem, ⟨24, _⟩ => ⟨S128x2048, .f32⟩
  | .local _ .vmem, ⟨25, _⟩ => ⟨S128x2048, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S2048x4096, .bf16⟩
  | .local _ .vmem, ⟨33, _⟩ => ⟨S1024x4096, .bf16⟩
  | .local _ .vmem, ⟨34, _⟩ => ⟨S1x4096, .f32⟩
  | .local _ .vmem, ⟨35, _⟩ => ⟨S128x1024, .f32⟩
  | .local _ .vmem, ⟨36, _⟩ => ⟨S128x1024, .f32⟩
  | .local _ .vmem, ⟨37, _⟩ => ⟨S128x1024, .f32⟩
  | .local _ .vmem, ⟨38, _⟩ => ⟨S128x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16_0 : Ref sig .tc := ⟨.hbm, 35, rfl⟩
abbrev main_v16_1 : Ref sig .tc := ⟨.hbm, 36, rfl⟩
abbrev main_v17_0 : Ref sig .tc := ⟨.hbm, 37, rfl⟩
abbrev main_v17_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg7_1 : Ref sig .tc := ⟨.vmem, 36, rfl⟩
abbrev cc2_stg8_0 : Ref sig .tc := ⟨.vmem, 37, rfl⟩
abbrev cc2_stg8_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem7_1 : DmaSem sig := 36
abbrev cc2_sem8_0 : DmaSem sig := 37
abbrev cc2_sem8_1 : DmaSem sig := 38

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S2048x4096 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x4096 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x4096 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S128x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S128x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bitsLt_bf16_f32 : FTy.bits .bf16 < FTy.bits .f32
  shapeCasts_S2048_S1x2048 : S2048.ShapeCasts S1x2048
  shapeCasts_S1024_S1x1024 : S1024.ShapeCasts S1x1024
  shapeCasts_S4096_S1x4096 : S4096.ShapeCasts S1x4096
  inb_S128x4096_S128x2048_0_0 : ∀ a, (![0, 0] : Fin 2 → Nat) a + S128x2048.size a ≤ S128x4096.size a
  h_S128x2048 : 0 < S128x2048.numel
  inb_S128x4096_S128x2048_0_2048 : ∀ a, (![0, 2048] : Fin 2 → Nat) a + S128x2048.size a ≤ S128x4096.size a
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S128x1024_S128 : S128x1024.Reduces [1] S128
  shapeCasts_S128_S128x1 : S128.ShapeCasts S128x1
  broadcasts_S128x1_S128x1024 : S128x1.Broadcasts S128x1024
  inb_S128x2048_S128x1024_0_0 : ∀ a, (![0, 0] : Fin 2 → Nat) a + S128x1024.size a ≤ S128x2048.size a
  h_S128x1024 : 0 < S128x1024.numel
  inb_S128x2048_S128x1024_0_1024 : ∀ a, (![0, 1024] : Fin 2 → Nat) a + S128x1024.size a ≤ S128x2048.size a
  inb_S128x2048_S128x2048_0_0 : ∀ a, (![0, 0] : Fin 2 → Nat) a + S128x2048.size a ≤ S128x2048.size a
  shapeCasts_S128x2048_S128x2048 : S128x2048.ShapeCasts S128x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S128x1024_S128x1024_0_0 : ∀ a, (![0, 0] : Fin 2 → Nat) a + S128x1024.size a ≤ S128x1024.size a
  shapeCasts_S128x1024_S128x1024 : S128x1024.ShapeCasts S128x1024
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x2048_S2048x1024_S128x1024_1_0_0_1_n_n_wf : DotDims.WF S128x2048 S2048x1024 S128x1024 [1] [0] [0] [1] [] []
  dot_S128x1024_S1024x1024_S128x1024_1_0_0_1_n_n_wf : DotDims.WF S128x1024 S1024x1024 S128x1024 [1] [0] [0] [1] [] []
  dot_S128x2048_S2048x2048_S128x2048_1_0_0_1_n_n_wf : DotDims.WF S128x2048 S2048x2048 S128x2048 [1] [0] [0] [1] [] []
  dot_S128x2048_S2048x4096_S128x4096_1_0_0_1_n_n_wf : DotDims.WF S128x2048 S2048x4096 S128x4096 [1] [0] [0] [1] [] []
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S2048x4096.size a
  hwx0_0 : ∀ i : grid0.Coords, EltTy.bits .f32 = 32 ∨ (Rect.block (s := S2048x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S2048x2048.size a
  hwx0_9 : ∀ i : grid0.Coords, EltTy.bits .f32 = 32 ∨ (Rect.block (s := S2048x2048) S128x2048.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2048.size a ≤ S2048x2048.size a
  hwx1_0 : ∀ i : grid1.Coords, EltTy.bits .f32 = 32 ∨ (Rect.block (s := S2048x2048) S128x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S2048x2048.size a
  hwx1_1 : ∀ i : grid1.Coords, EltTy.bits .f32 = 32 ∨ (Rect.block (s := S2048x2048) S128x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .bf16 = 32 ∨ (Rect.block (s := S2048x2048) S2048x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x1024.size a ≤ S2048x1024.size a
  hwx1_4 : ∀ i : grid1.Coords, EltTy.bits .bf16 = 32 ∨ (Rect.block (s := S2048x1024) S2048x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x2048.size a ≤ S2048x2048.size a
  hwx1_6 : ∀ i : grid1.Coords, EltTy.bits .f32 = 32 ∨ (Rect.block (s := S2048x2048) S128x2048.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x1024.size a ≤ S2048x1024.size a
  hwx1_7 : ∀ i : grid1.Coords, EltTy.bits .f32 = 32 ∨ (Rect.block (s := S2048x1024) S128x1024.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x2048.size a ≤ S2048x2048.size a
  hwx2_0 : ∀ i : grid2.Coords, EltTy.bits .f32 = 32 ∨ (Rect.block (s := S2048x2048) S128x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x1024.size a ≤ S2048x1024.size a
  hwx2_1 : ∀ i : grid2.Coords, EltTy.bits .f32 = 32 ∨ (Rect.block (s := S2048x1024) S128x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x1024.size a ≤ S2048x1024.size a
  hwx2_2 : ∀ i : grid2.Coords, EltTy.bits .f32 = 32 ∨ (Rect.block (s := S2048x1024) S128x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x1024.size a ≤ S2048x1024.size a
  hwx2_3 : ∀ i : grid2.Coords, EltTy.bits .f32 = 32 ∨ (Rect.block (s := S2048x1024) S128x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2048x4096.size a ≤ S2048x4096.size a
  hwx2_4 : ∀ i : grid2.Coords, EltTy.bits .bf16 = 32 ∨ (Rect.block (s := S2048x4096) S2048x4096.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x4096.size a ≤ S1024x4096.size a
  hwx2_5 : ∀ i : grid2.Coords, EltTy.bits .bf16 = 32 ∨ (Rect.block (s := S1024x4096) S1024x4096.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x4096.size a ≤ S1x4096.size a
  hwx2_6 : ∀ i : grid2.Coords, EltTy.bits .f32 = 32 ∨ (Rect.block (s := S1x4096) S1x4096.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S128x1024.size a ≤ S2048x1024.size a
  hwx2_7 : ∀ i : grid2.Coords, EltTy.bits .f32 = 32 ∨ (Rect.block (s := S2048x1024) S128x1024.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S128x1024.size a ≤ S2048x1024.size a
  hwx2_8 : ∀ i : grid2.Coords, EltTy.bits .f32 = 32 ∨ (Rect.block (s := S2048x1024) S128x1024.size (cc2_transform_8 i) (hinb2_8 i)).WholeWords (EltTy.packing .f32)

variable [Facts₀]

def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x2048_S2048x4096_S128x4096_1_0_0_1_n_n : DotDims S128x2048 S2048x4096 S128x4096 where
  lhsContracting := [1]
  rhsContracting := [0]
  lhsNonContracting := [0]
  rhsNonContracting := [1]
  lhsBatch := []
  rhsBatch := []
  wf := dot_S128x2048_S2048x4096_S128x4096_1_0_0_1_n_n_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S128x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg3) S128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S128x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S2048x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16_0) S128x2048.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v16_1) S128x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v15) S128x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S128x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S128x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v16_1) S128x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v10) S2048x4096.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S1024x4096.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v14) S1x4096.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v17_0) S128x1024.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v17_1) S128x1024.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S2048x4096 : Shape := ⟨2, ![2048, 4096]⟩
abbrev S2048x1024 : Shape := ⟨2, ![2048, 1024]⟩
abbrev S2048x2048 : Shape := ⟨2, ![2048, 2048]⟩
abbrev S1024x1024 : Shape := ⟨2, ![1024, 1024]⟩
abbrev S1024 : Shape := ⟨1, ![1024]⟩
abbrev S2048 : Shape := ⟨1, ![2048]⟩
abbrev S1024x4096 : Shape := ⟨2, ![1024, 4096]⟩
abbrev S4096 : Shape := ⟨1, ![4096]⟩
abbrev S_ : Shape := ⟨0, ![]⟩
abbrev S2048x1 : Shape := ⟨2, ![2048, 1]⟩
abbrev S1x2048 : Shape := ⟨2, ![1, 2048]⟩
abbrev S1x1024 : Shape := ⟨2, ![1, 1024]⟩
abbrev S1x4096 : Shape := ⟨2, ![1, 4096]⟩

abbrev nBuf : Space → Nat
  | .hbm => 132
  | .vmem => 0
  | .smem => 0
  | _ => 0

abbrev hbmTy0_0 (i : Nat) : BufTy := match i % 128 with
  | 0 => ⟨S2048x4096, .f32⟩
  | 1 => ⟨S2048x1024, .f32⟩
  | 2 => ⟨S2048x1024, .f32⟩
  | 3 => ⟨S2048x2048, .f32⟩
  | 4 => ⟨S2048x1024, .f32⟩
  | 5 => ⟨S2048x1024, .f32⟩
  | 6 => ⟨S1024x1024, .f32⟩
  | 7 => ⟨S1024x1024, .f32⟩
  | 8 => ⟨S1024x1024, .f32⟩
  | 9 => ⟨S1024x1024, .f32⟩
  | 10 => ⟨S1024x1024, .f32⟩
  | 11 => ⟨S1024x1024, .f32⟩
  | 12 => ⟨S2048x1024, .f32⟩
  | 13 => ⟨S1024, .f32⟩
  | 14 => ⟨S2048x2048, .f32⟩
  | 15 => ⟨S2048, .f32⟩
  | 16 => ⟨S2048x4096, .f32⟩
  | 17 => ⟨S1024x4096, .f32⟩
  | 18 => ⟨S4096, .f32⟩
  | 19 => ⟨S2048x2048, .f32⟩
  | 20 => ⟨S2048x2048, .f32⟩
  | 21 => ⟨S2048x1024, .f32⟩
  | 22 => ⟨S2048x1024, .f32⟩
  | 23 => ⟨S2048x1024, .f32⟩
  | 24 => ⟨S2048x1024, .f32⟩
  | 25 => ⟨S2048x1024, .f32⟩
  | 26 => ⟨S2048x1024, .f32⟩
  | 27 => ⟨S2048x1024, .f32⟩
  | 28 => ⟨S2048x1024, .f32⟩
  | 29 => ⟨S_, .f32⟩
  | 30 => ⟨S2048, .f32⟩
  | 31 => ⟨S_, .f32⟩
  | 32 => ⟨S2048, .f32⟩
  | 33 => ⟨S2048, .f32⟩
  | 34 => ⟨S2048x1, .f32⟩
  | 35 => ⟨S2048x1024, .f32⟩
  | 36 => ⟨S2048x1024, .f32⟩
  | 37 => ⟨S2048x1024, .f32⟩
  | 38 => ⟨S_, .f32⟩
  | 39 => ⟨S2048, .f32⟩
  | 40 => ⟨S2048x1, .f32⟩
  | 41 => ⟨S2048x1024, .f32⟩
  | 42 => ⟨S2048x1024, .f32⟩
  | 43 => ⟨S2048x1024, .f32⟩
  | 44 => ⟨S2048x1024, .f32⟩
  | 45 => ⟨S2048x1024, .f32⟩
  | 46 => ⟨S2048x1024, .f32⟩
  | 47 => ⟨S2048x1024, .f32⟩
  | 48 => ⟨S2048x1024, .f32⟩
  | 49 => ⟨S_, .f32⟩
  | 50 => ⟨S2048, .f32⟩
  | 51 => ⟨S_, .f32⟩
  | 52 => ⟨S2048, .f32⟩
  | 53 => ⟨S2048, .f32⟩
  | 54 => ⟨S2048x1, .f32⟩
  | 55 => ⟨S2048x1024, .f32⟩
  | 56 => ⟨S2048x1024, .f32⟩
  | 57 => ⟨S2048x1024, .f32⟩
  | 58 => ⟨S_, .f32⟩
  | 59 => ⟨S2048, .f32⟩
  | 60 => ⟨S2048x1, .f32⟩
  | 61 => ⟨S2048x1024, .f32⟩
  | 62 => ⟨S2048x1024, .f32⟩
  | 63 => ⟨S2048x1024, .f32⟩
  | 64 => ⟨S2048x1024, .f32⟩
  | 65 => ⟨S2048x2048, .f32⟩
  | 66 => ⟨S2048x2048, .f32⟩
  | 67 => ⟨S1x2048, .f32⟩
  | 68 => ⟨S2048x2048, .f32⟩
  | 69 => ⟨S2048x2048, .f32⟩
  | 70 => ⟨S2048x2048, .f32⟩
  | 71 => ⟨S2048x2048, .f32⟩
  | 72 => ⟨S_, .f32⟩
  | 73 => ⟨S2048x2048, .f32⟩
  | 74 => ⟨S2048x2048, .f32⟩
  | 75 => ⟨S_, .f32⟩
  | 76 => ⟨S2048x2048, .f32⟩
  | 77 => ⟨S2048x2048, .f32⟩
  | 78 => ⟨S_, .f32⟩
  | 79 => ⟨S2048x2048, .f32⟩
  | 80 => ⟨S2048x2048, .f32⟩
  | 81 => ⟨S2048x2048, .f32⟩
  | 82 => ⟨S_, .f32⟩
  | 83 => ⟨S2048x2048, .f32⟩
  | 84 => ⟨S2048x2048, .f32⟩
  | 85 => ⟨S2048x2048, .f32⟩
  | 86 => ⟨S2048x1024, .f32⟩
  | 87 => ⟨S1x1024, .f32⟩
  | 88 => ⟨S2048x1024, .f32⟩
  | 89 => ⟨S2048x1024, .f32⟩
  | 90 => ⟨S2048x1024, .f32⟩
  | 91 => ⟨S2048x4096, .f32⟩
  | 92 => ⟨S2048x4096, .f32⟩
  | 93 => ⟨S2048x4096, .f32⟩
  | 94 => ⟨S1x4096, .f32⟩
  | 95 => ⟨S2048x4096, .f32⟩
  | 96 => ⟨S2048x4096, .f32⟩
  | 97 => ⟨S2048x1024, .f32⟩
  | 98 => ⟨S2048x1024, .f32⟩
  | 99 => ⟨S2048x1024, .f32⟩
  | 100 => ⟨S2048x1024, .f32⟩
  | 101 => ⟨S2048x1024, .f32⟩
  | 102 => ⟨S2048x1024, .f32⟩
  | 103 => ⟨S_, .f32⟩
  | 104 => ⟨S2048x1024, .f32⟩
  | 105 => ⟨S2048x1024, .f32⟩
  | 106 => ⟨S_, .f32⟩
  | 107 => ⟨S2048x1024, .f32⟩
  | 108 => ⟨S2048x1024, .f32⟩
  | 109 => ⟨S2048x1024, .f32⟩
  | 110 => ⟨S2048x1024, .f32⟩
  | 111 => ⟨S_, .f32⟩
  | 112 => ⟨S2048x1024, .f32⟩
  | 113 => ⟨S2048x1024, .f32⟩
  | 114 => ⟨S_, .f32⟩
  | 115 => ⟨S2048x1024, .f32⟩
  | 116 => ⟨S2048x1024, .f32⟩
  | 117 => ⟨S2048x1024, .f32⟩
  | 118 => ⟨S2048x1024, .f32⟩
  | 119 => ⟨S2048x1024, .f32⟩
  | 120 => ⟨S2048x1024, .f32⟩
  | 121 => ⟨S2048x1024, .f32⟩
  | 122 => ⟨S2048x1024, .f32⟩
  | 123 => ⟨S_, .f32⟩
  | 124 => ⟨S2048x1024, .f32⟩
  | 125 => ⟨S2048x1024, .f32⟩
  | 126 => ⟨S_, .f32⟩
  | 127 => ⟨S2048x1024, .f32⟩
  | _ => ⟨S2048x4096, .f32⟩

abbrev hbmTy0_1 (i : Nat) : BufTy := match i % 128 with
  | 0 => ⟨S2048x1024, .f32⟩
  | 1 => ⟨S2048x1024, .f32⟩
  | 2 => ⟨S2048x1024, .f32⟩
  | 3 => ⟨S2048x1024, .f32⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_9 : Ref sig .tc := ⟨.hbm, 103, rfl⟩
abbrev main_v74 : Ref sig .tc := ⟨.hbm, 104, rfl⟩
abbrev main_v75 : Ref sig .tc := ⟨.hbm, 105, rfl⟩
abbrev main_cst_10 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_11 : Ref sig .tc := ⟨.hbm, 111, rfl⟩
abbrev main_v80 : Ref sig .tc := ⟨.hbm, 112, rfl⟩
abbrev main_v81 : Ref sig .tc := ⟨.hbm, 113, rfl⟩
abbrev main_cst_12 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_13 : Ref sig .tc := ⟨.hbm, 123, rfl⟩
abbrev main_v90 : Ref sig .tc := ⟨.hbm, 124, rfl⟩
abbrev main_v91 : Ref sig .tc := ⟨.hbm, 125, rfl⟩
abbrev main_cst_14 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩

abbrev nD : Nat := 1
abbrev τ : Topo := Topo.v7x

variable {F : FTy → Type} [FloatOps F]

class Facts₀ : Prop where
  slices_S2048x4096_S2048x2048_0_0 : S2048x4096.Slices ![0, 0] S2048x2048
  slices_S2048x4096_S2048x2048_0_2048 : S2048x4096.Slices ![0, 2048] S2048x2048
  reducesTo_S2048x1024_S2048_d1 : S2048x1024.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x1024_0_1 : S2048x1.BroadcastsInDim S2048x1024 (![0, 1] : Fin 2 → Fin S2048x1024.rank)
  concatenates_S2048x1024_S2048x1024_S2048x2048_d1 : Shape.Concatenates [S2048x1024, S2048x1024] S2048x2048 1
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  slices_S2048x4096_S2048x1024_0_0 : S2048x4096.Slices ![0, 0] S2048x1024
  slices_S2048x4096_S2048x1024_0_1024 : S2048x4096.Slices ![0, 1024] S2048x1024
  slices_S2048x4096_S2048x1024_0_2048 : S2048x4096.Slices ![0, 2048] S2048x1024
  slices_S2048x4096_S2048x1024_0_3072 : S2048x4096.Slices ![0, 3072] S2048x1024
  bcast_S_S2048x1024 : S_.BroadcastsInDim S2048x1024 (![] : Fin 0 → Fin S2048x1024.rank)
  dot_S2048x2048_S2048x1024_S2048x1024_1_0_0_1_n_n_wf : DotDims.WF S2048x2048 S2048x1024 S2048x1024 [1] [0] [0] [1] [] []
  dot_S2048x1024_S1024x1024_S2048x1024_1_0_0_1_n_n_wf : DotDims.WF S2048x1024 S1024x1024 S2048x1024 [1] [0] [0] [1] [] []
  dot_S2048x2048_S2048x2048_S2048x2048_1_0_0_1_n_n_wf : DotDims.WF S2048x2048 S2048x2048 S2048x2048 [1] [0] [0] [1] [] []
  dot_S2048x2048_S2048x4096_S2048x4096_1_0_0_1_n_n_wf : DotDims.WF S2048x2048 S2048x4096 S2048x4096 [1] [0] [0] [1] [] []
  dot_S2048x1024_S1024x4096_S2048x4096_1_0_0_1_n_n_wf : DotDims.WF S2048x1024 S1024x4096 S2048x4096 [1] [0] [0] [1] [] []

variable [Facts₀]

def dot_S2048x2048_S2048x1024_S2048x1024_1_0_0_1_n_n : DotDims S2048x2048 S2048x1024 S2048x1024 where
  lhsContracting := [1]
  rhsContracting := [0]
  lhsNonContracting := [0]
  rhsNonContracting := [1]
  lhsBatch := []
  rhsBatch := []
  wf := dot_S2048x2048_S2048x1024_S2048x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S2048x2048_S2048x4096_S2048x4096_1_0_0_1_n_n : DotDims S2048x2048 S2048x4096 S2048x4096 where
  lhsContracting := [1]
  rhsContracting := [0]
  lhsNonContracting := [0]
  rhsNonContracting := [1]
  lhsBatch := []
  rhsBatch := []
  wf := dot_S2048x2048_S2048x4096_S2048x4096_1_0_0_1_n_n_wf
def dot_S2048x1024_S1024x4096_S2048x4096_1_0_0_1_n_n : DotDims S2048x1024 S1024x4096 S2048x4096 where
  lhsContracting := [1]
  rhsContracting := [0]
  lhsNonContracting := [0]
  rhsNonContracting := [1]
  lhsBatch := []
  rhsBatch := []
  wf := dot_S2048x1024_S1024x4096_S2048x4096_1_0_0_1_n_n_wf

class Facts : Prop extends Facts₀ where

variable [Facts]
-- ==== Proof.LibMatRead.lean ====
/-
  Two matrix products read at an index, over the extended reals, for any dimension record with the stated axes: the
  product that contracts the second axis of both operands (rows against rows), and the one that contracts the second
  axis of the left with the first of the right (rows against columns). Into a zero accumulator each is the plain sum
  over the shared axis of the products of the entries; the contraction's index type has one coordinate, and the sum is
  re-indexed by it.
-/
import Idealize.ShloMosaic.PureOps.Ideal.Laws
import Idealize.ShloMosaic.Lib.ValueIdx

noncomputable section
open scoped BigOperators
open Idealize.ShloMosaic Idealize.ShloMosaic.ValueIdx

namespace Cert.MatRead

/-- A product that contracts the second axis of both operands, into a zero accumulator, read at an index: the sum over
    the shared axis of row `a` of the left operand times row `b` of the right. -/
theorem matmul_rows_apply {m k n : Nat} {φ₁ φ₂ : FTy}
    (d : DotDims ⟨2, ![m, k]⟩ ⟨2, ![n, k]⟩ ⟨2, ![m, n]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (A : FVec Ideal ⟨2, ![m, k]⟩ φ₁) (B : FVec Ideal ⟨2, ![n, k]⟩ φ₂) (a : Fin m) (b : Fin n) :
    FloatOps.matmul d prec A B (constant ⟨2, ![m, n]⟩ .f32 0x00000000#32) (ix2 a b)
      = ∑ c : Fin k, A (ix2 a c) * B (ix2 b c) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  rw [Ideal.matmul_constant_zero_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 b c := by
    funext ax; apply Fin.ext
    match ax with
    | ⟨0, _⟩ => simp [DotDims.rhsIdx, hrc, hrn, hrb]; exact key1 _ _ (by simp [hlb, hln, hrn])
    | ⟨1, _⟩ => exact (d.rhsIdx_val_of_single hrc _ _).trans c2
  rw [l2, r2]

/-- A product that contracts the second axis of the left operand with the first of the right, into a zero accumulator,
    read at an index: row `a` of the left operand times column `b` of the right. -/
theorem matmul_row_col_apply {m k n : Nat} {φ₁ φ₂ : FTy}
    (d : DotDims ⟨2, ![m, k]⟩ ⟨2, ![k, n]⟩ ⟨2, ![m, n]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (A : FVec Ideal ⟨2, ![m, k]⟩ φ₁) (B : FVec Ideal ⟨2, ![k, n]⟩ φ₂) (a : Fin m) (b : Fin n) :
    FloatOps.matmul d prec A B (constant ⟨2, ![m, n]⟩ .f32 0x00000000#32) (ix2 a b)
      = ∑ c : Fin k, A (ix2 a c) * B (ix2 c b) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  rw [Ideal.matmul_constant_zero_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 c b := by
    funext ax; apply Fin.ext
    match ax with
    | ⟨0, _⟩ => exact (d.rhsIdx_val_of_single hrc _ _).trans c2
    | ⟨1, _⟩ => simp [DotDims.rhsIdx, hrc, hrn, hrb]; exact key1 _ _ (by simp [hlb, hln, hrn])
  rw [l2, r2]

end Cert.MatRead
-- ==== Proof.RowOps.lean ====
/-
  Taking a block of consecutive rows of a two-dimensional array commutes with every operation that acts row by row:
  an elementwise operation, a matrix product against a whole right operand (row r of the product only reads row r of
  the left operand), a maximum or a sum along each row handed back to every column, a row vector repeated down the
  rows, a slice of columns and a joining of columns. Each is stated here once, for any numbers of rows and columns,
  over the extended reals, with the blocked operation on the left and the whole-array operation on the right.
-/
import Idealize.ShloMosaic.PureOps.Ideal.Laws
import Idealize.ShloMosaic.Lib.ValueIdx
import Idealize.ShloMosaic.Lib.Pipeline.Value
import Idealize.ShloMosaic.Lib.ValueLayout
import proofs.«136214_j19172734009719_1_alg».proof.Proof.LibMatRead

noncomputable section
open scoped BigOperators
open Idealize.ShloMosaic Idealize.ShloMosaic.ValueIdx

namespace Cert.RowOps

variable {α : Type} {A B n : ℕ}

/-- Rows `o, …, o + A − 1` of an array of `B` rows and `n` columns. -/
def rows (o : ℕ) (h : o + A ≤ B) (X : (⟨2, ![B, n]⟩ : Shape).Idx → α) : (⟨2, ![A, n]⟩ : Shape).Idx → α :=
  fun y => X (ix2 (⟨o + (y 0 : Fin A).val, by have hy : (y 0 : Fin A).val < A := (y 0 : Fin A).isLt; omega⟩ : Fin B) (y 1 : Fin n))

theorem rows_apply (o : ℕ) (h : o + A ≤ B) (X : (⟨2, ![B, n]⟩ : Shape).Idx → α) (p : Fin A) (q : Fin n) :
    rows o h X (ix2 p q) = X (ix2 (⟨o + p.val, by have := p.isLt; omega⟩ : Fin B) q) := rfl

/-- Entries `o, …, o + A − 1` of a one-dimensional array of `B` entries. -/
def rows1 (o : ℕ) (h : o + A ≤ B) (v : (⟨1, ![B]⟩ : Shape).Idx → α) : (⟨1, ![A]⟩ : Shape).Idx → α :=
  fun y => v (ix1 (⟨o + (y 0 : Fin A).val, by have hy : (y 0 : Fin A).val < A := (y 0 : Fin A).isLt; omega⟩ : Fin B))

/-! ## Elementwise operations -/

section Pointwise
variable {φ : FTy} (o : ℕ) (h : o + A ≤ B)

theorem tanh_rows (X : FVec Ideal ⟨2, ![B, n]⟩ φ) : tanh (rows o h X) = rows o h (Host.tanh X) := rfl
theorem exp_rows (X : FVec Ideal ⟨2, ![B, n]⟩ φ) : exp (rows o h X) = rows o h (Host.exp X) := rfl
theorem addf_rows (X Y : FVec Ideal ⟨2, ![B, n]⟩ φ) : addf (rows o h X) (rows o h Y) = rows o h (addf X Y) := rfl
theorem mulf_rows (X Y : FVec Ideal ⟨2, ![B, n]⟩ φ) : mulf (rows o h X) (rows o h Y) = rows o h (mulf X Y) := rfl
theorem subf_rows (X Y : FVec Ideal ⟨2, ![B, n]⟩ φ) : subf (rows o h X) (rows o h Y) = rows o h (subf X Y) := rfl
theorem divf_rows (X Y : FVec Ideal ⟨2, ![B, n]⟩ φ) : divf (rows o h X) (rows o h Y) = rows o h (Host.divf X Y) := rfl
theorem truncf_rows {ψ : FTy} (hb : ψ.bits < φ.bits) (X : FVec Ideal ⟨2, ![B, n]⟩ φ) :
    (truncf ψ (rows o h X) hb : FVec Ideal ⟨2, ![A, n]⟩ ψ) = rows o h X := rfl

end Pointwise

/-! ## Constants -/

section Consts
variable (o : ℕ) (h : o + A ≤ B)

/-- A scalar repeated over a block is the block of the scalar repeated over the array. -/
theorem broadcast_rows (w : BitVec 32) (hb : (⟨0, ![]⟩ : Shape).BroadcastsInDim ⟨2, ![B, n]⟩ ![]) :
    (broadcast ⟨2, ![A, n]⟩ (Scalar.ofBits (F := Ideal) .f32 w) : FVec Ideal ⟨2, ![A, n]⟩ .f32)
      = rows o h (broadcastInDim ⟨2, ![B, n]⟩ ![] hb (constant (F := Ideal) ⟨0, ![]⟩ .f32 w)) := by
  funext y
  exact (broadcastInDim_apply ![] hb (constant (F := Ideal) ⟨0, ![]⟩ .f32 w) _ (fun a => a.elim0) (fun a => a.elim0)).symm

theorem broadcast_rows1 (w : BitVec 32) (hb : (⟨0, ![]⟩ : Shape).BroadcastsInDim ⟨1, ![B]⟩ ![]) :
    (broadcast ⟨1, ![A]⟩ (Scalar.ofBits (F := Ideal) .f32 w) : FVec Ideal ⟨1, ![A]⟩ .f32)
      = rows1 o h (broadcastInDim ⟨1, ![B]⟩ ![] hb (constant (F := Ideal) ⟨0, ![]⟩ .f32 w)) := by
  funext y
  exact (broadcastInDim_apply ![] hb (constant (F := Ideal) ⟨0, ![]⟩ .f32 w) _ (fun a => a.elim0) (fun a => a.elim0)).symm

theorem maximumf_rows1 {φ : FTy} (u v : FVec Ideal ⟨1, ![B]⟩ φ) :
    maximumf (rows1 o h u) (rows1 o h v) = rows1 o h (maximumf u v) := rfl

end Consts

/-! ## The logistic function -/

theorem ofBits_one_f32 : Ideal.ofBits .f32 0x3F800000#32 = 1 := by
  simp [Ideal.ofBits, Ideal.ieee, -EReal.coe_mul]; norm_num

/-- The kernel's one operation is the reference's `1 / (1 + exp (−x))`, block by block. -/
theorem logistic_rows (o : ℕ) (h : o + A ≤ B) (hb : (⟨0, ![]⟩ : Shape).BroadcastsInDim ⟨2, ![B, n]⟩ ![])
    (Z : FVec Ideal ⟨2, ![B, n]⟩ .f32) :
    logistic (rows o h Z)
      = rows o h (Host.divf (broadcastInDim ⟨2, ![B, n]⟩ ![] hb (constant (F := Ideal) ⟨0, ![]⟩ .f32 0x3F800000#32))
          (addf (broadcastInDim ⟨2, ![B, n]⟩ ![] hb (constant (F := Ideal) ⟨0, ![]⟩ .f32 0x3F800000#32)) (Host.exp (Host.negf Z)))) := by
  funext y
  have e : ∀ j, broadcastInDim ⟨2, ![B, n]⟩ ![] hb (constant (F := Ideal) ⟨0, ![]⟩ .f32 0x3F800000#32) j = (1 : EReal) := fun j =>
    (broadcastInDim_apply ![] hb (constant (F := Ideal) ⟨0, ![]⟩ .f32 0x3F800000#32) j (fun a => a.elim0) (fun a => a.elim0)).trans ofBits_one_f32
  show Ideal.logistic _ = Ideal.div (broadcastInDim ⟨2, ![B, n]⟩ ![] hb (constant (F := Ideal) ⟨0, ![]⟩ .f32 0x3F800000#32) _)
    (broadcastInDim ⟨2, ![B, n]⟩ ![] hb (constant (F := Ideal) ⟨0, ![]⟩ .f32 0x3F800000#32) _ + Ideal.exp (-(Z _)))
  rw [e]
  rfl

/-! ## A maximum and a sum along each row -/

section Reduce
variable (o : ℕ) (h : o + A ≤ B)

/-- The row of index `p` of a block, read through the reduction's inserted coordinate, is row `o + p` of the array. -/
theorem rows_lift (hR : (⟨2, ![A, n]⟩ : Shape).Reduces [1] ⟨1, ![A]⟩) (hR' : (⟨2, ![B, n]⟩ : Shape).Reduces [1] ⟨1, ![B]⟩)
    (X : (⟨2, ![B, n]⟩ : Shape).Idx → α) (p : Fin A) :
    (rows o h X) ∘ hR.lift (ix1 p) = X ∘ hR'.lift (ix1 (⟨o + p.val, by have := p.isLt; omega⟩ : Fin B)) :=
  funext fun k => congrArg X (funext fun c => Fin.ext (by fin_cases c <;> rfl))

/-- The maximum along each row of a block is the block of the maxima along the rows of the array. -/
theorem rowmax_rows (acc : BitVec 32) (hR : (⟨2, ![A, n]⟩ : Shape).Reduces [1] ⟨1, ![A]⟩) (hφ : FKind.Formats .f32)
    (hacc : acc = FKind.maximumf.neutral .f32 hφ)
    (hRT : (⟨2, ![B, n]⟩ : Shape).ReducesTo [1] ⟨1, ![B]⟩) (hR' : (⟨2, ![B, n]⟩ : Shape).Reduces [1] ⟨1, ![B]⟩)
    (hu : 0 < (⟨0, ![]⟩ : Shape).numel) (X : FVec Ideal ⟨2, ![B, n]⟩ .f32) :
    multiReduction .maximumf [1] ⟨1, ![A]⟩ (rows o h X) acc hR hφ hacc
      = rows1 o h (Host.reduce FloatOps.maximumf X (constant (F := Ideal) ⟨0, ![]⟩ .f32 acc) hRT hu) := by
  funext y
  obtain ⟨p, rfl⟩ : ∃ p : Fin A, y = ix1 p := ⟨y 0, eq_ix1 y⟩
  rw [Ideal.multiReduction_maximumf_single]
  show _ = Host.reduce FloatOps.maximumf X _ hRT hu (ix1 (⟨o + p.val, _⟩ : Fin B))
  rw [Host.reduce_eq_fold_single FloatOps.maximumf X _ hRT hR' hu]
  exact congrArg (fun f => Finset.fold max (Ideal.ofBits .f32 acc) f (Finset.univ : Finset (Fin n))) (rows_lift o h hR hR' X p)

/-- The sum along each row of a block is the block of the sums along the rows of the array. -/
theorem rowsum_rows (acc : BitVec 32) (hR : (⟨2, ![A, n]⟩ : Shape).Reduces [1] ⟨1, ![A]⟩) (hφ : FKind.Formats .f32)
    (hacc : acc = FKind.add.neutral .f32 hφ)
    (hRT : (⟨2, ![B, n]⟩ : Shape).ReducesTo [1] ⟨1, ![B]⟩) (hR' : (⟨2, ![B, n]⟩ : Shape).Reduces [1] ⟨1, ![B]⟩)
    (hu : 0 < (⟨0, ![]⟩ : Shape).numel) (X : FVec Ideal ⟨2, ![B, n]⟩ .f32) :
    multiReduction .add [1] ⟨1, ![A]⟩ (rows o h X) acc hR hφ hacc
      = rows1 o h (Host.reduceAdd X (constant (F := Ideal) ⟨0, ![]⟩ .f32 0x00000000#32) hRT hu) := by
  funext y
  obtain ⟨p, rfl⟩ : ∃ p : Fin A, y = ix1 p := ⟨y 0, eq_ix1 y⟩
  rw [Ideal.multiReduction_add_single]
  show _ = Host.reduceAdd X _ hRT hu (ix1 (⟨o + p.val, _⟩ : Fin B))
  simp only [Host.reduceAdd, Ideal.hostReduceAdd_def]
  rw [Ideal.hostReduceAdd_single hRT hR']
  show _ = Ideal.ofBits .f32 0x00000000#32 + _
  rw [Ideal.ofBits_zero_f32, zero_add]
  exact congrArg (fun f => ∑ k : Fin n, f k) (rows_lift o h hR hR' X p)

end Reduce

/-! ## Columns and rows repeated -/

section Layout
variable (o : ℕ) (h : o + A ≤ B)

/-- A vector of row values stood up as one column: block by block. -/
theorem column_rows (hc : (⟨1, ![A]⟩ : Shape).ShapeCasts ⟨2, ![A, 1]⟩)
    (hb : (⟨1, ![B]⟩ : Shape).BroadcastsInDim ⟨2, ![B, 1]⟩ ![0]) (v : (⟨1, ![B]⟩ : Shape).Idx → α) :
    shapeCast ⟨2, ![A, 1]⟩ (rows1 o h v) hc = rows o h (broadcastInDim ⟨2, ![B, 1]⟩ ![0] hb v) := by
  funext y
  obtain ⟨p, q, rfl⟩ : ∃ (p : Fin A) (q : Fin 1), y = ix2 p q := ⟨y 0, y 1, eq_ix2 y⟩
  rw [rows_apply]
  refine (shapeCast_apply (rows1 o h v) hc (ix2 p q) (ix1 p) (by
    have hq : q.val = 0 := by omega
    rw [Shape.rowMajor_val_two, Shape.rowMajor_val_one]
    show p.val = p.val * 1 + q.val
    omega)).trans ?_
  refine (broadcastInDim_apply ![0] hb v _ (ix1 (⟨o + p.val, by have := p.isLt; omega⟩ : Fin B)) fun a => ?_).symm
  match a with
  | ⟨0, _⟩ =>
    show o + p.val = if B = 1 then 0 else o + p.val
    split
    · have := p.isLt; omega
    · rfl

/-- One column handed to every column: block by block. -/
theorem spread_rows (hb : (⟨2, ![A, 1]⟩ : Shape).Broadcasts ⟨2, ![A, n]⟩)
    (hb' : (⟨2, ![B, 1]⟩ : Shape).BroadcastsInDim ⟨2, ![B, n]⟩ ![0, 1]) (Y : (⟨2, ![B, 1]⟩ : Shape).Idx → α) :
    broadcastTo ⟨2, ![A, n]⟩ (rows o h Y) hb = rows o h (broadcastInDim ⟨2, ![B, n]⟩ ![0, 1] hb' Y) := by
  funext y
  obtain ⟨p, q, rfl⟩ : ∃ (p : Fin A) (q : Fin n), y = ix2 p q := ⟨y 0, y 1, eq_ix2 y⟩
  rw [rows_apply]
  refine (broadcastTo_apply (rows o h Y) hb (ix2 p q) (ix2 p (0 : Fin 1)) fun ax => ?_).trans ?_
  · match ax with
    | ⟨0, _⟩ =>
      show p.val = if A = 1 then 0 else p.val
      split
      · have := p.isLt; omega
      · rfl
    | ⟨1, _⟩ => rfl
  · rw [rows_apply]
    refine (broadcastInDim_apply ![0, 1] hb' Y _ _ fun a => ?_).symm
    match a with
    | ⟨0, _⟩ =>
      show o + p.val = if B = 1 then 0 else o + p.val
      split
      · have := p.isLt; omega
      · rfl
    | ⟨1, _⟩ => rfl

/-- One row handed to every row of a block is the block of that row handed to every row of the array. -/
theorem bias_rows (hb : (⟨2, ![1, n]⟩ : Shape).Broadcasts ⟨2, ![A, n]⟩)
    (hb' : (⟨2, ![1, n]⟩ : Shape).BroadcastsInDim ⟨2, ![B, n]⟩ ![0, 1]) (R : (⟨2, ![1, n]⟩ : Shape).Idx → α) :
    broadcastTo ⟨2, ![A, n]⟩ R hb = rows o h (broadcastInDim ⟨2, ![B, n]⟩ ![0, 1] hb' R) := by
  funext y
  obtain ⟨p, q, rfl⟩ : ∃ (p : Fin A) (q : Fin n), y = ix2 p q := ⟨y 0, y 1, eq_ix2 y⟩
  rw [rows_apply, broadcastTo_1b_ab_apply]
  refine (broadcastInDim_apply ![0, 1] hb' R _ _ fun a => ?_).symm
  match a with
  | ⟨0, _⟩ => rfl
  | ⟨1, _⟩ =>
    show q.val = if n = 1 then 0 else q.val
    split
    · have := q.isLt; omega
    · rfl

/-- A vector laid down as one row (a reshape) is the same vector placed along the second axis (a broadcast). -/
theorem row_of_vector (hc : (⟨1, ![n]⟩ : Shape).ShapeCasts ⟨2, ![1, n]⟩)
    (hb : (⟨1, ![n]⟩ : Shape).BroadcastsInDim ⟨2, ![1, n]⟩ ![1]) (v : (⟨1, ![n]⟩ : Shape).Idx → α) :
    shapeCast ⟨2, ![1, n]⟩ v hc = broadcastInDim ⟨2, ![1, n]⟩ ![1] hb v := by
  funext y
  obtain ⟨u, q, rfl⟩ : ∃ (u : Fin 1) (q : Fin n), y = ix2 u q := ⟨y 0, y 1, eq_ix2 y⟩
  rw [shapeCast_a_1a_apply]
  refine (broadcastInDim_apply ![1] hb v _ _ fun a => ?_).symm
  match a with
  | ⟨0, _⟩ =>
    show q.val = if n = 1 then 0 else q.val
    split
    · have := q.isLt; omega
    · rfl

/-- A run of columns of a block is the block of that run of columns of the array. -/
theorem slice_rows {n' : ℕ} (c : ℕ) (hs : (⟨2, ![A, n]⟩ : Shape).Slices ![0, c] ⟨2, ![A, n']⟩)
    (hs' : (⟨2, ![B, n]⟩ : Shape).Slices ![0, c] ⟨2, ![B, n']⟩) (X : (⟨2, ![B, n]⟩ : Shape).Idx → α) :
    extractStridedSlice ⟨2, ![A, n']⟩ ![0, c] (rows o h X) hs = rows o h (extractStridedSlice ⟨2, ![B, n']⟩ ![0, c] X hs') := by
  funext y
  obtain ⟨p, q, rfl⟩ : ∃ (p : Fin A) (q : Fin n'), y = ix2 p q := ⟨y 0, y 1, eq_ix2 y⟩
  have hq : c + q.val < n := by
    have := hs.2 1
    revert this
    simp only [Shape.size]
    intro this
    have hq := q.isLt
    simpa using (show c + q.val < n from by
      have h2 : (![0, c] : Fin 2 → ℕ) 1 + (⟨2, ![A, n']⟩ : Shape).size (Fin.cast hs.1 1) ≤ (⟨2, ![A, n]⟩ : Shape).size 1 := this
      have : c + n' ≤ n := h2
      omega)
  rw [rows_apply]
  refine (extractStridedSlice_apply ![0, c] (rows o h X) hs (ix2 p q) (ix2 p (⟨c + q.val, hq⟩ : Fin n)) fun a => ?_).trans ?_
  · match a with
    | ⟨0, _⟩ => show p.val = 0 + p.val; omega
    | ⟨1, _⟩ => rfl
  · rw [rows_apply]
    refine (extractStridedSlice_apply ![0, c] X hs' _ _ fun a => ?_).symm
    match a with
    | ⟨0, _⟩ => show o + p.val = 0 + (o + p.val); omega
    | ⟨1, _⟩ => rfl

end Layout

/-! ## A matrix product against a whole right operand -/

/-- The reference's product of a left operand's rows against a right operand's columns, read at an index: the same plain
    sum the kernel's product into a zero accumulator is. -/
theorem dotGeneral_row_col_apply {m k : ℕ} {φ₁ φ₂ : FTy}
    (d : DotDims ⟨2, ![m, k]⟩ ⟨2, ![k, n]⟩ ⟨2, ![m, n]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (X : FVec Ideal ⟨2, ![m, k]⟩ φ₁) (W : FVec Ideal ⟨2, ![k, n]⟩ φ₂) (a : Fin m) (b : Fin n) :
    FloatOps.dotGeneral d prec sched X W (ix2 a b) = ∑ c : Fin k, X (ix2 a c) * W (ix2 c b) := by
  rw [Ideal.dotGeneral_apply, ← Ideal.matmul_constant_zero_apply d prec X W (ix2 a b)]
  exact Cert.MatRead.matmul_row_col_apply d hlc hrc hln hrn hlb hrb prec X W a b

/-- Row `r` of a product only reads row `r` of the left operand: the product of a block of rows with the whole right
    operand is that block of rows of the whole product. -/
theorem matmul_rows {k : ℕ} {φ₁ φ₂ : FTy} (ψ₁ ψ₂ : FTy)
    (d : DotDims ⟨2, ![A, k]⟩ ⟨2, ![k, n]⟩ ⟨2, ![A, n]⟩) (d' : DotDims ⟨2, ![B, k]⟩ ⟨2, ![k, n]⟩ ⟨2, ![B, n]⟩)
    (hlc : d.lhsContracting = [1]) (hrc : d.rhsContracting = [0])
    (hln : d.lhsNonContracting = [0]) (hrn : d.rhsNonContracting = [1])
    (hlb : d.lhsBatch = []) (hrb : d.rhsBatch = [])
    (hlc' : d'.lhsContracting = [1]) (hrc' : d'.rhsContracting = [0])
    (hln' : d'.lhsNonContracting = [0]) (hrn' : d'.rhsNonContracting = [1])
    (hlb' : d'.lhsBatch = []) (hrb' : d'.rhsBatch = [])
    (prec prec' : Option ContractPrecision) (o : ℕ) (h : o + A ≤ B)
    (X : (⟨2, ![B, k]⟩ : Shape).Idx → EReal) (W : (⟨2, ![k, n]⟩ : Shape).Idx → EReal) :
    matmul (F := Ideal) (φ₁ := φ₁) (φ₂ := φ₂) d prec (rows o h X) W (constant ⟨2, ![A, n]⟩ .f32 0x00000000#32)
      = rows o h (Host.dotGeneral (F := Ideal) (φ₁ := ψ₁) (φ₂ := ψ₂) d' prec' X W) := by
  apply funext; intro y
  obtain ⟨p, q, rfl⟩ : ∃ (p : Fin A) (q : Fin n), y = ix2 p q := ⟨y 0, y 1, eq_ix2 y⟩
  rw [rows_apply]
  show FloatOps.matmul d prec _ _ _ (ix2 p q) = FloatOps.dotGeneral d' prec' .single _ _ (ix2 _ q)
  rw [Cert.MatRead.matmul_row_col_apply d hlc hrc hln hrn hlb hrb, dotGeneral_row_col_apply d' hlc' hrc' hln' hrn' hlb' hrb']
  rfl

end Cert.RowOps
-- ==== Proof.BlockOps.lean ====
/-
  The row-block laws at this program's shapes: a block is 128 consecutive rows of an array of 2048 rows, and each law
  is stated with the kernel's operation (on the block) on the left and the reference's operation (on the whole array)
  on the right, at the dimension records and shape facts the two printed programs carry. These are the rewriting rules
  that carry a block of rows through a kernel body.
-/
import proofs.«136214_j19172734009719_1_alg».proof.Proof.Gen.KernelIdeal
import proofs.«136214_j19172734009719_1_alg».proof.Proof.Gen.ReferenceIdeal
import proofs.«136214_j19172734009719_1_alg».proof.Proof.RowOps

noncomputable section
open Idealize.ShloMosaic Idealize.ShloMosaic.ValueIdx Cert.RowOps

namespace Cert.BlockOps

variable (o : ℕ) (h : o + 128 ≤ 2048)

/-! ## Matrix products against whole weights -/

theorem mm_2048_1024 (X : (⟨2, ![2048, 2048]⟩ : Shape).Idx → EReal) (W : (⟨2, ![2048, 1024]⟩ : Shape).Idx → EReal) :
    matmul (F := Ideal) (φ₁ := .bf16) (φ₂ := .bf16) Cert.KernelIdeal.dot_S128x2048_S2048x1024_S128x1024_1_0_0_1_n_n none (rows o h X) W
        (constant ⟨2, ![128, 1024]⟩ .f32 0x00000000#32)
      = rows o h (Host.dotGeneral (F := Ideal) (φ₁ := .f32) (φ₂ := .f32) Cert.ReferenceIdeal.dot_S2048x2048_S2048x1024_S2048x1024_1_0_0_1_n_n none X W) :=
  matmul_rows .f32 .f32 _ _ rfl rfl rfl rfl rfl rfl rfl rfl rfl rfl rfl rfl none none o h X W

theorem mm_1024_1024 (X : (⟨2, ![2048, 1024]⟩ : Shape).Idx → EReal) (W : (⟨2, ![1024, 1024]⟩ : Shape).Idx → EReal) :
    matmul (F := Ideal) (φ₁ := .bf16) (φ₂ := .bf16) Cert.KernelIdeal.dot_S128x1024_S1024x1024_S128x1024_1_0_0_1_n_n none (rows o h X) W
        (constant ⟨2, ![128, 1024]⟩ .f32 0x00000000#32)
      = rows o h (Host.dotGeneral (F := Ideal) (φ₁ := .f32) (φ₂ := .f32) Cert.ReferenceIdeal.dot_S2048x1024_S1024x1024_S2048x1024_1_0_0_1_n_n none X W) :=
  matmul_rows .f32 .f32 _ _ rfl rfl rfl rfl rfl rfl rfl rfl rfl rfl rfl rfl none none o h X W

theorem mm_2048_2048 (X : (⟨2, ![2048, 2048]⟩ : Shape).Idx → EReal) (W : (⟨2, ![2048, 2048]⟩ : Shape).Idx → EReal) :
    matmul (F := Ideal) (φ₁ := .bf16) (φ₂ := .bf16) Cert.KernelIdeal.dot_S128x2048_S2048x2048_S128x2048_1_0_0_1_n_n none (rows o h X) W
        (constant ⟨2, ![128, 2048]⟩ .f32 0x00000000#32)
      = rows o h (Host.dotGeneral (F := Ideal) (φ₁ := .f32) (φ₂ := .f32) Cert.ReferenceIdeal.dot_S2048x2048_S2048x2048_S2048x2048_1_0_0_1_n_n none X W) :=
  matmul_rows .f32 .f32 _ _ rfl rfl rfl rfl rfl rfl rfl rfl rfl rfl rfl rfl none none o h X W

theorem mm_2048_4096 (X : (⟨2, ![2048, 2048]⟩ : Shape).Idx → EReal) (W : (⟨2, ![2048, 4096]⟩ : Shape).Idx → EReal) :
    matmul (F := Ideal) (φ₁ := .bf16) (φ₂ := .bf16) Cert.KernelIdeal.dot_S128x2048_S2048x4096_S128x4096_1_0_0_1_n_n none (rows o h X) W
        (constant ⟨2, ![128, 4096]⟩ .f32 0x00000000#32)
      = rows o h (Host.dotGeneral (F := Ideal) (φ₁ := .f32) (φ₂ := .f32) Cert.ReferenceIdeal.dot_S2048x2048_S2048x4096_S2048x4096_1_0_0_1_n_n none X W) :=
  matmul_rows .f32 .f32 _ _ rfl rfl rfl rfl rfl rfl rfl rfl rfl rfl rfl rfl none none o h X W

theorem mm_1024_4096 (X : (⟨2, ![2048, 1024]⟩ : Shape).Idx → EReal) (W : (⟨2, ![1024, 4096]⟩ : Shape).Idx → EReal) :
    matmul (F := Ideal) (φ₁ := .bf16) (φ₂ := .bf16) Cert.KernelIdeal.dot_S128x1024_S1024x4096_S128x4096_1_0_0_1_n_n none (rows o h X) W
        (constant ⟨2, ![128, 4096]⟩ .f32 0x00000000#32)
      = rows o h (Host.dotGeneral (F := Ideal) (φ₁ := .f32) (φ₂ := .f32) Cert.ReferenceIdeal.dot_S2048x1024_S1024x4096_S2048x4096_1_0_0_1_n_n none X W) :=
  matmul_rows .f32 .f32 _ _ rfl rfl rfl rfl rfl rfl rfl rfl rfl rfl rfl rfl none none o h X W

/-! ## The maximum and the sum along each row of 1024 entries, handed back to every column -/

theorem rowmax_1024 (X : FVec Ideal ⟨2, ![2048, 1024]⟩ .f32) :
    multiReduction .maximumf [1] ⟨1, ![128]⟩ (rows o h X) 0xFF800000#32 Cert.KernelIdeal.Facts₀.reduces_S128x1024_S128 (.inl rfl) rfl
      = rows1 o h (Host.reduce FloatOps.maximumf X (constant (F := Ideal) Cert.ReferenceIdeal.S_ .f32 0xFF800000#32) Cert.ReferenceIdeal.Facts₀.reducesTo_S2048x1024_S2048_d1 Cert.ReferenceIdeal.Facts₀.h_S_) :=
  rowmax_rows o h _ _ _ _ _ (by decide) _ X

theorem rowsum_1024 (X : FVec Ideal ⟨2, ![2048, 1024]⟩ .f32) :
    multiReduction .add [1] ⟨1, ![128]⟩ (rows o h X) 0x00000000#32 Cert.KernelIdeal.Facts₀.reduces_S128x1024_S128 (.inl rfl) rfl
      = rows1 o h (Host.reduceAdd X (constant (F := Ideal) Cert.ReferenceIdeal.S_ .f32 0x00000000#32) Cert.ReferenceIdeal.Facts₀.reducesTo_S2048x1024_S2048_d1 Cert.ReferenceIdeal.Facts₀.h_S_) :=
  rowsum_rows o h _ _ _ _ _ (by decide) _ X

theorem neginf_128 :
    (broadcast ⟨1, ![128]⟩ (Scalar.ofBits (F := Ideal) .f32 0xFF800000#32) : FVec Ideal ⟨1, ![128]⟩ .f32)
      = rows1 o h (broadcastInDim ⟨1, ![2048]⟩ ![] Cert.ReferenceIdeal.Facts₀.bcast_S_S2048 (constant (F := Ideal) Cert.ReferenceIdeal.S_ .f32 0xFF800000#32)) :=
  broadcast_rows1 o h _ _

theorem column_128 (v : (⟨1, ![2048]⟩ : Shape).Idx → EReal) :
    shapeCast ⟨2, ![128, 1]⟩ (rows1 o h v) Cert.KernelIdeal.Facts₀.shapeCasts_S128_S128x1
      = rows o h (broadcastInDim ⟨2, ![2048, 1]⟩ ![0] Cert.ReferenceIdeal.Facts₀.bcast_S2048_S2048x1_0 v) :=
  column_rows o h _ _ v

theorem spread_1024 (Y : (⟨2, ![2048, 1]⟩ : Shape).Idx → EReal) :
    broadcastTo ⟨2, ![128, 1024]⟩ (rows o h Y) Cert.KernelIdeal.Facts₀.broadcasts_S128x1_S128x1024
      = rows o h (broadcastInDim ⟨2, ![2048, 1024]⟩ ![0, 1] Cert.ReferenceIdeal.Facts₀.bcast_S2048x1_S2048x1024_0_1 Y) :=
  spread_rows o h _ _ Y

/-! ## Constants, the logistic function, biases, column slices -/

theorem half_2048 :
    (broadcast ⟨2, ![128, 2048]⟩ (Scalar.ofBits (F := Ideal) .f32 0x3F000000#32) : FVec Ideal ⟨2, ![128, 2048]⟩ .f32)
      = rows o h (broadcastInDim ⟨2, ![2048, 2048]⟩ ![] Cert.ReferenceIdeal.Facts₀.bcast_S_S2048x2048 (constant (F := Ideal) Cert.ReferenceIdeal.S_ .f32 0x3F000000#32)) :=
  broadcast_rows o h _ _

theorem logistic_2048 (Z : FVec Ideal ⟨2, ![2048, 2048]⟩ .f32) :
    logistic (rows o h Z)
      = rows o h (Host.divf (broadcastInDim ⟨2, ![2048, 2048]⟩ ![] Cert.ReferenceIdeal.Facts₀.bcast_S_S2048x2048 (constant (F := Ideal) Cert.ReferenceIdeal.S_ .f32 0x3F800000#32))
          (addf (broadcastInDim ⟨2, ![2048, 2048]⟩ ![] Cert.ReferenceIdeal.Facts₀.bcast_S_S2048x2048 (constant (F := Ideal) Cert.ReferenceIdeal.S_ .f32 0x3F800000#32)) (Host.exp (Host.negf Z)))) :=
  logistic_rows o h _ Z

theorem logistic_1024 (Z : FVec Ideal ⟨2, ![2048, 1024]⟩ .f32) :
    logistic (rows o h Z)
      = rows o h (Host.divf (broadcastInDim ⟨2, ![2048, 1024]⟩ ![] Cert.ReferenceIdeal.Facts₀.bcast_S_S2048x1024 (constant (F := Ideal) Cert.ReferenceIdeal.S_ .f32 0x3F800000#32))
          (addf (broadcastInDim ⟨2, ![2048, 1024]⟩ ![] Cert.ReferenceIdeal.Facts₀.bcast_S_S2048x1024 (constant (F := Ideal) Cert.ReferenceIdeal.S_ .f32 0x3F800000#32)) (Host.exp (Host.negf Z)))) :=
  logistic_rows o h _ Z

theorem bias_2048 (v : (⟨1, ![2048]⟩ : Shape).Idx → EReal) :
    broadcastTo ⟨2, ![128, 2048]⟩ (shapeCast ⟨2, ![1, 2048]⟩ v Cert.KernelIdeal.Facts₀.shapeCasts_S2048_S1x2048) Cert.KernelIdeal.Facts₀.broadcasts_S1x2048_S128x2048
      = rows o h (broadcastInDim ⟨2, ![2048, 2048]⟩ ![0, 1] Cert.ReferenceIdeal.Facts₀.bcast_S1x2048_S2048x2048_0_1 (broadcastInDim ⟨2, ![1, 2048]⟩ ![1] Cert.ReferenceIdeal.Facts₀.bcast_S2048_S1x2048_1 v)) := by
  rw [row_of_vector _ Cert.ReferenceIdeal.Facts₀.bcast_S2048_S1x2048_1 v]
  exact bias_rows o h _ _ _

theorem bias_1024 (v : (⟨1, ![1024]⟩ : Shape).Idx → EReal) :
    broadcastTo ⟨2, ![128, 1024]⟩ (shapeCast ⟨2, ![1, 1024]⟩ v Cert.KernelIdeal.Facts₀.shapeCasts_S1024_S1x1024) Cert.KernelIdeal.Facts₀.broadcasts_S1x1024_S128x1024
      = rows o h (broadcastInDim ⟨2, ![2048, 1024]⟩ ![0, 1] Cert.ReferenceIdeal.Facts₀.bcast_S1x1024_S2048x1024_0_1 (broadcastInDim ⟨2, ![1, 1024]⟩ ![1] Cert.ReferenceIdeal.Facts₀.bcast_S1024_S1x1024_1 v)) := by
  rw [row_of_vector _ Cert.ReferenceIdeal.Facts₀.bcast_S1024_S1x1024_1 v]
  exact bias_rows o h _ _ _

theorem bias_4096 (v : (⟨1, ![4096]⟩ : Shape).Idx → EReal) :
    broadcastTo ⟨2, ![128, 4096]⟩ (shapeCast ⟨2, ![1, 4096]⟩ v Cert.KernelIdeal.Facts₀.shapeCasts_S4096_S1x4096) Cert.KernelIdeal.Facts₀.broadcasts_S1x4096_S128x4096
      = rows o h (broadcastInDim ⟨2, ![2048, 4096]⟩ ![0, 1] Cert.ReferenceIdeal.Facts₀.bcast_S1x4096_S2048x4096_0_1 (broadcastInDim ⟨2, ![1, 4096]⟩ ![1] Cert.ReferenceIdeal.Facts₀.bcast_S4096_S1x4096_1 v)) := by
  rw [row_of_vector _ Cert.ReferenceIdeal.Facts₀.bcast_S4096_S1x4096_1 v]
  exact bias_rows o h _ _ _

theorem slice_0 (X : (⟨2, ![2048, 4096]⟩ : Shape).Idx → EReal) :
    extractStridedSlice ⟨2, ![128, 1024]⟩ ![0, 0] (rows o h X) Cert.KernelIdeal.Facts₀.slices_S128x4096_o0_0_S128x1024
      = rows o h (extractStridedSlice ⟨2, ![2048, 1024]⟩ ![0, 0] X Cert.ReferenceIdeal.Facts₀.slices_S2048x4096_S2048x1024_0_0) :=
  slice_rows o h 0 _ _ X

theorem slice_1024 (X : (⟨2, ![2048, 4096]⟩ : Shape).Idx → EReal) :
    extractStridedSlice ⟨2, ![128, 1024]⟩ ![0, 1024] (rows o h X) Cert.KernelIdeal.Facts₀.slices_S128x4096_o0_1024_S128x1024
      = rows o h (extractStridedSlice ⟨2, ![2048, 1024]⟩ ![0, 1024] X Cert.ReferenceIdeal.Facts₀.slices_S2048x4096_S2048x1024_0_1024) :=
  slice_rows o h 1024 _ _ X

theorem slice_2048 (X : (⟨2, ![2048, 4096]⟩ : Shape).Idx → EReal) :
    extractStridedSlice ⟨2, ![128, 1024]⟩ ![0, 2048] (rows o h X) Cert.KernelIdeal.Facts₀.slices_S128x4096_o0_2048_S128x1024
      = rows o h (extractStridedSlice ⟨2, ![2048, 1024]⟩ ![0, 2048] X Cert.ReferenceIdeal.Facts₀.slices_S2048x4096_S2048x1024_0_2048) :=
  slice_rows o h 2048 _ _ X

theorem slice_3072 (X : (⟨2, ![2048, 4096]⟩ : Shape).Idx → EReal) :
    extractStridedSlice ⟨2, ![128, 1024]⟩ ![0, 3072] (rows o h X) Cert.KernelIdeal.Facts₀.slices_S128x4096_o0_3072_S128x1024
      = rows o h (extractStridedSlice ⟨2, ![2048, 1024]⟩ ![0, 3072] X Cert.ReferenceIdeal.Facts₀.slices_S2048x4096_S2048x1024_0_3072) :=
  slice_rows o h 3072 _ _ X

end Cert.BlockOps

end
-- ==== Proof.Region0.lean ====
/-
  The first kernel (embedding and the two cross-attention gates) on a block of 128 rows. Every value the body computes
  from a block of rows of its input is that block of rows of the corresponding stage of the reference: the two
  embeddings are matrix products against whole weights; each gate is a softmax along a row — a row maximum, an
  exponential, a row sum, a quotient — of a product of two such matrix products; the result's two column halves are
  the embeddings times the gates.
-/
import proofs.«136214_j19172734009719_1_alg».proof.Proof.Gen.KernelIdeal.Frame
import proofs.«136214_j19172734009719_1_alg».proof.Proof.RefReadP
import proofs.«136214_j19172734009719_1_alg».proof.Proof.BlockOps

set_option maxRecDepth 16384

noncomputable section

open Idealize.ShloMosaic Idealize.ShloMosaic.ValueIdx Idealize.ShloMosaic.TcCoe Idealize.SL.Sem
open Idealize.ShloMosaic.Pipeline (Dat)
open Cert.RowOps Cert.BlockOps

namespace Cert.KernelIdeal.Region0

open Cert.KernelIdeal Cert.KernelIdeal.Gen Cert.ReferenceIdeal.ReadP

section Payloads

variable (o : ℕ) (h : o + 128 ≤ 2048)
variable (inp : (⟨2, ![2048, 4096]⟩ : Shape).Idx → EReal) (w1 w2 : (⟨2, ![2048, 1024]⟩ : Shape).Idx → EReal)
variable (a1 a2 a3 b1 b2 b3 : (⟨2, ![1024, 1024]⟩ : Shape).Idx → EReal)

/-- The first embedding of a block of rows. -/
theorem emb1_rows : k0_pay3 (F := Ideal) (rows o h (val_main_v0 (F := Ideal) inp)) w1 = rows o h (val_main_v2 (F := Ideal) inp w1) := by
  unfold k0_pay3
  simp only [val_main_v2]
  simp only [truncf_rows, shapeCast_self, mm_2048_1024, mm_1024_1024, mm_2048_2048, mm_2048_4096, mm_1024_4096, addf_rows, tanh_rows, mulf_rows, rowmax_1024, neginf_128, maximumf_rows1, column_128, spread_1024, subf_rows, exp_rows, rowsum_1024, divf_rows, half_2048, logistic_2048, logistic_1024, bias_2048, bias_1024, bias_4096, slice_0, slice_1024, slice_2048, slice_3072]

/-- The second embedding of a block of rows. -/
theorem emb2_rows : k0_pay4 (F := Ideal) (rows o h (val_main_v1 (F := Ideal) inp)) w2 = rows o h (val_main_v3 (F := Ideal) inp w2) := by
  unfold k0_pay4
  simp only [val_main_v3]
  simp only [truncf_rows, shapeCast_self, mm_2048_1024, mm_1024_1024, mm_2048_2048, mm_2048_4096, mm_1024_4096, addf_rows, tanh_rows, mulf_rows, rowmax_1024, neginf_128, maximumf_rows1, column_128, spread_1024, subf_rows, exp_rows, rowsum_1024, divf_rows, half_2048, logistic_2048, logistic_1024, bias_2048, bias_1024, bias_4096, slice_0, slice_1024, slice_2048, slice_3072]

/-- The first gate (a softmax along each row) of a block of rows. -/
theorem gate1_rows :
    k0_pay7 (F := Ideal) (rows o h (val_main_v0 (F := Ideal) inp)) (rows o h (val_main_v1 (F := Ideal) inp)) w1 w2 a1 a2 a3
      = rows o h (val_main_v20 (F := Ideal) inp w1 w2 a1 a2 a3) := by
  unfold k0_pay7 k0_pay5 k0_pay6
  rw [emb1_rows, emb2_rows]
  simp only [val_main_v4, val_main_v5, val_main_v6, val_main_v7, val_main_v8, val_main_v9, val_main_cst, val_main_v10, val_main_cst_0, val_main_v11, val_main_v12, val_main_v13, val_main_v14, val_main_v15, val_main_v16, val_main_cst_1, val_main_v17, val_main_v18, val_main_v19, val_main_v20]
  simp only [truncf_rows, shapeCast_self, mm_2048_1024, mm_1024_1024, mm_2048_2048, mm_2048_4096, mm_1024_4096, addf_rows, tanh_rows, mulf_rows, subf_rows, exp_rows, divf_rows]
  rw [rowmax_1024, neginf_128 o h, maximumf_rows1, column_128, spread_1024, subf_rows, exp_rows, rowsum_1024, column_128, spread_1024, divf_rows]

/-- The second gate of a block of rows, times the second embedding: the right half of the result. -/
theorem half2_rows :
    k0_pay2 (F := Ideal) (k0_pay4 (rows o h (val_main_v1 (F := Ideal) inp)) w2) (k0_pay5 (rows o h (val_main_v0 (F := Ideal) inp)) w1)
        (k0_pay6 (rows o h (val_main_v1 (F := Ideal) inp)) w2) b1 b2 b3
      = rows o h (val_main_v39 (F := Ideal) inp w1 w2 b1 b2 b3) := by
  unfold k0_pay2 k0_pay5 k0_pay6
  rw [emb1_rows, emb2_rows]
  simp only [val_main_v39, val_main_v21, val_main_v22, val_main_v23, val_main_v24, val_main_v25, val_main_v26, val_main_cst_2, val_main_v27, val_main_cst_3, val_main_v28, val_main_v29, val_main_v30, val_main_v31, val_main_v32, val_main_v33, val_main_cst_4, val_main_v34, val_main_v35, val_main_v36, val_main_v37]
  simp only [truncf_rows, shapeCast_self, mm_2048_1024, mm_1024_1024, mm_2048_2048, mm_2048_4096, mm_1024_4096, addf_rows, tanh_rows, mulf_rows, subf_rows, exp_rows, divf_rows]
  rw [rowmax_1024, neginf_128 o h, maximumf_rows1, column_128, spread_1024, subf_rows, exp_rows, rowsum_1024, column_128, spread_1024, divf_rows]
  rw [mulf_rows]

/-- The first gate times the first embedding: the left half of the result. -/
theorem half1_rows :
    k0_pay1 (F := Ideal) (k0_pay3 (rows o h (val_main_v0 (F := Ideal) inp)) w1)
        (k0_pay7 (rows o h (val_main_v0 (F := Ideal) inp)) (rows o h (val_main_v1 (F := Ideal) inp)) w1 w2 a1 a2 a3)
      = rows o h (val_main_v38 (F := Ideal) inp w1 w2 a1 a2 a3) := by
  unfold k0_pay1
  rw [emb1_rows, gate1_rows]
  simp only [val_main_v38]
  rw [mulf_rows]

end Payloads

/-! ## The windows' blocks as rows of the arrays the region finds -/

section Windows

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- Point `t` works on rows `128 t, …, 128 t + 127`. -/
theorem bound (t : Fin cfg0.N) : 128 * t.val + 128 ≤ 2048 := by
  have := t.isLt; have hN : cfg0.N = 16 := N_0; omega

/-- The index maps over the grid: the input and the result sit at block row `t`. -/
theorem idx_w0 : ∀ t : Fin cfg0.N, win0_0.index t (0 : Fin 2) = t.val ∧ win0_0.index t (1 : Fin 2) = 0 :=
  (by decide +kernel : ∀ t : Fin grid0.N, _)
theorem idx_w9 : ∀ t : Fin cfg0.N, win0_9.index t (0 : Fin 2) = t.val ∧ win0_9.index t (1 : Fin 2) = 0 :=
  (by decide +kernel : ∀ t : Fin grid0.N, _)

/-- The input window's block at point `t` is rows `128 t …` of the input, all 4096 columns. -/
theorem inp_block (t : Fin cfg0.N) (y : (⟨2, ![128, 4096]⟩ : Shape).Idx) :
    iblk0 V c 0 t y = V c main_arg0 (ix2 (⟨128 * t.val + (y 0 : Fin 128).val, by have := bound t; have hy : (y 0 : Fin 128).val < 128 := (y 0 : Fin 128).isLt; omega⟩ : Fin 2048) (y 1 : Fin 4096)) := by
  unfold iblk0
  rw [View.read_apply]
  show V c main_arg0 _ = V c main_arg0 _
  refine congrArg _ (funext fun a => Fin.ext ?_)
  match a with
  | ⟨0, _⟩ => show win0_0.index t (0 : Fin 2) * 128 + 1 * (y 0).val = 128 * t.val + (y 0).val; rw [(idx_w0 t).1]; omega
  | ⟨1, _⟩ => show win0_0.index t (1 : Fin 2) * 4096 + 1 * (y 1).val = (y 1).val; rw [(idx_w0 t).2]; omega

/-- The body's first load: the left 2048 columns of the block, which are a block of rows of the input's left half. -/
theorem ld_left (t : Fin cfg0.N) :
    View.ld (iblk0 V c 0 t : Vec Ideal S128x4096 .f32) r0_0 = rows (128 * t.val) (bound t) (val_main_v0 (F := Ideal) (V c main_arg0)) := by
  funext y
  obtain ⟨p, q, rfl⟩ : ∃ (p : Fin 128) (q : Fin 2048), y = ix2 p q := ⟨y 0, y 1, eq_ix2 y⟩
  show iblk0 V c 0 t (r0_0.idx (ix2 p q)) = val_main_v0 (F := Ideal) (V c main_arg0) (ix2 (⟨128 * t.val + p.val, by have := bound t; have := p.isLt; omega⟩ : Fin 2048) q)
  rw [inp_block]
  unfold val_main_v0
  refine (extractStridedSlice_apply _ _ _ _ _ fun a => ?_).symm
  match a with
  | ⟨0, _⟩ => show 128 * t.val + (0 + 1 * p.val) = 0 + (128 * t.val + p.val); omega
  | ⟨1, _⟩ => show 0 + 1 * q.val = 0 + q.val; omega

/-- The second load: the right 2048 columns. -/
theorem ld_right (t : Fin cfg0.N) :
    View.ld (iblk0 V c 0 t : Vec Ideal S128x4096 .f32) r0_1 = rows (128 * t.val) (bound t) (val_main_v1 (F := Ideal) (V c main_arg0)) := by
  funext y
  obtain ⟨p, q, rfl⟩ : ∃ (p : Fin 128) (q : Fin 2048), y = ix2 p q := ⟨y 0, y 1, eq_ix2 y⟩
  show iblk0 V c 0 t (r0_1.idx (ix2 p q)) = val_main_v1 (F := Ideal) (V c main_arg0) (ix2 (⟨128 * t.val + p.val, by have := bound t; have := p.isLt; omega⟩ : Fin 2048) q)
  rw [inp_block]
  unfold val_main_v1
  refine (extractStridedSlice_apply _ _ _ _ _ fun a => ?_).symm
  match a with
  | ⟨0, _⟩ => show 128 * t.val + (0 + 1 * p.val) = 0 + (128 * t.val + p.val); omega
  | ⟨1, _⟩ => show 2048 + 1 * q.val = 2048 + q.val; omega

theorem idx_w1 : ∀ t : Fin cfg0.N, win0_1.index t (0 : Fin 2) = 0 ∧ win0_1.index t (1 : Fin 2) = 0 :=
  (by decide +kernel : ∀ t : Fin grid0.N, _)
/-- Window 1 is a whole weight array at every point. -/
theorem weight1 (t : Fin cfg0.N) : iblk0 V c 1 t = V c main_v0 := by
  funext y
  unfold iblk0
  rw [View.read_apply]
  show V c main_v0 _ = V c main_v0 y
  refine congrArg _ (funext fun a => Fin.ext ?_)
  match a with
  | ⟨0, _⟩ => show win0_1.index t (0 : Fin 2) * 2048 + 1 * (y 0).val = (y 0).val; rw [(idx_w1 t).1]; omega
  | ⟨1, _⟩ => show win0_1.index t (1 : Fin 2) * 1024 + 1 * (y 1).val = (y 1).val; rw [(idx_w1 t).2]; omega

theorem idx_w2 : ∀ t : Fin cfg0.N, win0_2.index t (0 : Fin 2) = 0 ∧ win0_2.index t (1 : Fin 2) = 0 :=
  (by decide +kernel : ∀ t : Fin grid0.N, _)
/-- Window 2 is a whole weight array at every point. -/
theorem weight2 (t : Fin cfg0.N) : iblk0 V c 2 t = V c main_v1 := by
  funext y
  unfold iblk0
  rw [View.read_apply]
  show V c main_v1 _ = V c main_v1 y
  refine congrArg _ (funext fun a => Fin.ext ?_)
  match a with
  | ⟨0, _⟩ => show win0_2.index t (0 : Fin 2) * 2048 + 1 * (y 0).val = (y 0).val; rw [(idx_w2 t).1]; omega
  | ⟨1, _⟩ => show win0_2.index t (1 : Fin 2) * 1024 + 1 * (y 1).val = (y 1).val; rw [(idx_w2 t).2]; omega

theorem idx_w3 : ∀ t : Fin cfg0.N, win0_3.index t (0 : Fin 2) = 0 ∧ win0_3.index t (1 : Fin 2) = 0 :=
  (by decide +kernel : ∀ t : Fin grid0.N, _)
/-- Window 3 is a whole weight array at every point. -/
theorem weight3 (t : Fin cfg0.N) : iblk0 V c 3 t = V c main_v2 := by
  funext y
  unfold iblk0
  rw [View.read_apply]
  show V c main_v2 _ = V c main_v2 y
  refine congrArg _ (funext fun a => Fin.ext ?_)
  match a with
  | ⟨0, _⟩ => show win0_3.index t (0 : Fin 2) * 1024 + 1 * (y 0).val = (y 0).val; rw [(idx_w3 t).1]; omega
  | ⟨1, _⟩ => show win0_3.index t (1 : Fin 2) * 1024 + 1 * (y 1).val = (y 1).val; rw [(idx_w3 t).2]; omega

theorem idx_w4 : ∀ t : Fin cfg0.N, win0_4.index t (0 : Fin 2) = 0 ∧ win0_4.index t (1 : Fin 2) = 0 :=
  (by decide +kernel : ∀ t : Fin grid0.N, _)
/-- Window 4 is a whole weight array at every point. -/
theorem weight4 (t : Fin cfg0.N) : iblk0 V c 4 t = V c main_v3 := by
  funext y
  unfold iblk0
  rw [View.read_apply]
  show V c main_v3 _ = V c main_v3 y
  refine congrArg _ (funext fun a => Fin.ext ?_)
  match a with
  | ⟨0, _⟩ => show win0_4.index t (0 : Fin 2) * 1024 + 1 * (y 0).val = (y 0).val; rw [(idx_w4 t).1]; omega
  | ⟨1, _⟩ => show win0_4.index t (1 : Fin 2) * 1024 + 1 * (y 1).val = (y 1).val; rw [(idx_w4 t).2]; omega

theorem idx_w5 : ∀ t : Fin cfg0.N, win0_5.index t (0 : Fin 2) = 0 ∧ win0_5.index t (1 : Fin 2) = 0 :=
  (by decide +kernel : ∀ t : Fin grid0.N, _)
/-- Window 5 is a whole weight array at every point. -/
theorem weight5 (t : Fin cfg0.N) : iblk0 V c 5 t = V c main_v4 := by
  funext y
  unfold iblk0
  rw [View.read_apply]
  show V c main_v4 _ = V c main_v4 y
  refine congrArg _ (funext fun a => Fin.ext ?_)
  match a with
  | ⟨0, _⟩ => show win0_5.index t (0 : Fin 2) * 1024 + 1 * (y 0).val = (y 0).val; rw [(idx_w5 t).1]; omega
  | ⟨1, _⟩ => show win0_5.index t (1 : Fin 2) * 1024 + 1 * (y 1).val = (y 1).val; rw [(idx_w5 t).2]; omega

theorem idx_w6 : ∀ t : Fin cfg0.N, win0_6.index t (0 : Fin 2) = 0 ∧ win0_6.index t (1 : Fin 2) = 0 :=
  (by decide +kernel : ∀ t : Fin grid0.N, _)
/-- Window 6 is a whole weight array at every point. -/
theorem weight6 (t : Fin cfg0.N) : iblk0 V c 6 t = V c main_v5 := by
  funext y
  unfold iblk0
  rw [View.read_apply]
  show V c main_v5 _ = V c main_v5 y
  refine congrArg _ (funext fun a => Fin.ext ?_)
  match a with
  | ⟨0, _⟩ => show win0_6.index t (0 : Fin 2) * 1024 + 1 * (y 0).val = (y 0).val; rw [(idx_w6 t).1]; omega
  | ⟨1, _⟩ => show win0_6.index t (1 : Fin 2) * 1024 + 1 * (y 1).val = (y 1).val; rw [(idx_w6 t).2]; omega

theorem idx_w7 : ∀ t : Fin cfg0.N, win0_7.index t (0 : Fin 2) = 0 ∧ win0_7.index t (1 : Fin 2) = 0 :=
  (by decide +kernel : ∀ t : Fin grid0.N, _)
/-- Window 7 is a whole weight array at every point. -/
theorem weight7 (t : Fin cfg0.N) : iblk0 V c 7 t = V c main_v6 := by
  funext y
  unfold iblk0
  rw [View.read_apply]
  show V c main_v6 _ = V c main_v6 y
  refine congrArg _ (funext fun a => Fin.ext ?_)
  match a with
  | ⟨0, _⟩ => show win0_7.index t (0 : Fin 2) * 1024 + 1 * (y 0).val = (y 0).val; rw [(idx_w7 t).1]; omega
  | ⟨1, _⟩ => show win0_7.index t (1 : Fin 2) * 1024 + 1 * (y 1).val = (y 1).val; rw [(idx_w7 t).2]; omega

theorem idx_w8 : ∀ t : Fin cfg0.N, win0_8.index t (0 : Fin 2) = 0 ∧ win0_8.index t (1 : Fin 2) = 0 :=
  (by decide +kernel : ∀ t : Fin grid0.N, _)
/-- Window 8 is a whole weight array at every point. -/
theorem weight8 (t : Fin cfg0.N) : iblk0 V c 8 t = V c main_v7 := by
  funext y
  unfold iblk0
  rw [View.read_apply]
  show V c main_v7 _ = V c main_v7 y
  refine congrArg _ (funext fun a => Fin.ext ?_)
  match a with
  | ⟨0, _⟩ => show win0_8.index t (0 : Fin 2) * 1024 + 1 * (y 0).val = (y 0).val; rw [(idx_w8 t).1]; omega
  | ⟨1, _⟩ => show win0_8.index t (1 : Fin 2) * 1024 + 1 * (y 1).val = (y 1).val; rw [(idx_w8 t).2]; omega

/-- What the region leaves in its result array, as one function of the arrays it finds: the reference's `x`. -/
def result (V : (c : Dev nD) → (b : Ref sig .tc) → Buf (Elt Ideal) ((c : Thread nD τ).loc b)) (c : Dev nD) :
    (⟨2, ![2048, 2048]⟩ : Shape).Idx → EReal :=
  val_main_v40 (F := Ideal) (V c main_arg0) (V c main_v0) (V c main_v1) (V c main_v2) (V c main_v3) (V c main_v4) (V c main_v5) (V c main_v6) (V c main_v7)

/-- The two stored halves are the two joined pieces of the reference's concatenation, block by block. -/
theorem halves (o : ℕ) (h : o + 128 ≤ 2048) (inp : (⟨2, ![2048, 4096]⟩ : Shape).Idx → EReal) (w1 w2 : (⟨2, ![2048, 1024]⟩ : Shape).Idx → EReal)
    (a1 a2 a3 b1 b2 b3 : (⟨2, ![1024, 1024]⟩ : Shape).Idx → EReal) (y : (⟨2, ![128, 2048]⟩ : Shape).Idx) :
    View.canon (Val := Elt Ideal) [⟨r0_5, rows o h (val_main_v39 (F := Ideal) inp w1 w2 b1 b2 b3)⟩, ⟨r0_4, rows o h (val_main_v38 (F := Ideal) inp w1 w2 a1 a2 a3)⟩] y
      = rows o h (val_main_v40 (F := Ideal) inp w1 w2 a1 a2 a3 b1 b2 b3) y := by
  refine View.canon_apply_of_pieces (rows o h (val_main_v40 (F := Ideal) inp w1 w2 a1 a2 a3 b1 b2 b3)) _ (fun pc hpc x => ?_) y (cover0_9 _ _ y)
  rcases List.mem_cons.mp hpc with rfl | hpc
  · -- the right half: columns 1024 … 2047
    obtain ⟨p, q, rfl⟩ : ∃ (p : Fin 128) (q : Fin 1024), x = ix2 p q := ⟨x 0, x 1, eq_ix2 x⟩
    show rows o h (val_main_v39 (F := Ideal) inp w1 w2 b1 b2 b3) (ix2 p q) = rows o h (val_main_v40 (F := Ideal) inp w1 w2 a1 a2 a3 b1 b2 b3) (r0_5.emb (ix2 p q))
    unfold rows val_main_v40
    refine Eq.symm ?_
    refine concatenate_pair_apply_right _ _ _ _ _ (by rfl) (by rfl) _ (fun b hb => ?_) ?_
    · match b with
      | ⟨0, _⟩ => show o + p.val = o + (0 + 1 * p.val); omega
      | ⟨1, _⟩ => exact absurd rfl hb
    · show q.val + 1024 = 1024 + 1 * q.val; omega
  · rcases List.mem_cons.mp hpc with rfl | hpc
    · obtain ⟨p, q, rfl⟩ : ∃ (p : Fin 128) (q : Fin 1024), x = ix2 p q := ⟨x 0, x 1, eq_ix2 x⟩
      show rows o h (val_main_v38 (F := Ideal) inp w1 w2 a1 a2 a3) (ix2 p q) = rows o h (val_main_v40 (F := Ideal) inp w1 w2 a1 a2 a3 b1 b2 b3) (r0_4.emb (ix2 p q))
      unfold rows val_main_v40
      refine Eq.symm ?_
      refine concatenate_pair_apply_left _ _ _ _ _ (by rfl) _ (fun b => ?_)
      match b with
      | ⟨0, _⟩ => show o + p.val = o + (0 + 1 * p.val); omega
      | ⟨1, _⟩ => show q.val = 0 + 1 * q.val; omega
    · exact absurd hpc List.not_mem_nil

/-- The whole body on a block of rows: whatever block the body is handed, if its two loads are the two column halves of
    rows `o …` of the input, the buffer it leaves is rows `o …` of the reference's `x`. -/
theorem body_rows (o : ℕ) (h : o + 128 ≤ 2048) (inp : (⟨2, ![2048, 4096]⟩ : Shape).Idx → EReal)
    (x0 : Vec Ideal S128x4096 .f32)
    (hL : View.ld x0 r0_0 = rows o h (val_main_v0 (F := Ideal) inp)) (hR : View.ld x0 r0_1 = rows o h (val_main_v1 (F := Ideal) inp))
    (x1 x2 : Vec Ideal S2048x1024 .bf16) (x3 x4 x5 x6 x7 x8 : Vec Ideal S1024x1024 .bf16) (j : (⟨2, ![128, 2048]⟩ : Shape).Idx) :
    out0_9 (F := Ideal) x0 x1 x2 x3 x4 x5 x6 x7 x8 j = rows o h (val_main_v40 (F := Ideal) inp x1 x2 x3 x4 x5 x6 x7 x8) j := by
  unfold out0_9
  simp only [View.ld_unit_zero (S := S2048x1024) hz, View.ld_unit_zero (S := S1024x1024) hz]
  rw [hL, hR, half1_rows, half2_rows]
  exact halves o h inp x1 x2 x3 x4 x5 x6 x7 x8 j

/-- WHAT POINT `t` WRITES BACK is block `t` of the result function. -/
theorem flushed_eq (t : Fin cfg0.N) :
    (dat0 V c).flushed 9 t = ((cfg0.win 9).blk t).view.read (Elt Ideal) (result V c) := by
  show (cfg0.win 9).cut (grid0.coords t) ((dat0 V c).after 9 t) = _
  rw [after0_9]
  funext j
  refine (body_rows (128 * t.val) (bound t) (V c main_arg0) (iblk0 V c 0 t) (ld_left V c t) (ld_right V c t)
    (iblk0 V c 1 t) (iblk0 V c 2 t) (iblk0 V c 3 t) (iblk0 V c 4 t) (iblk0 V c 5 t) (iblk0 V c 6 t) (iblk0 V c 7 t) (iblk0 V c 8 t) j).trans ?_
  rw [weight1 V c t, weight2 V c t, weight3 V c t, weight4 V c t, weight5 V c t, weight6 V c t, weight7 V c t, weight8 V c t]
  show val_main_v40 (F := Ideal) _ _ _ _ _ _ _ _ _ _ = result V c (((cfg0.win 9).blk t).view.emb j)
  unfold result
  refine congrArg _ (funext fun a => Fin.ext ?_)
  match a with
  | ⟨0, _⟩ => show 128 * t.val + (j 0).val = win0_9.index t (0 : Fin 2) * 128 + 1 * (j 0).val; rw [(idx_w9 t).1]; omega
  | ⟨1, _⟩ => show (j 1).val = win0_9.index t (1 : Fin 2) * 2048 + 1 * (j 1).val; rw [(idx_w9 t).2]; omega

/-- An index of the result array is in point `t`'s block iff each coordinate is in the block's range on its axis. -/
theorem mem_blk (t : Fin cfg0.N) (i : (⟨2, ![2048, 2048]⟩ : Shape).Idx) :
    i ∈ ((cfg0.win 9).blk t).view.set ↔ ∀ a : Fin 2, win0_9.index t a * S128x2048.size a ≤ (i a).val ∧ (i a).val < win0_9.index t a * S128x2048.size a + S128x2048.size a := by
  show i ∈ ((View.whole main_v15).slice (win0_9.rect t)).set ↔ _
  rw [View.set_slice_whole, Rect.mem_set_unit]
  exact Iff.rfl

/-- Every row is in the block of the point `row / 128`. -/
theorem cover (i : (⟨2, ![2048, 2048]⟩ : Shape).Idx) :
    ∃ t : Fin cfg0.N, (cfg0.win 9).flush t = true ∧ i ∈ ((cfg0.win 9).blk t).view.set := by
  have hi0 : (i 0).val < 2048 := (i 0).isLt
  have hi1 : (i 1).val < 2048 := (i 1).isLt
  have hN : cfg0.N = 16 := N_0
  refine ⟨⟨(i 0).val / 128, by omega⟩, flush0_9 _, ?_⟩
  rw [mem_blk]
  intro a
  match a with
  | ⟨0, _⟩ =>
    show win0_9.index ⟨(i 0).val / 128, _⟩ (0 : Fin 2) * 128 ≤ (i 0).val ∧ (i 0).val < win0_9.index ⟨(i 0).val / 128, _⟩ (0 : Fin 2) * 128 + 128
    rw [(idx_w9 _).1]; show (i 0).val / 128 * 128 ≤ (i 0).val ∧ (i 0).val < (i 0).val / 128 * 128 + 128; omega
  | ⟨1, _⟩ =>
    show win0_9.index ⟨(i 0).val / 128, _⟩ (1 : Fin 2) * 2048 ≤ (i 1).val ∧ (i 1).val < win0_9.index ⟨(i 0).val / 128, _⟩ (1 : Fin 2) * 2048 + 2048
    rw [(idx_w9 _).2]; omega

/-- THE RESULT ARRAY after the region: the reference's `x` of the arrays the region finds. -/
theorem final : (dat0 V c).arrAt 9 cfg0.N = result V c :=
  (dat0 V c).arrAt_eq_of_cover 9 (result V c) (fun t _ => flushed_eq V c t) (cover)

end Windows

end Cert.KernelIdeal.Region0

end
-- ==== Proof.Region1.lean ====
/-
  The second kernel (the decomposition gate, the merged cross-history and its projection) on a block of 128 rows: the gate
  is the logistic function of a matrix product plus a bias row; the merged history is half the old history times the
  gate plus half of x; its projection is tanh of a matrix product of the merged history plus a bias row. Each value of
  the body, computed from blocks of rows of the old history and of x, is that block of rows of the reference's stage.
-/
import proofs.«136214_j19172734009719_1_alg».proof.Proof.Gen.KernelIdeal.Frame
import proofs.«136214_j19172734009719_1_alg».proof.Proof.RefReadP
import proofs.«136214_j19172734009719_1_alg».proof.Proof.BlockOps

set_option maxRecDepth 16384

noncomputable section

open Idealize.ShloMosaic Idealize.ShloMosaic.ValueIdx Idealize.ShloMosaic.TcCoe Idealize.SL.Sem
open Idealize.ShloMosaic.Pipeline (Dat)
open Cert.RowOps Cert.BlockOps

namespace Cert.KernelIdeal.Region1

open Cert.KernelIdeal Cert.KernelIdeal.Gen Cert.ReferenceIdeal.ReadP

variable (o : ℕ) (h : o + 128 ≤ 2048)
variable (inp : (⟨2, ![2048, 4096]⟩ : Shape).Idx → EReal) (ht ct : (⟨2, ![2048, 1024]⟩ : Shape).Idx → EReal)
variable (cr : (⟨2, ![2048, 2048]⟩ : Shape).Idx → EReal) (w1 w2 : (⟨2, ![2048, 1024]⟩ : Shape).Idx → EReal)
variable (a1 a2 a3 b1 b2 b3 : (⟨2, ![1024, 1024]⟩ : Shape).Idx → EReal)
variable (cw : (⟨2, ![2048, 1024]⟩ : Shape).Idx → EReal) (cb : (⟨1, ![1024]⟩ : Shape).Idx → EReal)
variable (dw : (⟨2, ![2048, 2048]⟩ : Shape).Idx → EReal) (db : (⟨1, ![2048]⟩ : Shape).Idx → EReal)
variable (kw : (⟨2, ![2048, 4096]⟩ : Shape).Idx → EReal) (rk : (⟨2, ![1024, 4096]⟩ : Shape).Idx → EReal) (bs : (⟨1, ![4096]⟩ : Shape).Idx → EReal)

/-- The merged cross-history of a block of rows. -/
theorem crohis_rows :
    k1_pay1 (F := Ideal) (rows o h cr) (rows o h (val_main_v40 (F := Ideal) inp w1 w2 a1 a2 a3 b1 b2 b3)) dw (shapeCast ⟨2, ![1, 2048]⟩ db Facts₀.shapeCasts_S2048_S1x2048)
      = rows o h (val_main_v56 (F := Ideal) inp cr w1 w2 a1 a2 a3 b1 b2 b3 dw db) := by
  unfold k1_pay1
  simp only [val_main_v41, val_main_v42, val_main_v43, val_main_v44, val_main_v45, val_main_v46, val_main_cst_5, val_main_v47, val_main_v48, val_main_cst_6, val_main_v49, val_main_v50, val_main_cst_7, val_main_v51, val_main_v52, val_main_v53, val_main_cst_8, val_main_v54, val_main_v55, val_main_v56]
  simp only [truncf_rows, shapeCast_self, mm_2048_1024, mm_1024_1024, mm_2048_2048, mm_2048_4096, mm_1024_4096, addf_rows, tanh_rows, mulf_rows, subf_rows, exp_rows, divf_rows]
  rw [bias_2048 o h, addf_rows, logistic_2048, half_2048 o h]
  simp only [truncf_rows, shapeCast_self, mm_2048_1024, mm_1024_1024, mm_2048_2048, mm_2048_4096, mm_1024_4096, addf_rows, tanh_rows, mulf_rows, subf_rows, exp_rows, divf_rows]

/-- Its projection (tanh of a product plus a bias row) of a block of rows. -/
theorem hcro_rows :
    k1_pay2 (F := Ideal) (rows o h cr) (rows o h (val_main_v40 (F := Ideal) inp w1 w2 a1 a2 a3 b1 b2 b3)) dw (shapeCast ⟨2, ![1, 2048]⟩ db Facts₀.shapeCasts_S2048_S1x2048)
        cw (shapeCast ⟨2, ![1, 1024]⟩ cb Facts₀.shapeCasts_S1024_S1x1024)
      = rows o h (val_main_v61 (F := Ideal) inp cr w1 w2 a1 a2 a3 b1 b2 b3 cw cb dw db) := by
  unfold k1_pay2
  rw [crohis_rows]
  simp only [val_main_v57, val_main_v58, val_main_v59, val_main_v60, val_main_v61]
  simp only [truncf_rows, shapeCast_self, mm_2048_1024, mm_1024_1024, mm_2048_2048, mm_2048_4096, mm_1024_4096, addf_rows, tanh_rows, mulf_rows, subf_rows, exp_rows, divf_rows]
  rw [bias_1024 o h, addf_rows, tanh_rows]

/-! ## The windows' blocks, and the two result arrays -/

section Windows

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- Point `t` works on rows `128 t, …, 128 t + 127`. -/
theorem bound (t : Fin cfg1.N) : 128 * t.val + 128 ≤ 2048 := by
  have := t.isLt; have hN : cfg1.N = 16 := N_1; omega

theorem idx_w0 : ∀ t : Fin cfg1.N, win1_0.index t (0 : Fin 2) = t.val ∧ win1_0.index t (1 : Fin 2) = 0 :=
  (by decide +kernel : ∀ t : Fin grid1.N, _)
/-- Window 0's block at point `t` is rows `128 t, …` of its array. -/
theorem rowblk0 (t : Fin cfg1.N) : iblk1 V c 0 t = rows (128 * t.val) (bound t) (V c main_arg3) := by
  funext y
  unfold iblk1
  rw [View.read_apply]
  show V c main_arg3 _ = V c main_arg3 _
  refine congrArg _ (funext fun a => Fin.ext ?_)
  match a with
  | ⟨0, _⟩ => show win1_0.index t (0 : Fin 2) * 128 + 1 * (y 0).val = 128 * t.val + (y 0).val; rw [(idx_w0 t).1]; omega
  | ⟨1, _⟩ => show win1_0.index t (1 : Fin 2) * 2048 + 1 * (y 1).val = (y 1).val; rw [(idx_w0 t).2]; omega

theorem idx_w1 : ∀ t : Fin cfg1.N, win1_1.index t (0 : Fin 2) = t.val ∧ win1_1.index t (1 : Fin 2) = 0 :=
  (by decide +kernel : ∀ t : Fin grid1.N, _)
/-- Window 1's block at point `t` is rows `128 t, …` of its array. -/
theorem rowblk1 (t : Fin cfg1.N) : iblk1 V c 1 t = rows (128 * t.val) (bound t) (V c main_v15) := by
  funext y
  unfold iblk1
  rw [View.read_apply]
  show V c main_v15 _ = V c main_v15 _
  refine congrArg _ (funext fun a => Fin.ext ?_)
  match a with
  | ⟨0, _⟩ => show win1_1.index t (0 : Fin 2) * 128 + 1 * (y 0).val = 128 * t.val + (y 0).val; rw [(idx_w1 t).1]; omega
  | ⟨1, _⟩ => show win1_1.index t (1 : Fin 2) * 2048 + 1 * (y 1).val = (y 1).val; rw [(idx_w1 t).2]; omega

theorem idx_w2 : ∀ t : Fin cfg1.N, win1_2.index t (0 : Fin 2) = 0 ∧ win1_2.index t (1 : Fin 2) = 0 :=
  (by decide +kernel : ∀ t : Fin grid1.N, _)
/-- Window 2 is its whole array at every point. -/
theorem whole2 (t : Fin cfg1.N) : iblk1 V c 2 t = V c main_v8 := by
  funext y
  unfold iblk1
  rw [View.read_apply]
  show V c main_v8 _ = V c main_v8 y
  refine congrArg _ (funext fun a => Fin.ext ?_)
  match a with
  | ⟨0, _⟩ => show win1_2.index t (0 : Fin 2) * 2048 + 1 * (y 0).val = (y 0).val; rw [(idx_w2 t).1]; omega
  | ⟨1, _⟩ => show win1_2.index t (1 : Fin 2) * 2048 + 1 * (y 1).val = (y 1).val; rw [(idx_w2 t).2]; omega

theorem idx_w3 : ∀ t : Fin cfg1.N, win1_3.index t (0 : Fin 2) = 0 ∧ win1_3.index t (1 : Fin 2) = 0 :=
  (by decide +kernel : ∀ t : Fin grid1.N, _)
/-- Window 3 is its whole array at every point. -/
theorem whole3 (t : Fin cfg1.N) : iblk1 V c 3 t = V c main_v12 := by
  funext y
  unfold iblk1
  rw [View.read_apply]
  show V c main_v12 _ = V c main_v12 y
  refine congrArg _ (funext fun a => Fin.ext ?_)
  match a with
  | ⟨0, _⟩ => show win1_3.index t (0 : Fin 2) * 1 + 1 * (y 0).val = (y 0).val; rw [(idx_w3 t).1]; omega
  | ⟨1, _⟩ => show win1_3.index t (1 : Fin 2) * 2048 + 1 * (y 1).val = (y 1).val; rw [(idx_w3 t).2]; omega

theorem idx_w4 : ∀ t : Fin cfg1.N, win1_4.index t (0 : Fin 2) = 0 ∧ win1_4.index t (1 : Fin 2) = 0 :=
  (by decide +kernel : ∀ t : Fin grid1.N, _)
/-- Window 4 is its whole array at every point. -/
theorem whole4 (t : Fin cfg1.N) : iblk1 V c 4 t = V c main_v9 := by
  funext y
  unfold iblk1
  rw [View.read_apply]
  show V c main_v9 _ = V c main_v9 y
  refine congrArg _ (funext fun a => Fin.ext ?_)
  match a with
  | ⟨0, _⟩ => show win1_4.index t (0 : Fin 2) * 2048 + 1 * (y 0).val = (y 0).val; rw [(idx_w4 t).1]; omega
  | ⟨1, _⟩ => show win1_4.index t (1 : Fin 2) * 1024 + 1 * (y 1).val = (y 1).val; rw [(idx_w4 t).2]; omega

theorem idx_w5 : ∀ t : Fin cfg1.N, win1_5.index t (0 : Fin 2) = 0 ∧ win1_5.index t (1 : Fin 2) = 0 :=
  (by decide +kernel : ∀ t : Fin grid1.N, _)
/-- Window 5 is its whole array at every point. -/
theorem whole5 (t : Fin cfg1.N) : iblk1 V c 5 t = V c main_v13 := by
  funext y
  unfold iblk1
  rw [View.read_apply]
  show V c main_v13 _ = V c main_v13 y
  refine congrArg _ (funext fun a => Fin.ext ?_)
  match a with
  | ⟨0, _⟩ => show win1_5.index t (0 : Fin 2) * 1 + 1 * (y 0).val = (y 0).val; rw [(idx_w5 t).1]; omega
  | ⟨1, _⟩ => show win1_5.index t (1 : Fin 2) * 1024 + 1 * (y 1).val = (y 1).val; rw [(idx_w5 t).2]; omega

theorem idx_w6 : ∀ t : Fin cfg1.N, win1_6.index t (0 : Fin 2) = t.val ∧ win1_6.index t (1 : Fin 2) = 0 :=
  (by decide +kernel : ∀ t : Fin grid1.N, _)
/-- A block of rows of a function, read through output window 6's block at point `t`. -/
theorem read_rows6 (t : Fin cfg1.N) (G : (⟨2, ![2048, 2048]⟩ : Shape).Idx → EReal) (j : (⟨2, ![128, 2048]⟩ : Shape).Idx) :
    rows (128 * t.val) (bound t) G j = G (((cfg1.win 6).blk t).view.emb j) := by
  show G _ = G _
  refine congrArg _ (funext fun a => Fin.ext ?_)
  match a with
  | ⟨0, _⟩ => show 128 * t.val + (j 0).val = win1_6.index t (0 : Fin 2) * 128 + 1 * (j 0).val; rw [(idx_w6 t).1]; omega
  | ⟨1, _⟩ => show (j 1).val = win1_6.index t (1 : Fin 2) * 2048 + 1 * (j 1).val; rw [(idx_w6 t).2]; omega
/-- An index of window 6's array is in point `t`'s block iff each coordinate is in the block's range on its axis. -/
theorem mem_blk6 (t : Fin cfg1.N) (i : (⟨2, ![2048, 2048]⟩ : Shape).Idx) :
    i ∈ ((cfg1.win 6).blk t).view.set ↔ ∀ a : Fin 2, win1_6.index t a * S128x2048.size a ≤ (i a).val ∧ (i a).val < win1_6.index t a * S128x2048.size a + S128x2048.size a := by
  show i ∈ ((View.whole main_v16_0).slice (win1_6.rect t)).set ↔ _
  rw [View.set_slice_whole, Rect.mem_set_unit]
  exact Iff.rfl
/-- Every row of window 6's array is in the block of the point `row / 128`. -/
theorem cover6 (i : (⟨2, ![2048, 2048]⟩ : Shape).Idx) :
    ∃ t : Fin cfg1.N, (cfg1.win 6).flush t = true ∧ i ∈ ((cfg1.win 6).blk t).view.set := by
  have hi0 : (i 0).val < 2048 := (i 0).isLt
  have hi1 : (i 1).val < 2048 := (i 1).isLt
  have hN : cfg1.N = 16 := N_1
  refine ⟨⟨(i 0).val / 128, by omega⟩, flush1_6 _, ?_⟩
  rw [mem_blk6]
  intro a
  match a with
  | ⟨0, _⟩ =>
    show win1_6.index ⟨(i 0).val / 128, _⟩ (0 : Fin 2) * 128 ≤ (i 0).val ∧ (i 0).val < win1_6.index ⟨(i 0).val / 128, _⟩ (0 : Fin 2) * 128 + 128
    rw [(idx_w6 _).1]; show (i 0).val / 128 * 128 ≤ (i 0).val ∧ (i 0).val < (i 0).val / 128 * 128 + 128; omega
  | ⟨1, _⟩ =>
    show win1_6.index ⟨(i 0).val / 128, _⟩ (1 : Fin 2) * 2048 ≤ (i 1).val ∧ (i 1).val < win1_6.index ⟨(i 0).val / 128, _⟩ (1 : Fin 2) * 2048 + 2048
    rw [(idx_w6 _).2]; omega

theorem idx_w7 : ∀ t : Fin cfg1.N, win1_7.index t (0 : Fin 2) = t.val ∧ win1_7.index t (1 : Fin 2) = 0 :=
  (by decide +kernel : ∀ t : Fin grid1.N, _)
/-- A block of rows of a function, read through output window 7's block at point `t`. -/
theorem read_rows7 (t : Fin cfg1.N) (G : (⟨2, ![2048, 1024]⟩ : Shape).Idx → EReal) (j : (⟨2, ![128, 1024]⟩ : Shape).Idx) :
    rows (128 * t.val) (bound t) G j = G (((cfg1.win 7).blk t).view.emb j) := by
  show G _ = G _
  refine congrArg _ (funext fun a => Fin.ext ?_)
  match a with
  | ⟨0, _⟩ => show 128 * t.val + (j 0).val = win1_7.index t (0 : Fin 2) * 128 + 1 * (j 0).val; rw [(idx_w7 t).1]; omega
  | ⟨1, _⟩ => show (j 1).val = win1_7.index t (1 : Fin 2) * 1024 + 1 * (j 1).val; rw [(idx_w7 t).2]; omega
/-- An index of window 7's array is in point `t`'s block iff each coordinate is in the block's range on its axis. -/
theorem mem_blk7 (t : Fin cfg1.N) (i : (⟨2, ![2048, 1024]⟩ : Shape).Idx) :
    i ∈ ((cfg1.win 7).blk t).view.set ↔ ∀ a : Fin 2, win1_7.index t a * S128x1024.size a ≤ (i a).val ∧ (i a).val < win1_7.index t a * S128x1024.size a + S128x1024.size a := by
  show i ∈ ((View.whole main_v16_1).slice (win1_7.rect t)).set ↔ _
  rw [View.set_slice_whole, Rect.mem_set_unit]
  exact Iff.rfl
/-- Every row of window 7's array is in the block of the point `row / 128`. -/
theorem cover7 (i : (⟨2, ![2048, 1024]⟩ : Shape).Idx) :
    ∃ t : Fin cfg1.N, (cfg1.win 7).flush t = true ∧ i ∈ ((cfg1.win 7).blk t).view.set := by
  have hi0 : (i 0).val < 2048 := (i 0).isLt
  have hi1 : (i 1).val < 1024 := (i 1).isLt
  have hN : cfg1.N = 16 := N_1
  refine ⟨⟨(i 0).val / 128, by omega⟩, flush1_7 _, ?_⟩
  rw [mem_blk7]
  intro a
  match a with
  | ⟨0, _⟩ =>
    show win1_7.index ⟨(i 0).val / 128, _⟩ (0 : Fin 2) * 128 ≤ (i 0).val ∧ (i 0).val < win1_7.index ⟨(i 0).val / 128, _⟩ (0 : Fin 2) * 128 + 128
    rw [(idx_w7 _).1]; show (i 0).val / 128 * 128 ≤ (i 0).val ∧ (i 0).val < (i 0).val / 128 * 128 + 128; omega
  | ⟨1, _⟩ =>
    show win1_7.index ⟨(i 0).val / 128, _⟩ (1 : Fin 2) * 1024 ≤ (i 1).val ∧ (i 1).val < win1_7.index ⟨(i 0).val / 128, _⟩ (1 : Fin 2) * 1024 + 1024
    rw [(idx_w7 _).2]; omega

/-- The whole body's first store on a block of rows: the merged cross-history. -/
theorem body6_rows (x0 x1 : Vec Ideal S128x2048 .f32) (x2 : Vec Ideal S2048x2048 .bf16) (x3 : Vec Ideal S1x2048 .f32)
    (x4 : Vec Ideal S2048x1024 .bf16) (x5 : Vec Ideal S1x1024 .f32)
    (h0 : x0 = rows o h cr) (h1 : x1 = rows o h (val_main_v40 (F := Ideal) inp w1 w2 a1 a2 a3 b1 b2 b3))
    (h3 : x3 = shapeCast ⟨2, ![1, 2048]⟩ db Facts₀.shapeCasts_S2048_S1x2048) :
    out1_6 (F := Ideal) x0 x1 x2 x3 x4 x5 = rows o h (val_main_v56 (F := Ideal) inp cr w1 w2 a1 a2 a3 b1 b2 b3 x2 db) := by
  unfold out1_6
  rw [View.canon_unit_zero hz]
  simp only [View.ld_unit_zero (S := S128x2048) hz, View.ld_unit_zero (S := S2048x2048) hz, View.ld_unit_zero (S := S1x2048) hz]
  rw [h0, h1, h3]
  exact crohis_rows o h inp cr w1 w2 a1 a2 a3 b1 b2 b3 x2 db

/-- The second store: the projection of the merged cross-history. -/
theorem body7_rows (x0 x1 : Vec Ideal S128x2048 .f32) (x2 : Vec Ideal S2048x2048 .bf16) (x3 : Vec Ideal S1x2048 .f32)
    (x4 : Vec Ideal S2048x1024 .bf16) (x5 : Vec Ideal S1x1024 .f32)
    (h0 : x0 = rows o h cr) (h1 : x1 = rows o h (val_main_v40 (F := Ideal) inp w1 w2 a1 a2 a3 b1 b2 b3))
    (h3 : x3 = shapeCast ⟨2, ![1, 2048]⟩ db Facts₀.shapeCasts_S2048_S1x2048)
    (h5 : x5 = shapeCast ⟨2, ![1, 1024]⟩ cb Facts₀.shapeCasts_S1024_S1x1024) :
    out1_7 (F := Ideal) x0 x1 x2 x3 x4 x5 = rows o h (val_main_v61 (F := Ideal) inp cr w1 w2 a1 a2 a3 b1 b2 b3 x4 cb x2 db) := by
  unfold out1_7
  rw [View.canon_unit_zero hz]
  simp only [View.ld_unit_zero (S := S128x2048) hz, View.ld_unit_zero (S := S2048x2048) hz, View.ld_unit_zero (S := S1x2048) hz,
    View.ld_unit_zero (S := S2048x1024) hz, View.ld_unit_zero (S := S1x1024) hz]
  rw [h0, h1, h3, h5]
  exact hcro_rows o h inp cr w1 w2 a1 a2 a3 b1 b2 b3 x4 cb x2 db

/-- What the region finds: x in its second window, the two bias rows as reshaped vectors. -/
structure Finds : Prop where
  x : V c main_v15 = val_main_v40 (F := Ideal) inp w1 w2 a1 a2 a3 b1 b2 b3
  dbias : V c main_v12 = shapeCast ⟨2, ![1, 2048]⟩ db Facts₀.shapeCasts_S2048_S1x2048
  cbias : V c main_v13 = shapeCast ⟨2, ![1, 1024]⟩ cb Facts₀.shapeCasts_S1024_S1x1024

variable {V c inp w1 w2 a1 a2 a3 b1 b2 b3 cb db}

/-- THE MERGED CROSS-HISTORY ARRAY after the region. -/
theorem final6 (hf : Finds inp w1 w2 a1 a2 a3 b1 b2 b3 cb db V c) :
    (dat1 V c).arrAt 6 cfg1.N = val_main_v56 (F := Ideal) inp (V c main_arg3) w1 w2 a1 a2 a3 b1 b2 b3 (V c main_v8) db := by
  refine (dat1 V c).arrAt_eq_of_cover 6 _ (fun t _ => ?_) (cover6)
  show (cfg1.win 6).cut (grid1.coords t) ((dat1 V c).after 6 t) = _
  rw [after1_6]
  funext j
  rw [body6_rows (128 * t.val) (bound t) inp (V c main_arg3) w1 w2 a1 a2 a3 b1 b2 b3 db _ _ _ _ _ _
    (rowblk0 V c t) ((rowblk1 V c t).trans (by rw [hf.x])) ((whole3 V c t).trans hf.dbias)]
  rw [whole2 V c t]
  exact read_rows6 t _ j

/-- THE PROJECTION ARRAY after the region. -/
theorem final7 (hf : Finds inp w1 w2 a1 a2 a3 b1 b2 b3 cb db V c) :
    (dat1 V c).arrAt 7 cfg1.N = val_main_v61 (F := Ideal) inp (V c main_arg3) w1 w2 a1 a2 a3 b1 b2 b3 (V c main_v9) cb (V c main_v8) db := by
  refine (dat1 V c).arrAt_eq_of_cover 7 _ (fun t _ => ?_) (cover7)
  show (cfg1.win 7).cut (grid1.coords t) ((dat1 V c).after 7 t) = _
  rw [after1_7]
  funext j
  rw [body7_rows (128 * t.val) (bound t) inp (V c main_arg3) w1 w2 a1 a2 a3 b1 b2 b3 cb db _ _ _ _ _ _
    (rowblk0 V c t) ((rowblk1 V c t).trans (by rw [hf.x])) ((whole3 V c t).trans hf.dbias) ((whole5 V c t).trans hf.cbias)]
  rw [whole2 V c t, whole4 V c t]
  exact read_rows7 t _ j

end Windows

end Cert.KernelIdeal.Region1

end
-- ==== Proof.Region2.lean ====
/-
  The third kernel (the fused gates of the cell) on a block of 128 rows: the pre-activations are two matrix products and
  a bias row; four column slices of them go through the logistic function and tanh; the new cell state is the forget
  gate times the old state plus the input gate times the candidate; the new hidden state is the output gate times tanh
  of the new cell state, plus the projected cross-history. Each value of the body, computed from blocks of rows, is
  that block of rows of the reference's stage.
-/
import proofs.«136214_j19172734009719_1_alg».proof.Proof.Gen.KernelIdeal.Frame
import proofs.«136214_j19172734009719_1_alg».proof.Proof.RefReadP
import proofs.«136214_j19172734009719_1_alg».proof.Proof.BlockOps

set_option maxRecDepth 16384

noncomputable section

open Idealize.ShloMosaic Idealize.ShloMosaic.ValueIdx Idealize.ShloMosaic.TcCoe Idealize.SL.Sem
open Idealize.ShloMosaic.Pipeline (Dat)
open Cert.RowOps Cert.BlockOps

namespace Cert.KernelIdeal.Region2

open Cert.KernelIdeal Cert.KernelIdeal.Gen Cert.ReferenceIdeal.ReadP

variable (o : ℕ) (h : o + 128 ≤ 2048)
variable (inp : (⟨2, ![2048, 4096]⟩ : Shape).Idx → EReal) (ht ct : (⟨2, ![2048, 1024]⟩ : Shape).Idx → EReal)
variable (cr : (⟨2, ![2048, 2048]⟩ : Shape).Idx → EReal) (w1 w2 : (⟨2, ![2048, 1024]⟩ : Shape).Idx → EReal)
variable (a1 a2 a3 b1 b2 b3 : (⟨2, ![1024, 1024]⟩ : Shape).Idx → EReal)
variable (cw : (⟨2, ![2048, 1024]⟩ : Shape).Idx → EReal) (cb : (⟨1, ![1024]⟩ : Shape).Idx → EReal)
variable (dw : (⟨2, ![2048, 2048]⟩ : Shape).Idx → EReal) (db : (⟨1, ![2048]⟩ : Shape).Idx → EReal)
variable (kw : (⟨2, ![2048, 4096]⟩ : Shape).Idx → EReal) (rk : (⟨2, ![1024, 4096]⟩ : Shape).Idx → EReal) (bs : (⟨1, ![4096]⟩ : Shape).Idx → EReal)

/-- The pre-activations of a block of rows. -/
theorem preact_rows :
    k2_pay1 (F := Ideal) (rows o h (val_main_v40 (F := Ideal) inp w1 w2 a1 a2 a3 b1 b2 b3)) (rows o h ht) kw rk (shapeCast ⟨2, ![1, 4096]⟩ bs Facts₀.shapeCasts_S4096_S1x4096)
      = rows o h (val_main_v67 (F := Ideal) inp ht w1 w2 a1 a2 a3 b1 b2 b3 kw rk bs) := by
  unfold k2_pay1
  simp only [val_main_v62, val_main_v63, val_main_v64, val_main_v65, val_main_v66, val_main_v67]
  simp only [truncf_rows, shapeCast_self, mm_2048_1024, mm_1024_1024, mm_2048_2048, mm_2048_4096, mm_1024_4096, addf_rows, tanh_rows, mulf_rows, subf_rows, exp_rows, divf_rows]
  rw [bias_4096 o h, addf_rows]

/-- The new cell state of a block of rows. -/
theorem cell_rows :
    k2_pay2 (F := Ideal) (rows o h (val_main_v40 (F := Ideal) inp w1 w2 a1 a2 a3 b1 b2 b3)) (rows o h ht) (rows o h ct) kw rk (shapeCast ⟨2, ![1, 4096]⟩ bs Facts₀.shapeCasts_S4096_S1x4096)
      = rows o h (val_main_v87 (F := Ideal) inp ht ct w1 w2 a1 a2 a3 b1 b2 b3 kw rk bs) := by
  unfold k2_pay2
  rw [preact_rows]
  simp only [val_main_v68, val_main_v69, val_main_v70, val_main_v71, val_main_v72, val_main_v73, val_main_cst_9, val_main_v74, val_main_v75, val_main_cst_10, val_main_v76, val_main_v77, val_main_v78, val_main_v79, val_main_cst_11, val_main_v80, val_main_v81, val_main_cst_12, val_main_v82, val_main_v83, val_main_v84, val_main_v85, val_main_v86, val_main_v87]
  rw [slice_0, slice_1024, slice_2048, logistic_1024, logistic_1024]
  simp only [truncf_rows, shapeCast_self, mm_2048_1024, mm_1024_1024, mm_2048_2048, mm_2048_4096, mm_1024_4096, addf_rows, tanh_rows, mulf_rows, subf_rows, exp_rows, divf_rows]

/-- The new hidden state of a block of rows. -/
theorem hidden_rows :
    k2_pay3 (F := Ideal) (rows o h (val_main_v40 (F := Ideal) inp w1 w2 a1 a2 a3 b1 b2 b3)) (rows o h ht) (rows o h ct) (rows o h (val_main_v61 (F := Ideal) inp cr w1 w2 a1 a2 a3 b1 b2 b3 cw cb dw db)) kw rk
        (shapeCast ⟨2, ![1, 4096]⟩ bs Facts₀.shapeCasts_S4096_S1x4096)
      = rows o h (val_main_v96 (F := Ideal) inp ht ct cr w1 w2 a1 a2 a3 b1 b2 b3 cw cb dw db kw rk bs) := by
  unfold k2_pay3
  rw [preact_rows, cell_rows]
  simp only [val_main_v71, val_main_v88, val_main_v89, val_main_cst_13, val_main_v90, val_main_v91, val_main_cst_14, val_main_v92, val_main_v93, val_main_v94, val_main_v95, val_main_v96]
  rw [slice_3072, logistic_1024]
  simp only [truncf_rows, shapeCast_self, mm_2048_1024, mm_1024_1024, mm_2048_2048, mm_2048_4096, mm_1024_4096, addf_rows, tanh_rows, mulf_rows, subf_rows, exp_rows, divf_rows]

/-! ## The windows' blocks, and the two result arrays -/

section Windows

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- Point `t` works on rows `128 t, …, 128 t + 127`. -/
theorem bound (t : Fin cfg2.N) : 128 * t.val + 128 ≤ 2048 := by
  have := t.isLt; have hN : cfg2.N = 16 := N_2; omega

theorem idx_w0 : ∀ t : Fin cfg2.N, win2_0.index t (0 : Fin 2) = t.val ∧ win2_0.index t (1 : Fin 2) = 0 :=
  (by decide +kernel : ∀ t : Fin grid2.N, _)
/-- Window 0's block at point `t` is rows `128 t, …` of its array. -/
theorem rowblk0 (t : Fin cfg2.N) : iblk2 V c 0 t = rows (128 * t.val) (bound t) (V c main_v15) := by
  funext y
  unfold iblk2
  rw [View.read_apply]
  show V c main_v15 _ = V c main_v15 _
  refine congrArg _ (funext fun a => Fin.ext ?_)
  match a with
  | ⟨0, _⟩ => show win2_0.index t (0 : Fin 2) * 128 + 1 * (y 0).val = 128 * t.val + (y 0).val; rw [(idx_w0 t).1]; omega
  | ⟨1, _⟩ => show win2_0.index t (1 : Fin 2) * 2048 + 1 * (y 1).val = (y 1).val; rw [(idx_w0 t).2]; omega

theorem idx_w1 : ∀ t : Fin cfg2.N, win2_1.index t (0 : Fin 2) = t.val ∧ win2_1.index t (1 : Fin 2) = 0 :=
  (by decide +kernel : ∀ t : Fin grid2.N, _)
/-- Window 1's block at point `t` is rows `128 t, …` of its array. -/
theorem rowblk1 (t : Fin cfg2.N) : iblk2 V c 1 t = rows (128 * t.val) (bound t) (V c main_arg1) := by
  funext y
  unfold iblk2
  rw [View.read_apply]
  show V c main_arg1 _ = V c main_arg1 _
  refine congrArg _ (funext fun a => Fin.ext ?_)
  match a with
  | ⟨0, _⟩ => show win2_1.index t (0 : Fin 2) * 128 + 1 * (y 0).val = 128 * t.val + (y 0).val; rw [(idx_w1 t).1]; omega
  | ⟨1, _⟩ => show win2_1.index t (1 : Fin 2) * 1024 + 1 * (y 1).val = (y 1).val; rw [(idx_w1 t).2]; omega

theorem idx_w2 : ∀ t : Fin cfg2.N, win2_2.index t (0 : Fin 2) = t.val ∧ win2_2.index t (1 : Fin 2) = 0 :=
  (by decide +kernel : ∀ t : Fin grid2.N, _)
/-- Window 2's block at point `t` is rows `128 t, …` of its array. -/
theorem rowblk2 (t : Fin cfg2.N) : iblk2 V c 2 t = rows (128 * t.val) (bound t) (V c main_arg2) := by
  funext y
  unfold iblk2
  rw [View.read_apply]
  show V c main_arg2 _ = V c main_arg2 _
  refine congrArg _ (funext fun a => Fin.ext ?_)
  match a with
  | ⟨0, _⟩ => show win2_2.index t (0 : Fin 2) * 128 + 1 * (y 0).val = 128 * t.val + (y 0).val; rw [(idx_w2 t).1]; omega
  | ⟨1, _⟩ => show win2_2.index t (1 : Fin 2) * 1024 + 1 * (y 1).val = (y 1).val; rw [(idx_w2 t).2]; omega

theorem idx_w3 : ∀ t : Fin cfg2.N, win2_3.index t (0 : Fin 2) = t.val ∧ win2_3.index t (1 : Fin 2) = 0 :=
  (by decide +kernel : ∀ t : Fin grid2.N, _)
/-- Window 3's block at point `t` is rows `128 t, …` of its array. -/
theorem rowblk3 (t : Fin cfg2.N) : iblk2 V c 3 t = rows (128 * t.val) (bound t) (V c main_v16_1) := by
  funext y
  unfold iblk2
  rw [View.read_apply]
  show V c main_v16_1 _ = V c main_v16_1 _
  refine congrArg _ (funext fun a => Fin.ext ?_)
  match a with
  | ⟨0, _⟩ => show win2_3.index t (0 : Fin 2) * 128 + 1 * (y 0).val = 128 * t.val + (y 0).val; rw [(idx_w3 t).1]; omega
  | ⟨1, _⟩ => show win2_3.index t (1 : Fin 2) * 1024 + 1 * (y 1).val = (y 1).val; rw [(idx_w3 t).2]; omega

theorem idx_w4 : ∀ t : Fin cfg2.N, win2_4.index t (0 : Fin 2) = 0 ∧ win2_4.index t (1 : Fin 2) = 0 :=
  (by decide +kernel : ∀ t : Fin grid2.N, _)
/-- Window 4 is its whole array at every point. -/
theorem whole4 (t : Fin cfg2.N) : iblk2 V c 4 t = V c main_v10 := by
  funext y
  unfold iblk2
  rw [View.read_apply]
  show V c main_v10 _ = V c main_v10 y
  refine congrArg _ (funext fun a => Fin.ext ?_)
  match a with
  | ⟨0, _⟩ => show win2_4.index t (0 : Fin 2) * 2048 + 1 * (y 0).val = (y 0).val; rw [(idx_w4 t).1]; omega
  | ⟨1, _⟩ => show win2_4.index t (1 : Fin 2) * 4096 + 1 * (y 1).val = (y 1).val; rw [(idx_w4 t).2]; omega

theorem idx_w5 : ∀ t : Fin cfg2.N, win2_5.index t (0 : Fin 2) = 0 ∧ win2_5.index t (1 : Fin 2) = 0 :=
  (by decide +kernel : ∀ t : Fin grid2.N, _)
/-- Window 5 is its whole array at every point. -/
theorem whole5 (t : Fin cfg2.N) : iblk2 V c 5 t = V c main_v11 := by
  funext y
  unfold iblk2
  rw [View.read_apply]
  show V c main_v11 _ = V c main_v11 y
  refine congrArg _ (funext fun a => Fin.ext ?_)
  match a with
  | ⟨0, _⟩ => show win2_5.index t (0 : Fin 2) * 1024 + 1 * (y 0).val = (y 0).val; rw [(idx_w5 t).1]; omega
  | ⟨1, _⟩ => show win2_5.index t (1 : Fin 2) * 4096 + 1 * (y 1).val = (y 1).val; rw [(idx_w5 t).2]; omega

theorem idx_w6 : ∀ t : Fin cfg2.N, win2_6.index t (0 : Fin 2) = 0 ∧ win2_6.index t (1 : Fin 2) = 0 :=
  (by decide +kernel : ∀ t : Fin grid2.N, _)
/-- Window 6 is its whole array at every point. -/
theorem whole6 (t : Fin cfg2.N) : iblk2 V c 6 t = V c main_v14 := by
  funext y
  unfold iblk2
  rw [View.read_apply]
  show V c main_v14 _ = V c main_v14 y
  refine congrArg _ (funext fun a => Fin.ext ?_)
  match a with
  | ⟨0, _⟩ => show win2_6.index t (0 : Fin 2) * 1 + 1 * (y 0).val = (y 0).val; rw [(idx_w6 t).1]; omega
  | ⟨1, _⟩ => show win2_6.index t (1 : Fin 2) * 4096 + 1 * (y 1).val = (y 1).val; rw [(idx_w6 t).2]; omega

theorem idx_w7 : ∀ t : Fin cfg2.N, win2_7.index t (0 : Fin 2) = t.val ∧ win2_7.index t (1 : Fin 2) = 0 :=
  (by decide +kernel : ∀ t : Fin grid2.N, _)
/-- A block of rows of a function, read through output window 7's block at point `t`. -/
theorem read_rows7 (t : Fin cfg2.N) (G : (⟨2, ![2048, 1024]⟩ : Shape).Idx → EReal) (j : (⟨2, ![128, 1024]⟩ : Shape).Idx) :
    rows (128 * t.val) (bound t) G j = G (((cfg2.win 7).blk t).view.emb j) := by
  show G _ = G _
  refine congrArg _ (funext fun a => Fin.ext ?_)
  match a with
  | ⟨0, _⟩ => show 128 * t.val + (j 0).val = win2_7.index t (0 : Fin 2) * 128 + 1 * (j 0).val; rw [(idx_w7 t).1]; omega
  | ⟨1, _⟩ => show (j 1).val = win2_7.index t (1 : Fin 2) * 1024 + 1 * (j 1).val; rw [(idx_w7 t).2]; omega
/-- An index of window 7's array is in point `t`'s block iff each coordinate is in the block's range on its axis. -/
theorem mem_blk7 (t : Fin cfg2.N) (i : (⟨2, ![2048, 1024]⟩ : Shape).Idx) :
    i ∈ ((cfg2.win 7).blk t).view.set ↔ ∀ a : Fin 2, win2_7.index t a * S128x1024.size a ≤ (i a).val ∧ (i a).val < win2_7.index t a * S128x1024.size a + S128x1024.size a := by
  show i ∈ ((View.whole main_v17_0).slice (win2_7.rect t)).set ↔ _
  rw [View.set_slice_whole, Rect.mem_set_unit]
  exact Iff.rfl
/-- Every row of window 7's array is in the block of the point `row / 128`. -/
theorem cover7 (i : (⟨2, ![2048, 1024]⟩ : Shape).Idx) :
    ∃ t : Fin cfg2.N, (cfg2.win 7).flush t = true ∧ i ∈ ((cfg2.win 7).blk t).view.set := by
  have hi0 : (i 0).val < 2048 := (i 0).isLt
  have hi1 : (i 1).val < 1024 := (i 1).isLt
  have hN : cfg2.N = 16 := N_2
  refine ⟨⟨(i 0).val / 128, by omega⟩, flush2_7 _, ?_⟩
  rw [mem_blk7]
  intro a
  match a with
  | ⟨0, _⟩ =>
    show win2_7.index ⟨(i 0).val / 128, _⟩ (0 : Fin 2) * 128 ≤ (i 0).val ∧ (i 0).val < win2_7.index ⟨(i 0).val / 128, _⟩ (0 : Fin 2) * 128 + 128
    rw [(idx_w7 _).1]; show (i 0).val / 128 * 128 ≤ (i 0).val ∧ (i 0).val < (i 0).val / 128 * 128 + 128; omega
  | ⟨1, _⟩ =>
    show win2_7.index ⟨(i 0).val / 128, _⟩ (1 : Fin 2) * 1024 ≤ (i 1).val ∧ (i 1).val < win2_7.index ⟨(i 0).val / 128, _⟩ (1 : Fin 2) * 1024 + 1024
    rw [(idx_w7 _).2]; omega

theorem idx_w8 : ∀ t : Fin cfg2.N, win2_8.index t (0 : Fin 2) = t.val ∧ win2_8.index t (1 : Fin 2) = 0 :=
  (by decide +kernel : ∀ t : Fin grid2.N, _)
/-- A block of rows of a function, read through output window 8's block at point `t`. -/
theorem read_rows8 (t : Fin cfg2.N) (G : (⟨2, ![2048, 1024]⟩ : Shape).Idx → EReal) (j : (⟨2, ![128, 1024]⟩ : Shape).Idx) :
    rows (128 * t.val) (bound t) G j = G (((cfg2.win 8).blk t).view.emb j) := by
  show G _ = G _
  refine congrArg _ (funext fun a => Fin.ext ?_)
  match a with
  | ⟨0, _⟩ => show 128 * t.val + (j 0).val = win2_8.index t (0 : Fin 2) * 128 + 1 * (j 0).val; rw [(idx_w8 t).1]; omega
  | ⟨1, _⟩ => show (j 1).val = win2_8.index t (1 : Fin 2) * 1024 + 1 * (j 1).val; rw [(idx_w8 t).2]; omega
/-- An index of window 8's array is in point `t`'s block iff each coordinate is in the block's range on its axis. -/
theorem mem_blk8 (t : Fin cfg2.N) (i : (⟨2, ![2048, 1024]⟩ : Shape).Idx) :
    i ∈ ((cfg2.win 8).blk t).view.set ↔ ∀ a : Fin 2, win2_8.index t a * S128x1024.size a ≤ (i a).val ∧ (i a).val < win2_8.index t a * S128x1024.size a + S128x1024.size a := by
  show i ∈ ((View.whole main_v17_1).slice (win2_8.rect t)).set ↔ _
  rw [View.set_slice_whole, Rect.mem_set_unit]
  exact Iff.rfl
/-- Every row of window 8's array is in the block of the point `row / 128`. -/
theorem cover8 (i : (⟨2, ![2048, 1024]⟩ : Shape).Idx) :
    ∃ t : Fin cfg2.N, (cfg2.win 8).flush t = true ∧ i ∈ ((cfg2.win 8).blk t).view.set := by
  have hi0 : (i 0).val < 2048 := (i 0).isLt
  have hi1 : (i 1).val < 1024 := (i 1).isLt
  have hN : cfg2.N = 16 := N_2
  refine ⟨⟨(i 0).val / 128, by omega⟩, flush2_8 _, ?_⟩
  rw [mem_blk8]
  intro a
  match a with
  | ⟨0, _⟩ =>
    show win2_8.index ⟨(i 0).val / 128, _⟩ (0 : Fin 2) * 128 ≤ (i 0).val ∧ (i 0).val < win2_8.index ⟨(i 0).val / 128, _⟩ (0 : Fin 2) * 128 + 128
    rw [(idx_w8 _).1]; show (i 0).val / 128 * 128 ≤ (i 0).val ∧ (i 0).val < (i 0).val / 128 * 128 + 128; omega
  | ⟨1, _⟩ =>
    show win2_8.index ⟨(i 0).val / 128, _⟩ (1 : Fin 2) * 1024 ≤ (i 1).val ∧ (i 1).val < win2_8.index ⟨(i 0).val / 128, _⟩ (1 : Fin 2) * 1024 + 1024
    rw [(idx_w8 _).2]; omega

/-- The whole body's first store on a block of rows: the new hidden state. -/
theorem body7_rows (x0 : Vec Ideal S128x2048 .f32) (x1 x2 x3 : Vec Ideal S128x1024 .f32) (x4 : Vec Ideal S2048x4096 .bf16)
    (x5 : Vec Ideal S1024x4096 .bf16) (x6 : Vec Ideal S1x4096 .f32)
    (h0 : x0 = rows o h (val_main_v40 (F := Ideal) inp w1 w2 a1 a2 a3 b1 b2 b3)) (h1 : x1 = rows o h ht) (h2 : x2 = rows o h ct)
    (h3 : x3 = rows o h (val_main_v61 (F := Ideal) inp cr w1 w2 a1 a2 a3 b1 b2 b3 cw cb dw db))
    (h6 : x6 = shapeCast ⟨2, ![1, 4096]⟩ bs Facts₀.shapeCasts_S4096_S1x4096) :
    out2_7 (F := Ideal) x0 x1 x2 x3 x4 x5 x6 = rows o h (val_main_v96 (F := Ideal) inp ht ct cr w1 w2 a1 a2 a3 b1 b2 b3 cw cb dw db x4 x5 bs) := by
  unfold out2_7
  rw [View.canon_unit_zero hz]
  simp only [View.ld_unit_zero (S := S128x2048) hz, View.ld_unit_zero (S := S128x1024) hz, View.ld_unit_zero (S := S2048x4096) hz,
    View.ld_unit_zero (S := S1024x4096) hz, View.ld_unit_zero (S := S1x4096) hz]
  rw [h0, h1, h2, h3, h6]
  exact hidden_rows o h inp ht ct cr w1 w2 a1 a2 a3 b1 b2 b3 cw cb dw db x4 x5 bs

/-- The second store: the new cell state. -/
theorem body8_rows (x0 : Vec Ideal S128x2048 .f32) (x1 x2 x3 : Vec Ideal S128x1024 .f32) (x4 : Vec Ideal S2048x4096 .bf16)
    (x5 : Vec Ideal S1024x4096 .bf16) (x6 : Vec Ideal S1x4096 .f32)
    (h0 : x0 = rows o h (val_main_v40 (F := Ideal) inp w1 w2 a1 a2 a3 b1 b2 b3)) (h1 : x1 = rows o h ht) (h2 : x2 = rows o h ct)
    (h6 : x6 = shapeCast ⟨2, ![1, 4096]⟩ bs Facts₀.shapeCasts_S4096_S1x4096) :
    out2_8 (F := Ideal) x0 x1 x2 x3 x4 x5 x6 = rows o h (val_main_v87 (F := Ideal) inp ht ct w1 w2 a1 a2 a3 b1 b2 b3 x4 x5 bs) := by
  unfold out2_8
  rw [View.canon_unit_zero hz]
  simp only [View.ld_unit_zero (S := S128x2048) hz, View.ld_unit_zero (S := S128x1024) hz, View.ld_unit_zero (S := S2048x4096) hz,
    View.ld_unit_zero (S := S1024x4096) hz, View.ld_unit_zero (S := S1x4096) hz]
  rw [h0, h1, h2, h6]
  exact cell_rows o h inp ht ct w1 w2 a1 a2 a3 b1 b2 b3 x4 x5 bs

/-- What the region finds: x in its first window, the projected cross-history in its fourth, the bias row as a reshaped vector. -/
structure Finds : Prop where
  x : V c main_v15 = val_main_v40 (F := Ideal) inp w1 w2 a1 a2 a3 b1 b2 b3
  hcro : V c main_v16_1 = val_main_v61 (F := Ideal) inp cr w1 w2 a1 a2 a3 b1 b2 b3 cw cb dw db
  bias : V c main_v14 = shapeCast ⟨2, ![1, 4096]⟩ bs Facts₀.shapeCasts_S4096_S1x4096

variable {V c inp cr w1 w2 a1 a2 a3 b1 b2 b3 cw cb dw db bs}

/-- THE NEW HIDDEN STATE ARRAY after the region. -/
theorem final7 (hf : Finds inp cr w1 w2 a1 a2 a3 b1 b2 b3 cw cb dw db bs V c) :
    (dat2 V c).arrAt 7 cfg2.N = val_main_v96 (F := Ideal) inp (V c main_arg1) (V c main_arg2) cr w1 w2 a1 a2 a3 b1 b2 b3 cw cb dw db (V c main_v10) (V c main_v11) bs := by
  refine (dat2 V c).arrAt_eq_of_cover 7 _ (fun t _ => ?_) (cover7)
  show (cfg2.win 7).cut (grid2.coords t) ((dat2 V c).after 7 t) = _
  rw [after2_7]
  funext j
  rw [body7_rows (128 * t.val) (bound t) inp (V c main_arg1) (V c main_arg2) cr w1 w2 a1 a2 a3 b1 b2 b3 cw cb dw db bs _ _ _ _ _ _ _
    ((rowblk0 V c t).trans (by rw [hf.x])) (rowblk1 V c t) (rowblk2 V c t) ((rowblk3 V c t).trans (by rw [hf.hcro])) ((whole6 V c t).trans hf.bias)]
  rw [whole4 V c t, whole5 V c t]
  exact read_rows7 t _ j

/-- THE NEW CELL STATE ARRAY after the region. -/
theorem final8 (hf : Finds inp cr w1 w2 a1 a2 a3 b1 b2 b3 cw cb dw db bs V c) :
    (dat2 V c).arrAt 8 cfg2.N = val_main_v87 (F := Ideal) inp (V c main_arg1) (V c main_arg2) w1 w2 a1 a2 a3 b1 b2 b3 (V c main_v10) (V c main_v11) bs := by
  refine (dat2 V c).arrAt_eq_of_cover 8 _ (fun t _ => ?_) (cover8)
  show (cfg2.win 8).cut (grid2.coords t) ((dat2 V c).after 8 t) = _
  rw [after2_8]
  funext j
  rw [body8_rows (128 * t.val) (bound t) inp (V c main_arg1) (V c main_arg2) w1 w2 a1 a2 a3 b1 b2 b3 bs _ _ _ _ _ _ _
    ((rowblk0 V c t).trans (by rw [hf.x])) (rowblk1 V c t) (rowblk2 V c t) ((whole6 V c t).trans hf.bias)]
  rw [whole4 V c t, whole5 V c t]
  exact read_rows8 t _ j

end Windows

end Cert.KernelIdeal.Region2

end
-- ==== Proof.NamedRun.lean ====
/-
  The kernel program's run with its final memory NAMED: every weakly fair execution of @main terminates, nothing
  faulting, and every buffer of the program that outlives a region ends at the contents the last region's exit leaves
  it with — the arrays a region wrote at the fold of its write-backs, every other buffer as the region before left it.
  The three results are read off this statement; the frame claim keeps only the arguments.
-/
import proofs.«136214_j19172734009719_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that outlives a region ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Named

end
-- ==== Proof.Thread.lean ====
/-
  The three kernels in sequence. The host lines before the first kernel only change formats (the identity on the
  extended reals) and lay three bias vectors down as rows. The first kernel finds the arguments and leaves x; the
  second finds the old cross-history, x, and its weights, and leaves the merged cross-history and its projection; the
  third finds x, the old states, the projection and its weights, and leaves the new hidden and cell states. Each
  array a later kernel finds is what an earlier one left (or an argument no one wrote), so the three results are the
  reference's three result stages of the arguments.
-/
import proofs.«136214_j19172734009719_1_alg».proof.Proof.Region0
import proofs.«136214_j19172734009719_1_alg».proof.Proof.Region1
import proofs.«136214_j19172734009719_1_alg».proof.Proof.Region2
import proofs.«136214_j19172734009719_1_alg».proof.Proof.NamedRun

set_option maxRecDepth 16384

noncomputable section

open Idealize.ShloMosaic Idealize.ShloMosaic.ValueIdx Idealize.ShloMosaic.TcCoe Idealize.SL.Sem Idealize.ShloMosaic.StableHlo
open Idealize.ShloMosaic.Pipeline (Dat)

namespace Cert.KernelIdeal.Thread

open Cert.KernelIdeal Cert.KernelIdeal.Gen Cert.ReferenceIdeal.ReadP

variable (m : (ℓ : Loc nD τ sig) → Buf (Elt Ideal) ℓ) (ρ : Dev nD → PrngReg) (c : Dev nD)

/-! ## The host lines before the first kernel -/

theorem host_v0 : (V1 m ρ c main_v0 : (⟨2, ![2048, 1024]⟩ : Shape).Idx → EReal) = (m ((c : Thread nD τ).loc main_arg4)) := by
  show StableHlo.after hostOps0 (W0 m ρ c) (Proc.devRef .tc main_v0) = _
  after_results
  rfl
theorem host_v1 : (V1 m ρ c main_v1 : (⟨2, ![2048, 1024]⟩ : Shape).Idx → EReal) = (m ((c : Thread nD τ).loc main_arg5)) := by
  show StableHlo.after hostOps0 (W0 m ρ c) (Proc.devRef .tc main_v1) = _
  after_results
  rfl
theorem host_v2 : (V1 m ρ c main_v2 : (⟨2, ![1024, 1024]⟩ : Shape).Idx → EReal) = (m ((c : Thread nD τ).loc main_arg6)) := by
  show StableHlo.after hostOps0 (W0 m ρ c) (Proc.devRef .tc main_v2) = _
  after_results
  rfl
theorem host_v3 : (V1 m ρ c main_v3 : (⟨2, ![1024, 1024]⟩ : Shape).Idx → EReal) = (m ((c : Thread nD τ).loc main_arg7)) := by
  show StableHlo.after hostOps0 (W0 m ρ c) (Proc.devRef .tc main_v3) = _
  after_results
  rfl
theorem host_v4 : (V1 m ρ c main_v4 : (⟨2, ![1024, 1024]⟩ : Shape).Idx → EReal) = (m ((c : Thread nD τ).loc main_arg8)) := by
  show StableHlo.after hostOps0 (W0 m ρ c) (Proc.devRef .tc main_v4) = _
  after_results
  rfl
theorem host_v5 : (V1 m ρ c main_v5 : (⟨2, ![1024, 1024]⟩ : Shape).Idx → EReal) = (m ((c : Thread nD τ).loc main_arg9)) := by
  show StableHlo.after hostOps0 (W0 m ρ c) (Proc.devRef .tc main_v5) = _
  after_results
  rfl
theorem host_v6 : (V1 m ρ c main_v6 : (⟨2, ![1024, 1024]⟩ : Shape).Idx → EReal) = (m ((c : Thread nD τ).loc main_arg10)) := by
  show StableHlo.after hostOps0 (W0 m ρ c) (Proc.devRef .tc main_v6) = _
  after_results
  rfl
theorem host_v7 : (V1 m ρ c main_v7 : (⟨2, ![1024, 1024]⟩ : Shape).Idx → EReal) = (m ((c : Thread nD τ).loc main_arg11)) := by
  show StableHlo.after hostOps0 (W0 m ρ c) (Proc.devRef .tc main_v7) = _
  after_results
  rfl
theorem host_v8 : (V1 m ρ c main_v8 : (⟨2, ![2048, 2048]⟩ : Shape).Idx → EReal) = (m ((c : Thread nD τ).loc main_arg14)) := by
  show StableHlo.after hostOps0 (W0 m ρ c) (Proc.devRef .tc main_v8) = _
  after_results
  rfl
theorem host_v9 : (V1 m ρ c main_v9 : (⟨2, ![2048, 1024]⟩ : Shape).Idx → EReal) = (m ((c : Thread nD τ).loc main_arg12)) := by
  show StableHlo.after hostOps0 (W0 m ρ c) (Proc.devRef .tc main_v9) = _
  after_results
  rfl
theorem host_v10 : (V1 m ρ c main_v10 : (⟨2, ![2048, 4096]⟩ : Shape).Idx → EReal) = (m ((c : Thread nD τ).loc main_arg16)) := by
  show StableHlo.after hostOps0 (W0 m ρ c) (Proc.devRef .tc main_v10) = _
  after_results
  rfl
theorem host_v11 : (V1 m ρ c main_v11 : (⟨2, ![1024, 4096]⟩ : Shape).Idx → EReal) = (m ((c : Thread nD τ).loc main_arg17)) := by
  show StableHlo.after hostOps0 (W0 m ρ c) (Proc.devRef .tc main_v11) = _
  after_results
  rfl
theorem host_v12 : (V1 m ρ c main_v12 : (⟨2, ![1, 2048]⟩ : Shape).Idx → EReal) = shapeCast ⟨2, ![1, 2048]⟩ (m ((c : Thread nD τ).loc main_arg15)) Facts₀.shapeCasts_S2048_S1x2048 := by
  show StableHlo.after hostOps0 (W0 m ρ c) (Proc.devRef .tc main_v12) = _
  after_results
  rfl
theorem host_v13 : (V1 m ρ c main_v13 : (⟨2, ![1, 1024]⟩ : Shape).Idx → EReal) = shapeCast ⟨2, ![1, 1024]⟩ (m ((c : Thread nD τ).loc main_arg13)) Facts₀.shapeCasts_S1024_S1x1024 := by
  show StableHlo.after hostOps0 (W0 m ρ c) (Proc.devRef .tc main_v13) = _
  after_results
  rfl
theorem host_v14 : (V1 m ρ c main_v14 : (⟨2, ![1, 4096]⟩ : Shape).Idx → EReal) = shapeCast ⟨2, ![1, 4096]⟩ (m ((c : Thread nD τ).loc main_arg18)) Facts₀.shapeCasts_S4096_S1x4096 := by
  show StableHlo.after hostOps0 (W0 m ρ c) (Proc.devRef .tc main_v14) = _
  after_results
  rfl
theorem host_arg0 : V1 m ρ c main_arg0 = (m ((c : Thread nD τ).loc main_arg0)) := by
  show StableHlo.after hostOps0 (W0 m ρ c) (Proc.devRef .tc main_arg0) = _
  after_results
theorem host_arg1 : V1 m ρ c main_arg1 = (m ((c : Thread nD τ).loc main_arg1)) := by
  show StableHlo.after hostOps0 (W0 m ρ c) (Proc.devRef .tc main_arg1) = _
  after_results
theorem host_arg2 : V1 m ρ c main_arg2 = (m ((c : Thread nD τ).loc main_arg2)) := by
  show StableHlo.after hostOps0 (W0 m ρ c) (Proc.devRef .tc main_arg2) = _
  after_results
theorem host_arg3 : V1 m ρ c main_arg3 = (m ((c : Thread nD τ).loc main_arg3)) := by
  show StableHlo.after hostOps0 (W0 m ρ c) (Proc.devRef .tc main_arg3) = _
  after_results

/-! ## The first kernel leaves x -/

/-- x: the reference's stage 40 of the arguments. -/
abbrev X : (⟨2, ![2048, 2048]⟩ : Shape).Idx → EReal := val_main_v40 (F := Ideal) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem x_after0 : (dat0 (V1 m ρ) c).arrAt 9 cfg0.N = X m c := by
  rw [Region0.final (V1 m ρ) c]
  unfold Region0.result X
  rw [host_arg0, host_v0, host_v1, host_v2, host_v3, host_v4, host_v5, host_v6, host_v7]

theorem x_at2 : V2 m ρ c main_v15 = X m c := (W2_arr m ρ c 9).trans (x_after0 m ρ c)

/-! ## The second kernel leaves the merged cross-history and its projection -/

theorem finds1 : Region1.Finds (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg13)) (m ((c : Thread nD τ).loc main_arg15)) (V2 m ρ) c where
  x := x_at2 m ρ c
  dbias := (W2_of_ne m ρ c main_v12 (by decide)).trans (host_v12 m ρ c)
  cbias := (W2_of_ne m ρ c main_v13 (by decide)).trans (host_v13 m ρ c)

theorem arg3_at2 : V2 m ρ c main_arg3 = (m ((c : Thread nD τ).loc main_arg3)) := (W2_of_ne m ρ c main_arg3 (by decide)).trans (host_arg3 m ρ c)
theorem v8_at2 : (V2 m ρ c main_v8 : (⟨2, ![2048, 2048]⟩ : Shape).Idx → EReal) = (m ((c : Thread nD τ).loc main_arg14)) := (W2_of_ne m ρ c main_v8 (by decide)).trans (host_v8 m ρ c)
theorem v9_at2 : (V2 m ρ c main_v9 : (⟨2, ![2048, 1024]⟩ : Shape).Idx → EReal) = (m ((c : Thread nD τ).loc main_arg12)) := (W2_of_ne m ρ c main_v9 (by decide)).trans (host_v9 m ρ c)

/-- The merged cross-history: the reference's stage 56 of the arguments. -/
abbrev C56 : (⟨2, ![2048, 2048]⟩ : Shape).Idx → EReal := val_main_v56 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15))
/-- Its projection: stage 61. -/
abbrev H61 : (⟨2, ![2048, 1024]⟩ : Shape).Idx → EReal := val_main_v61 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

theorem crohis_after1 : (dat1 (V2 m ρ) c).arrAt 6 cfg1.N = C56 m c := by
  rw [Region1.final6 (finds1 m ρ c)]
  unfold C56
  rw [arg3_at2, v8_at2]

theorem hcro_after1 : (dat1 (V2 m ρ) c).arrAt 7 cfg1.N = H61 m c := by
  rw [Region1.final7 (finds1 m ρ c)]
  unfold H61
  rw [arg3_at2, v8_at2, v9_at2]

/-! ## The third kernel leaves the new hidden and cell states -/

theorem finds2 : Region2.Finds (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg18)) (V3 m ρ) c where
  x := ((W3_arr m ρ c 1).trans (((dat1 (V2 m ρ) c).arrAt_in 1 rfl _).trans (A_eq1 (V2 m ρ) c 1))).trans (x_at2 m ρ c)
  hcro := (W3_arr m ρ c 7).trans (hcro_after1 m ρ c)
  bias := (W3_of_ne m ρ c main_v14 (by decide)).trans ((W2_of_ne m ρ c main_v14 (by decide)).trans (host_v14 m ρ c))

theorem arg1_at3 : V3 m ρ c main_arg1 = (m ((c : Thread nD τ).loc main_arg1)) :=
  (W3_of_ne m ρ c main_arg1 (by decide)).trans ((W2_of_ne m ρ c main_arg1 (by decide)).trans (host_arg1 m ρ c))
theorem arg2_at3 : V3 m ρ c main_arg2 = (m ((c : Thread nD τ).loc main_arg2)) :=
  (W3_of_ne m ρ c main_arg2 (by decide)).trans ((W2_of_ne m ρ c main_arg2 (by decide)).trans (host_arg2 m ρ c))
theorem v10_at3 : (V3 m ρ c main_v10 : (⟨2, ![2048, 4096]⟩ : Shape).Idx → EReal) = (m ((c : Thread nD τ).loc main_arg16)) :=
  (W3_of_ne m ρ c main_v10 (by decide)).trans ((W2_of_ne m ρ c main_v10 (by decide)).trans (host_v10 m ρ c))
theorem v11_at3 : (V3 m ρ c main_v11 : (⟨2, ![1024, 4096]⟩ : Shape).Idx → EReal) = (m ((c : Thread nD τ).loc main_arg17)) :=
  (W3_of_ne m ρ c main_v11 (by decide)).trans ((W2_of_ne m ρ c main_v11 (by decide)).trans (host_v11 m ρ c))

/-- The new hidden state: stage 96. -/
abbrev H96 : (⟨2, ![2048, 1024]⟩ : Shape).Idx → EReal := val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
/-- The new cell state: stage 87. -/
abbrev C87 : (⟨2, ![2048, 1024]⟩ : Shape).Idx → EReal := val_main_v87 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18))

theorem hidden_after2 : (dat2 (V3 m ρ) c).arrAt 7 cfg2.N = H96 m c := by
  rw [Region2.final7 (finds2 m ρ c)]
  unfold H96
  rw [arg1_at3, arg2_at3, v10_at3, v11_at3]

theorem cell_after2 : (dat2 (V3 m ρ) c).arrAt 8 cfg2.N = C87 m c := by
  rw [Region2.final8 (finds2 m ρ c)]
  unfold C87
  rw [arg1_at3, arg2_at3, v10_at3, v11_at3]

/-! ## The three results in the final memory -/

theorem hidden_final : W4 m ρ c (Proc.devRef .tc main_v17_0) = H96 m c := (W4_arr m ρ c 7).trans (hidden_after2 m ρ c)
theorem cell_final : W4 m ρ c (Proc.devRef .tc main_v17_1) = C87 m c := (W4_arr m ρ c 8).trans (cell_after2 m ρ c)
theorem crohis_final : W4 m ρ c (Proc.devRef .tc main_v16_0) = C56 m c :=
  (W4_of_ne m ρ c main_v16_0 (by decide)).trans ((W3_arr m ρ c 6).trans (crohis_after1 m ρ c))

/-! ## The kernel program's run, read -/

/-- Every weakly fair execution of the kernel program terminates with the three results at the reference's result
    stages of the arguments, and the arguments unchanged. -/
theorem run : θ_run (defs (F := Ideal)) (onTc (τ := τ) (main (F := Ideal))) ⟨m, fun _ => 0, ρ⟩ fun r => ∀ c : Dev nD,
      r.2.mem ((c.tc : Thread nD τ).loc main_v17_0) = H96 m c
      ∧ r.2.mem ((c.tc : Thread nD τ).loc main_v17_1) = C87 m c
      ∧ r.2.mem ((c.tc : Thread nD τ).loc main_v16_0) = C56 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨(h c _ (mem_uc main_v17_0 (by decide))).trans (hidden_final m ρ c),
      (h c _ (mem_uc main_v17_1 (by decide))).trans (cell_final m ρ c),
      (h c _ (mem_uc main_v16_0 (by decide))).trans (crohis_final m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c),
      (h c _ (mem_uc main_arg14 (by decide))).trans (W4_main_arg14 m ρ c),
      (h c _ (mem_uc main_arg15 (by decide))).trans (W4_main_arg15 m ρ c),
      (h c _ (mem_uc main_arg16 (by decide))).trans (W4_main_arg16 m ρ c),
      (h c _ (mem_uc main_arg17 (by decide))).trans (W4_main_arg17 m ρ c),
      (h c _ (mem_uc main_arg18 (by decide))).trans (W4_main_arg18 m ρ c)⟩)
    (Cert.KernelIdeal.Named.run m ρ)

end Cert.KernelIdeal.Thread

end
-- ==== Proof.RefRun.lean ====
/- The run of the reference program, read back one stretch of operations at a time.
   The program is a straight line of 113 host operations. Its buffers after the line are the fold of the
   operations' results over the launch contents. The line is cut in three: the stretch that ends with the two
   attention-weighted halves (main_v38, main_v39); the stretch that joins them into x (main_v40) and computes
   from x and the carried state the two values main_v56 and main_v61; and the stretch of the gates
   (main_v62 … main_v96). Over each stretch the value a result buffer ends with is the stage function of that
   buffer applied to what the stretch starts from, the values the earlier stretches left entering as atoms; a
   buffer that a stretch does not write keeps its contents. Composing the three stretches gives each result of
   the whole line as its stage function of the arguments' launch contents, without ever forming the fully
   inlined term. -/
import proofs.«136214_j19172734009719_1_alg».proof.Proof.RefReadP

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 113 operations, in order. -/
abbrev ops : List (HloOp τ sig (Elt F)) :=
  [ unary main_arg0 main_v0 ((extractStridedSlice S2048x2048 ![0, 0] · slices_S2048x4096_S2048x2048_0_0) : (⟨S2048x4096, .f32⟩ : BufTy).Contents (Elt F) → (⟨S2048x2048, .f32⟩ : BufTy).Contents (Elt F)),
    unary main_arg0 main_v1 ((extractStridedSlice S2048x2048 ![0, 2048] · slices_S2048x4096_S2048x2048_0_2048) : (⟨S2048x4096, .f32⟩ : BufTy).Contents (Elt F) → (⟨S2048x2048, .f32⟩ : BufTy).Contents (Elt F)),
    binary main_v0 main_arg4 main_v2 ((fun l r => Host.dotGeneral dot_S2048x2048_S2048x1024_S2048x1024_1_0_0_1_n_n none l r) : (⟨S2048x2048, .f32⟩ : BufTy).Contents (Elt F) → (⟨S2048x1024, .f32⟩ : BufTy).Contents (Elt F) → (⟨S2048x1024, .f32⟩ : BufTy).Contents (Elt F)),
    binary main_v1 main_arg5 main_v3 ((fun l r => Host.dotGeneral dot_S2048x2048_S2048x1024_S2048x1024_1_0_0_1_n_n none l r) : (⟨S2048x2048, .f32⟩ : BufTy).Contents (Elt F) → (⟨S2048x1024, .f32⟩ : BufTy).Contents (Elt F) → (⟨S2048x1024, .f32⟩ : BufTy).Contents (Elt F)),
    binary main_v2 main_arg6 main_v4 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    binary main_v3 main_arg7 main_v5 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    binary main_v4 main_v5 main_v6 (addf : (⟨S2048x1024, .f32⟩ : BufTy).Contents (Elt F) → (⟨S2048x1024, .f32⟩ : BufTy).Contents (Elt F) → (⟨S2048x1024, .f32⟩ : BufTy).Contents (Elt F)),
    unary main_v6 main_v7 (Host.tanh : (⟨S2048x1024, .f32⟩ : BufTy).Contents (Elt F) → (⟨S2048x1024, .f32⟩ : BufTy).Contents (Elt F)),
    binary main_v3 main_arg8 main_v8 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    binary main_v7 main_v8 main_v9 (mulf : (⟨S2048x1024, .f32⟩ : BufTy).Contents (Elt F) → (⟨S2048x1024, .f32⟩ : BufTy).Contents (Elt F) → (⟨S2048x1024, .f32⟩ : BufTy).Contents (Elt F)),
    nullary main_cst (constant S_ .f32 0xFF800000#32),
    binary main_v9 main_cst main_v10 ((fun x v => Host.reduce FloatOps.maximumf x v reducesTo_S2048x1024_S2048_d1 h_S_) : (⟨S2048x1024, .f32⟩ : BufTy).Contents (Elt F) → (⟨S_, .f32⟩ : BufTy).Contents (Elt F) → (⟨S2048, .f32⟩ : BufTy).Contents (Elt F)),
    nullary main_cst_0 (constant S_ .f32 0xFF800000#32),
    unary main_cst_0 main_v11 (broadcastInDim S2048 ![] bcast_S_S2048 : (⟨S_, .f32⟩ : BufTy).Contents (Elt F) → (⟨S2048, .f32⟩ : BufTy).Contents (Elt F)),
    binary main_v11 main_v10 main_v12 (maximumf : (⟨S2048, .f32⟩ : BufTy).Contents (Elt F) → (⟨S2048, .f32⟩ : BufTy).Contents (Elt F) → (⟨S2048, .f32⟩ : BufTy).Contents (Elt F)),
    unary main_v12 main_v13 (broadcastInDim S2048x1 ![0] bcast_S2048_S2048x1_0 : (⟨S2048, .f32⟩ : BufTy).Contents (Elt F) → (⟨S2048x1, .f32⟩ : BufTy).Contents (Elt F)),
    unary main_v13 main_v14 (broadcastInDim S2048x1024 ![0, 1] bcast_S2048x1_S2048x1024_0_1 : (⟨S2048x1, .f32⟩ : BufTy).Contents (Elt F) → (⟨S2048x1024, .f32⟩ : BufTy).Contents (Elt F)),
    binary main_v9 main_v14 main_v15 (subf : (⟨S2048x1024, .f32⟩ : BufTy).Contents (Elt F) → (⟨S2048x1024, .f32⟩ : BufTy).Contents (Elt F) → (⟨S2048x1024, .f32⟩ : BufTy).Contents (Elt F)),
    unary main_v15 main_v16 (Host.exp : (⟨S2048x1024, .f32⟩ : BufTy).Contents (Elt F) → (⟨S2048x1024, .f32⟩ : BufTy).Contents (Elt F)),
    nullary main_cst_1 (constant S_ .f32 0x00000000#32),
    binary main_v16 main_cst_1 main_v17 ((fun x v => Host.reduceAdd x v reducesTo_S2048x1024_S2048_d1 h_S_) : (⟨S2048x1024, .f32⟩ : BufTy).Contents (Elt F) → (⟨S_, .f32⟩ : BufTy).Contents (Elt F) → (⟨S2048, .f32⟩ : BufTy).Contents (Elt F)),
    unary main_v17 main_v18 (broadcastInDim S2048x1 ![0] bcast_S2048_S2048x1_0 : (⟨S2048, .f32⟩ : BufTy).Contents (Elt F) → (⟨S2048x1, .f32⟩ : BufTy).Contents (Elt F)),
    unary main_v18 main_v19 (broadcastInDim S2048x1024 ![0, 1] bcast_S2048x1_S2048x1024_0_1 : (⟨S2048x1, .f32⟩ : BufTy).Contents (Elt F) → (⟨S2048x1024, .f32⟩ : BufTy).Contents (Elt F)),
    binary main_v16 main_v19 main_v20 (Host.divf : (⟨S2048x1024, .f32⟩ : BufTy).Contents (Elt F) → (⟨S2048x1024, .f32⟩ : BufTy).Contents (Elt F) → (⟨S2048x1024, .f32⟩ : BufTy).Contents (Elt F)),
    binary main_v3 main_arg9 main_v21 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    binary main_v2 main_arg10 main_v22 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    binary main_v21 main_v22 main_v23 (addf : (⟨S2048x1024, .f32⟩ : BufTy).Contents (Elt F) → (⟨S2048x1024, .f32⟩ : BufTy).Contents (Elt F) → (⟨S2048x1024, .f32⟩ : BufTy).Contents (Elt F)),
    unary main_v23 main_v24 (Host.tanh : (⟨S2048x1024, .f32⟩ : BufTy).Contents (Elt F) → (⟨S2048x1024, .f32⟩ : BufTy).Contents (Elt F)),
    binary main_v2 main_arg11 main_v25 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    binary main_v24 main_v25 main_v26 (mulf : (⟨S2048x1024, .f32⟩ : BufTy).Contents (Elt F) → (⟨S2048x1024, .f32⟩ : BufTy).Contents (Elt F) → (⟨S2048x1024, .f32⟩ : BufTy).Contents (Elt F)),
    nullary main_cst_2 (constant S_ .f32 0xFF800000#32),
    binary main_v26 main_cst_2 main_v27 ((fun x v => Host.reduce FloatOps.maximumf x v reducesTo_S2048x1024_S2048_d1 h_S_) : (⟨S2048x1024, .f32⟩ : BufTy).Contents (Elt F) → (⟨S_, .f32⟩ : BufTy).Contents (Elt F) → (⟨S2048, .f32⟩ : BufTy).Contents (Elt F)),
    nullary main_cst_3 (constant S_ .f32 0xFF800000#32),
    unary main_cst_3 main_v28 (broadcastInDim S2048 ![] bcast_S_S2048 : (⟨S_, .f32⟩ : BufTy).Contents (Elt F) → (⟨S2048, .f32⟩ : BufTy).Contents (Elt F)),
    binary main_v28 main_v27 main_v29 (maximumf : (⟨S2048, .f32⟩ : BufTy).Contents (Elt F) → (⟨S2048, .f32⟩ : BufTy).Contents (Elt F) → (⟨S2048, .f32⟩ : BufTy).Contents (Elt F)),
    unary main_v29 main_v30 (broadcastInDim S2048x1 ![0] bcast_S2048_S2048x1_0 : (⟨S2048, .f32⟩ : BufTy).Contents (Elt F) → (⟨S2048x1, .f32⟩ : BufTy).Contents (Elt F)),
    unary main_v30 main_v31 (broadcastInDim S2048x1024 ![0, 1] bcast_S2048x1_S2048x1024_0_1 : (⟨S2048x1, .f32⟩ : BufTy).Contents (Elt F) → (⟨S2048x1024, .f32⟩ : BufTy).Contents (Elt F)),
    binary main_v26 main_v31 main_v32 (subf : (⟨S2048x1024, .f32⟩ : BufTy).Contents (Elt F) → (⟨S2048x1024, .f32⟩ : BufTy).Contents (Elt F) → (⟨S2048x1024, .f32⟩ : BufTy).Contents (Elt F)),
    unary main_v32 main_v33 (Host.exp : (⟨S2048x1024, .f32⟩ : BufTy).Contents (Elt F) → (⟨S2048x1024, .f32⟩ : BufTy).Contents (Elt F)),
    nullary main_cst_4 (constant S_ .f32 0x00000000#32),
    binary main_v33 main_cst_4 main_v34 ((fun x v => Host.reduceAdd x v reducesTo_S2048x1024_S2048_d1 h_S_) : (⟨S2048x1024, .f32⟩ : BufTy).Contents (Elt F) → (⟨S_, .f32⟩ : BufTy).Contents (Elt F) → (⟨S2048, .f32⟩ : BufTy).Contents (Elt F)),
    unary main_v34 main_v35 (broadcastInDim S2048x1 ![0] bcast_S2048_S2048x1_0 : (⟨S2048, .f32⟩ : BufTy).Contents (Elt F) → (⟨S2048x1, .f32⟩ : BufTy).Contents (Elt F)),
    unary main_v35 main_v36 (broadcastInDim S2048x1024 ![0, 1] bcast_S2048x1_S2048x1024_0_1 : (⟨S2048x1, .f32⟩ : BufTy).Contents (Elt F) → (⟨S2048x1024, .f32⟩ : BufTy).Contents (Elt F)),
    binary main_v33 main_v36 main_v37 (Host.divf : (⟨S2048x1024, .f32⟩ : BufTy).Contents (Elt F) → (⟨S2048x1024, .f32⟩ : BufTy).Contents (Elt F) → (⟨S2048x1024, .f32⟩ : BufTy).Contents (Elt F)),
    binary main_v2 main_v20 main_v38 (mulf : (⟨S2048x1024, .f32⟩ : BufTy).Contents (Elt F) → (⟨S2048x1024, .f32⟩ : BufTy).Contents (Elt F) → (⟨S2048x1024, .f32⟩ : BufTy).Contents (Elt F)),
    binary main_v3 main_v37 main_v39 (mulf : (⟨S2048x1024, .f32⟩ : BufTy).Contents (Elt F) → (⟨S2048x1024, .f32⟩ : BufTy).Contents (Elt F) → (⟨S2048x1024, .f32⟩ : BufTy).Contents (Elt F)),
    binary main_v38 main_v39 main_v40 ((fun a b => concatenate S2048x2048 1 [⟨S2048x1024, a⟩, ⟨S2048x1024, b⟩] concatenates_S2048x1024_S2048x1024_S2048x2048_d1) : (⟨S2048x1024, .f32⟩ : BufTy).Contents (Elt F) → (⟨S2048x1024, .f32⟩ : BufTy).Contents (Elt F) → (⟨S2048x2048, .f32⟩ : BufTy).Contents (Elt F)),
    binary main_arg3 main_arg14 main_v41 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    unary main_arg15 main_v42 (broadcastInDim S1x2048 ![1] bcast_S2048_S1x2048_1 : (⟨S2048, .f32⟩ : BufTy).Contents (Elt F) → (⟨S1x2048, .f32⟩ : BufTy).Contents (Elt F)),
    unary main_v42 main_v43 (broadcastInDim S2048x2048 ![0, 1] bcast_S1x2048_S2048x2048_0_1 : (⟨S1x2048, .f32⟩ : BufTy).Contents (Elt F) → (⟨S2048x2048, .f32⟩ : BufTy).Contents (Elt F)),
    binary main_v41 main_v43 main_v44 (addf : (⟨S2048x2048, .f32⟩ : BufTy).Contents (Elt F) → (⟨S2048x2048, .f32⟩ : BufTy).Contents (Elt F) → (⟨S2048x2048, .f32⟩ : BufTy).Contents (Elt F)),
    unary main_v44 main_v45 (Host.negf : (⟨S2048x2048, .f32⟩ : BufTy).Contents (Elt F) → (⟨S2048x2048, .f32⟩ : BufTy).Contents (Elt F)),
    unary main_v45 main_v46 (Host.exp : (⟨S2048x2048, .f32⟩ : BufTy).Contents (Elt F) → (⟨S2048x2048, .f32⟩ : BufTy).Contents (Elt F)),
    nullary main_cst_5 (constant S_ .f32 0x3F800000#32),
    unary main_cst_5 main_v47 (broadcastInDim S2048x2048 ![] bcast_S_S2048x2048 : (⟨S_, .f32⟩ : BufTy).Contents (Elt F) → (⟨S2048x2048, .f32⟩ : BufTy).Contents (Elt F)),
    binary main_v47 main_v46 main_v48 (addf : (⟨S2048x2048, .f32⟩ : BufTy).Contents (Elt F) → (⟨S2048x2048, .f32⟩ : BufTy).Contents (Elt F) → (⟨S2048x2048, .f32⟩ : BufTy).Contents (Elt F)),
    nullary main_cst_6 (constant S_ .f32 0x3F800000#32),
    unary main_cst_6 main_v49 (broadcastInDim S2048x2048 ![] bcast_S_S2048x2048 : (⟨S_, .f32⟩ : BufTy).Contents (Elt F) → (⟨S2048x2048, .f32⟩ : BufTy).Contents (Elt F)),
    binary main_v49 main_v48 main_v50 (Host.divf : (⟨S2048x2048, .f32⟩ : BufTy).Contents (Elt F) → (⟨S2048x2048, .f32⟩ : BufTy).Contents (Elt F) → (⟨S2048x2048, .f32⟩ : BufTy).Contents (Elt F)),
    nullary main_cst_7 (constant S_ .f32 0x3F000000#32),
    unary main_cst_7 main_v51 (broadcastInDim S2048x2048 ![] bcast_S_S2048x2048 : (⟨S_, .f32⟩ : BufTy).Contents (Elt F) → (⟨S2048x2048, .f32⟩ : BufTy).Contents (Elt F)),
    binary main_v51 main_arg3 main_v52 (mulf : (⟨S2048x2048, .f32⟩ : BufTy).Contents (Elt F) → (⟨S2048x2048, .f32⟩ : BufTy).Contents (Elt F) → (⟨S2048x2048, .f32⟩ : BufTy).Contents (Elt F)),
    binary main_v52 main_v50 main_v53 (mulf : (⟨S2048x2048, .f32⟩ : BufTy).Contents (Elt F) → (⟨S2048x2048, .f32⟩ : BufTy).Contents (Elt F) → (⟨S2048x2048, .f32⟩ : BufTy).Contents (Elt F)),
    nullary main_cst_8 (constant S_ .f32 0x3F000000#32),
    unary main_cst_8 main_v54 (broadcastInDim S2048x2048 ![] bcast_S_S2048x2048 : (⟨S_, .f32⟩ : BufTy).Contents (Elt F) → (⟨S2048x2048, .f32⟩ : BufTy).Contents (Elt F)),
    binary main_v54 main_v40 main_v55 (mulf : (⟨S2048x2048, .f32⟩ : BufTy).Contents (Elt F) → (⟨S2048x2048, .f32⟩ : BufTy).Contents (Elt F) → (⟨S2048x2048, .f32⟩ : BufTy).Contents (Elt F)),
    binary main_v53 main_v55 main_v56 (addf : (⟨S2048x2048, .f32⟩ : BufTy).Contents (Elt F) → (⟨S2048x2048, .f32⟩ : BufTy).Contents (Elt F) → (⟨S2048x2048, .f32⟩ : BufTy).Contents (Elt F)),
    binary main_v56 main_arg12 main_v57 ((fun l r => Host.dotGeneral dot_S2048x2048_S2048x1024_S2048x1024_1_0_0_1_n_n none l r) : (⟨S2048x2048, .f32⟩ : BufTy).Contents (Elt F) → (⟨S2048x1024, .f32⟩ : BufTy).Contents (Elt F) → (⟨S2048x1024, .f32⟩ : BufTy).Contents (Elt F)),
    unary main_arg13 main_v58 (broadcastInDim S1x1024 ![1] bcast_S1024_S1x1024_1 : (⟨S1024, .f32⟩ : BufTy).Contents (Elt F) → (⟨S1x1024, .f32⟩ : BufTy).Contents (Elt F)),
    unary main_v58 main_v59 (broadcastInDim S2048x1024 ![0, 1] bcast_S1x1024_S2048x1024_0_1 : (⟨S1x1024, .f32⟩ : BufTy).Contents (Elt F) → (⟨S2048x1024, .f32⟩ : BufTy).Contents (Elt F)),
    binary main_v57 main_v59 main_v60 (addf : (⟨S2048x1024, .f32⟩ : BufTy).Contents (Elt F) → (⟨S2048x1024, .f32⟩ : BufTy).Contents (Elt F) → (⟨S2048x1024, .f32⟩ : BufTy).Contents (Elt F)),
    unary main_v60 main_v61 (Host.tanh : (⟨S2048x1024, .f32⟩ : BufTy).Contents (Elt F) → (⟨S2048x1024, .f32⟩ : BufTy).Contents (Elt F)),
    binary main_v40 main_arg16 main_v62 ((fun l r => Host.dotGeneral dot_S2048x2048_S2048x4096_S2048x4096_1_0_0_1_n_n none l r) : (⟨S2048x2048, .f32⟩ : BufTy).Contents (Elt F) → (⟨S2048x4096, .f32⟩ : BufTy).Contents (Elt F) → (⟨S2048x4096, .f32⟩ : BufTy).Contents (Elt F)),
    binary main_arg1 main_arg17 main_v63 ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)),
    binary main_v62 main_v63 main_v64 (addf : (⟨S2048x4096, .f32⟩ : BufTy).Contents (Elt F) → (⟨S2048x4096, .f32⟩ : BufTy).Contents (Elt F) → (⟨S2048x4096, .f32⟩ : BufTy).Contents (Elt F)),
    unary main_arg18 main_v65 (broadcastInDim S1x4096 ![1] bcast_S4096_S1x4096_1 : (⟨S4096, .f32⟩ : BufTy).Contents (Elt F) → (⟨S1x4096, .f32⟩ : BufTy).Contents (Elt F)),
    unary main_v65 main_v66 (broadcastInDim S2048x4096 ![0, 1] bcast_S1x4096_S2048x4096_0_1 : (⟨S1x4096, .f32⟩ : BufTy).Contents (Elt F) → (⟨S2048x4096, .f32⟩ : BufTy).Contents (Elt F)),
    binary main_v64 main_v66 main_v67 (addf : (⟨S2048x4096, .f32⟩ : BufTy).Contents (Elt F) → (⟨S2048x4096, .f32⟩ : BufTy).Contents (Elt F) → (⟨S2048x4096, .f32⟩ : BufTy).Contents (Elt F)),
    unary main_v67 main_v68 ((extractStridedSlice S2048x1024 ![0, 0] · slices_S2048x4096_S2048x1024_0_0) : (⟨S2048x4096, .f32⟩ : BufTy).Contents (Elt F) → (⟨S2048x1024, .f32⟩ : BufTy).Contents (Elt F)),
    unary main_v67 main_v69 ((extractStridedSlice S2048x1024 ![0, 1024] · slices_S2048x4096_S2048x1024_0_1024) : (⟨S2048x4096, .f32⟩ : BufTy).Contents (Elt F) → (⟨S2048x1024, .f32⟩ : BufTy).Contents (Elt F)),
    unary main_v67 main_v70 ((extractStridedSlice S2048x1024 ![0, 2048] · slices_S2048x4096_S2048x1024_0_2048) : (⟨S2048x4096, .f32⟩ : BufTy).Contents (Elt F) → (⟨S2048x1024, .f32⟩ : BufTy).Contents (Elt F)),
    unary main_v67 main_v71 ((extractStridedSlice S2048x1024 ![0, 3072] · slices_S2048x4096_S2048x1024_0_3072) : (⟨S2048x4096, .f32⟩ : BufTy).Contents (Elt F) → (⟨S2048x1024, .f32⟩ : BufTy).Contents (Elt F)),
    unary main_v68 main_v72 (Host.negf : (⟨S2048x1024, .f32⟩ : BufTy).Contents (Elt F) → (⟨S2048x1024, .f32⟩ : BufTy).Contents (Elt F)),
    unary main_v72 main_v73 (Host.exp : (⟨S2048x1024, .f32⟩ : BufTy).Contents (Elt F) → (⟨S2048x1024, .f32⟩ : BufTy).Contents (Elt F)),
    nullary main_cst_9 (constant S_ .f32 0x3F800000#32),
    unary main_cst_9 main_v74 (broadcastInDim S2048x1024 ![] bcast_S_S2048x1024 : (⟨S_, .f32⟩ : BufTy).Contents (Elt F) → (⟨S2048x1024, .f32⟩ : BufTy).Contents (Elt F)),
    binary main_v74 main_v73 main_v75 (addf : (⟨S2048x1024, .f32⟩ : BufTy).Contents (Elt F) → (⟨S2048x1024, .f32⟩ : BufTy).Contents (Elt F) → (⟨S2048x1024, .f32⟩ : BufTy).Contents (Elt F)),
    nullary main_cst_10 (constant S_ .f32 0x3F800000#32),
    unary main_cst_10 main_v76 (broadcastInDim S2048x1024 ![] bcast_S_S2048x1024 : (⟨S_, .f32⟩ : BufTy).Contents (Elt F) → (⟨S2048x1024, .f32⟩ : BufTy).Contents (Elt F)),
    binary main_v76 main_v75 main_v77 (Host.divf : (⟨S2048x1024, .f32⟩ : BufTy).Contents (Elt F) → (⟨S2048x1024, .f32⟩ : BufTy).Contents (Elt F) → (⟨S2048x1024, .f32⟩ : BufTy).Contents (Elt F)),
    unary main_v69 main_v78 (Host.negf : (⟨S2048x1024, .f32⟩ : BufTy).Contents (Elt F) → (⟨S2048x1024, .f32⟩ : BufTy).Contents (Elt F)),
    unary main_v78 main_v79 (Host.exp : (⟨S2048x1024, .f32⟩ : BufTy).Contents (Elt F) → (⟨S2048x1024, .f32⟩ : BufTy).Contents (Elt F)),
    nullary main_cst_11 (constant S_ .f32 0x3F800000#32),
    unary main_cst_11 main_v80 (broadcastInDim S2048x1024 ![] bcast_S_S2048x1024 : (⟨S_, .f32⟩ : BufTy).Contents (Elt F) → (⟨S2048x1024, .f32⟩ : BufTy).Contents (Elt F)),
    binary main_v80 main_v79 main_v81 (addf : (⟨S2048x1024, .f32⟩ : BufTy).Contents (Elt F) → (⟨S2048x1024, .f32⟩ : BufTy).Contents (Elt F) → (⟨S2048x1024, .f32⟩ : BufTy).Contents (Elt F)),
    nullary main_cst_12 (constant S_ .f32 0x3F800000#32),
    unary main_cst_12 main_v82 (broadcastInDim S2048x1024 ![] bcast_S_S2048x1024 : (⟨S_, .f32⟩ : BufTy).Contents (Elt F) → (⟨S2048x1024, .f32⟩ : BufTy).Contents (Elt F)),
    binary main_v82 main_v81 main_v83 (Host.divf : (⟨S2048x1024, .f32⟩ : BufTy).Contents (Elt F) → (⟨S2048x1024, .f32⟩ : BufTy).Contents (Elt F) → (⟨S2048x1024, .f32⟩ : BufTy).Contents (Elt F)),
    binary main_v83 main_arg2 main_v84 (mulf : (⟨S2048x1024, .f32⟩ : BufTy).Contents (Elt F) → (⟨S2048x1024, .f32⟩ : BufTy).Contents (Elt F) → (⟨S2048x1024, .f32⟩ : BufTy).Contents (Elt F)),
    unary main_v70 main_v85 (Host.tanh : (⟨S2048x1024, .f32⟩ : BufTy).Contents (Elt F) → (⟨S2048x1024, .f32⟩ : BufTy).Contents (Elt F)),
    binary main_v77 main_v85 main_v86 (mulf : (⟨S2048x1024, .f32⟩ : BufTy).Contents (Elt F) → (⟨S2048x1024, .f32⟩ : BufTy).Contents (Elt F) → (⟨S2048x1024, .f32⟩ : BufTy).Contents (Elt F)),
    binary main_v84 main_v86 main_v87 (addf : (⟨S2048x1024, .f32⟩ : BufTy).Contents (Elt F) → (⟨S2048x1024, .f32⟩ : BufTy).Contents (Elt F) → (⟨S2048x1024, .f32⟩ : BufTy).Contents (Elt F)),
    unary main_v71 main_v88 (Host.negf : (⟨S2048x1024, .f32⟩ : BufTy).Contents (Elt F) → (⟨S2048x1024, .f32⟩ : BufTy).Contents (Elt F)),
    unary main_v88 main_v89 (Host.exp : (⟨S2048x1024, .f32⟩ : BufTy).Contents (Elt F) → (⟨S2048x1024, .f32⟩ : BufTy).Contents (Elt F)),
    nullary main_cst_13 (constant S_ .f32 0x3F800000#32),
    unary main_cst_13 main_v90 (broadcastInDim S2048x1024 ![] bcast_S_S2048x1024 : (⟨S_, .f32⟩ : BufTy).Contents (Elt F) → (⟨S2048x1024, .f32⟩ : BufTy).Contents (Elt F)),
    binary main_v90 main_v89 main_v91 (addf : (⟨S2048x1024, .f32⟩ : BufTy).Contents (Elt F) → (⟨S2048x1024, .f32⟩ : BufTy).Contents (Elt F) → (⟨S2048x1024, .f32⟩ : BufTy).Contents (Elt F)),
    nullary main_cst_14 (constant S_ .f32 0x3F800000#32),
    unary main_cst_14 main_v92 (broadcastInDim S2048x1024 ![] bcast_S_S2048x1024 : (⟨S_, .f32⟩ : BufTy).Contents (Elt F) → (⟨S2048x1024, .f32⟩ : BufTy).Contents (Elt F)),
    binary main_v92 main_v91 main_v93 (Host.divf : (⟨S2048x1024, .f32⟩ : BufTy).Contents (Elt F) → (⟨S2048x1024, .f32⟩ : BufTy).Contents (Elt F) → (⟨S2048x1024, .f32⟩ : BufTy).Contents (Elt F)),
    unary main_v87 main_v94 (Host.tanh : (⟨S2048x1024, .f32⟩ : BufTy).Contents (Elt F) → (⟨S2048x1024, .f32⟩ : BufTy).Contents (Elt F)),
    binary main_v93 main_v94 main_v95 (mulf : (⟨S2048x1024, .f32⟩ : BufTy).Contents (Elt F) → (⟨S2048x1024, .f32⟩ : BufTy).Contents (Elt F) → (⟨S2048x1024, .f32⟩ : BufTy).Contents (Elt F)),
    binary main_v95 main_v61 main_v96 (addf : (⟨S2048x1024, .f32⟩ : BufTy).Contents (Elt F) → (⟨S2048x1024, .f32⟩ : BufTy).Contents (Elt F) → (⟨S2048x1024, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., binary_bufs_sub .., binary_bufs_sub .., binary_bufs_sub .., binary_bufs_sub .., binary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., unary_bufs_sub .., unary_bufs_sub .., binary_bufs_sub .., unary_bufs_sub .., binary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub ..⟩

/-! ## The line in three stretches -/

/-- The first stretch: the two halves of the input, their projections, the two row-softmax attentions, up to the two weighted halves `main_v38`, `main_v39`. -/
abbrev opsA : List (HloOp τ sig (Elt F)) :=
  [ unary main_arg0 main_v0 ((extractStridedSlice S2048x2048 ![0, 0] · slices_S2048x4096_S2048x2048_0_0) : (⟨S2048x4096, .f32⟩ : BufTy).Contents (Elt F) → (⟨S2048x2048, .f32⟩ : BufTy).Contents (Elt F)),
    unary main_arg0 main_v1 ((extractStridedSlice S2048x2048 ![0, 2048] · slices_S2048x4096_S2048x2048_0_2048) : (⟨S2048x4096, .f32⟩ : BufTy).Contents (Elt F) → (⟨S2048x2048, .f32⟩ : BufTy).Contents (Elt F)),
    binary main_v0 main_arg4 main_v2 ((fun l r => Host.dotGeneral dot_S2048x2048_S2048x1024_S2048x1024_1_0_0_1_n_n none l r) : (⟨S2048x2048, .f32⟩ : BufTy).Contents (Elt F) → (⟨S2048x1024, .f32⟩ : BufTy).Contents (Elt F) → (⟨S2048x1024, .f32⟩ : BufTy).Contents (Elt F)),
    binary main_v1 main_arg5 main_v3 ((fun l r => Host.dotGeneral dot_S2048x2048_S2048x1024_S2048x1024_1_0_0_1_n_n none l r) : (⟨S2048x2048, .f32⟩ : BufTy).Contents (Elt F) → (⟨S2048x1024, .f32⟩ : BufTy).Contents (Elt F) → (⟨S2048x1024, .f32⟩ : BufTy).Contents (Elt F)),
    binary main_v2 main_arg6 main_v4 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    binary main_v3 main_arg7 main_v5 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    binary main_v4 main_v5 main_v6 (addf : (⟨S2048x1024, .f32⟩ : BufTy).Contents (Elt F) → (⟨S2048x1024, .f32⟩ : BufTy).Contents (Elt F) → (⟨S2048x1024, .f32⟩ : BufTy).Contents (Elt F)),
    unary main_v6 main_v7 (Host.tanh : (⟨S2048x1024, .f32⟩ : BufTy).Contents (Elt F) → (⟨S2048x1024, .f32⟩ : BufTy).Contents (Elt F)),
    binary main_v3 main_arg8 main_v8 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    binary main_v7 main_v8 main_v9 (mulf : (⟨S2048x1024, .f32⟩ : BufTy).Contents (Elt F) → (⟨S2048x1024, .f32⟩ : BufTy).Contents (Elt F) → (⟨S2048x1024, .f32⟩ : BufTy).Contents (Elt F)),
    nullary main_cst (constant S_ .f32 0xFF800000#32),
    binary main_v9 main_cst main_v10 ((fun x v => Host.reduce FloatOps.maximumf x v reducesTo_S2048x1024_S2048_d1 h_S_) : (⟨S2048x1024, .f32⟩ : BufTy).Contents (Elt F) → (⟨S_, .f32⟩ : BufTy).Contents (Elt F) → (⟨S2048, .f32⟩ : BufTy).Contents (Elt F)),
    nullary main_cst_0 (constant S_ .f32 0xFF800000#32),
    unary main_cst_0 main_v11 (broadcastInDim S2048 ![] bcast_S_S2048 : (⟨S_, .f32⟩ : BufTy).Contents (Elt F) → (⟨S2048, .f32⟩ : BufTy).Contents (Elt F)),
    binary main_v11 main_v10 main_v12 (maximumf : (⟨S2048, .f32⟩ : BufTy).Contents (Elt F) → (⟨S2048, .f32⟩ : BufTy).Contents (Elt F) → (⟨S2048, .f32⟩ : BufTy).Contents (Elt F)),
    unary main_v12 main_v13 (broadcastInDim S2048x1 ![0] bcast_S2048_S2048x1_0 : (⟨S2048, .f32⟩ : BufTy).Contents (Elt F) → (⟨S2048x1, .f32⟩ : BufTy).Contents (Elt F)),
    unary main_v13 main_v14 (broadcastInDim S2048x1024 ![0, 1] bcast_S2048x1_S2048x1024_0_1 : (⟨S2048x1, .f32⟩ : BufTy).Contents (Elt F) → (⟨S2048x1024, .f32⟩ : BufTy).Contents (Elt F)),
    binary main_v9 main_v14 main_v15 (subf : (⟨S2048x1024, .f32⟩ : BufTy).Contents (Elt F) → (⟨S2048x1024, .f32⟩ : BufTy).Contents (Elt F) → (⟨S2048x1024, .f32⟩ : BufTy).Contents (Elt F)),
    unary main_v15 main_v16 (Host.exp : (⟨S2048x1024, .f32⟩ : BufTy).Contents (Elt F) → (⟨S2048x1024, .f32⟩ : BufTy).Contents (Elt F)),
    nullary main_cst_1 (constant S_ .f32 0x00000000#32),
    binary main_v16 main_cst_1 main_v17 ((fun x v => Host.reduceAdd x v reducesTo_S2048x1024_S2048_d1 h_S_) : (⟨S2048x1024, .f32⟩ : BufTy).Contents (Elt F) → (⟨S_, .f32⟩ : BufTy).Contents (Elt F) → (⟨S2048, .f32⟩ : BufTy).Contents (Elt F)),
    unary main_v17 main_v18 (broadcastInDim S2048x1 ![0] bcast_S2048_S2048x1_0 : (⟨S2048, .f32⟩ : BufTy).Contents (Elt F) → (⟨S2048x1, .f32⟩ : BufTy).Contents (Elt F)),
    unary main_v18 main_v19 (broadcastInDim S2048x1024 ![0, 1] bcast_S2048x1_S2048x1024_0_1 : (⟨S2048x1, .f32⟩ : BufTy).Contents (Elt F) → (⟨S2048x1024, .f32⟩ : BufTy).Contents (Elt F)),
    binary main_v16 main_v19 main_v20 (Host.divf : (⟨S2048x1024, .f32⟩ : BufTy).Contents (Elt F) → (⟨S2048x1024, .f32⟩ : BufTy).Contents (Elt F) → (⟨S2048x1024, .f32⟩ : BufTy).Contents (Elt F)),
    binary main_v3 main_arg9 main_v21 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    binary main_v2 main_arg10 main_v22 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    binary main_v21 main_v22 main_v23 (addf : (⟨S2048x1024, .f32⟩ : BufTy).Contents (Elt F) → (⟨S2048x1024, .f32⟩ : BufTy).Contents (Elt F) → (⟨S2048x1024, .f32⟩ : BufTy).Contents (Elt F)),
    unary main_v23 main_v24 (Host.tanh : (⟨S2048x1024, .f32⟩ : BufTy).Contents (Elt F) → (⟨S2048x1024, .f32⟩ : BufTy).Contents (Elt F)),
    binary main_v2 main_arg11 main_v25 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    binary main_v24 main_v25 main_v26 (mulf : (⟨S2048x1024, .f32⟩ : BufTy).Contents (Elt F) → (⟨S2048x1024, .f32⟩ : BufTy).Contents (Elt F) → (⟨S2048x1024, .f32⟩ : BufTy).Contents (Elt F)),
    nullary main_cst_2 (constant S_ .f32 0xFF800000#32),
    binary main_v26 main_cst_2 main_v27 ((fun x v => Host.reduce FloatOps.maximumf x v reducesTo_S2048x1024_S2048_d1 h_S_) : (⟨S2048x1024, .f32⟩ : BufTy).Contents (Elt F) → (⟨S_, .f32⟩ : BufTy).Contents (Elt F) → (⟨S2048, .f32⟩ : BufTy).Contents (Elt F)),
    nullary main_cst_3 (constant S_ .f32 0xFF800000#32),
    unary main_cst_3 main_v28 (broadcastInDim S2048 ![] bcast_S_S2048 : (⟨S_, .f32⟩ : BufTy).Contents (Elt F) → (⟨S2048, .f32⟩ : BufTy).Contents (Elt F)),
    binary main_v28 main_v27 main_v29 (maximumf : (⟨S2048, .f32⟩ : BufTy).Contents (Elt F) → (⟨S2048, .f32⟩ : BufTy).Contents (Elt F) → (⟨S2048, .f32⟩ : BufTy).Contents (Elt F)),
    unary main_v29 main_v30 (broadcastInDim S2048x1 ![0] bcast_S2048_S2048x1_0 : (⟨S2048, .f32⟩ : BufTy).Contents (Elt F) → (⟨S2048x1, .f32⟩ : BufTy).Contents (Elt F)),
    unary main_v30 main_v31 (broadcastInDim S2048x1024 ![0, 1] bcast_S2048x1_S2048x1024_0_1 : (⟨S2048x1, .f32⟩ : BufTy).Contents (Elt F) → (⟨S2048x1024, .f32⟩ : BufTy).Contents (Elt F)),
    binary main_v26 main_v31 main_v32 (subf : (⟨S2048x1024, .f32⟩ : BufTy).Contents (Elt F) → (⟨S2048x1024, .f32⟩ : BufTy).Contents (Elt F) → (⟨S2048x1024, .f32⟩ : BufTy).Contents (Elt F)),
    unary main_v32 main_v33 (Host.exp : (⟨S2048x1024, .f32⟩ : BufTy).Contents (Elt F) → (⟨S2048x1024, .f32⟩ : BufTy).Contents (Elt F)),
    nullary main_cst_4 (constant S_ .f32 0x00000000#32),
    binary main_v33 main_cst_4 main_v34 ((fun x v => Host.reduceAdd x v reducesTo_S2048x1024_S2048_d1 h_S_) : (⟨S2048x1024, .f32⟩ : BufTy).Contents (Elt F) → (⟨S_, .f32⟩ : BufTy).Contents (Elt F) → (⟨S2048, .f32⟩ : BufTy).Contents (Elt F)),
    unary main_v34 main_v35 (broadcastInDim S2048x1 ![0] bcast_S2048_S2048x1_0 : (⟨S2048, .f32⟩ : BufTy).Contents (Elt F) → (⟨S2048x1, .f32⟩ : BufTy).Contents (Elt F)),
    unary main_v35 main_v36 (broadcastInDim S2048x1024 ![0, 1] bcast_S2048x1_S2048x1024_0_1 : (⟨S2048x1, .f32⟩ : BufTy).Contents (Elt F) → (⟨S2048x1024, .f32⟩ : BufTy).Contents (Elt F)),
    binary main_v33 main_v36 main_v37 (Host.divf : (⟨S2048x1024, .f32⟩ : BufTy).Contents (Elt F) → (⟨S2048x1024, .f32⟩ : BufTy).Contents (Elt F) → (⟨S2048x1024, .f32⟩ : BufTy).Contents (Elt F)),
    binary main_v2 main_v20 main_v38 (mulf : (⟨S2048x1024, .f32⟩ : BufTy).Contents (Elt F) → (⟨S2048x1024, .f32⟩ : BufTy).Contents (Elt F) → (⟨S2048x1024, .f32⟩ : BufTy).Contents (Elt F)),
    binary main_v3 main_v37 main_v39 (mulf : (⟨S2048x1024, .f32⟩ : BufTy).Contents (Elt F) → (⟨S2048x1024, .f32⟩ : BufTy).Contents (Elt F) → (⟨S2048x1024, .f32⟩ : BufTy).Contents (Elt F)) ]

/-- The second stretch: the concatenation `main_v40`, the gate on the carried state, the mixed state `main_v56` and its projection `main_v61`. -/
abbrev opsB : List (HloOp τ sig (Elt F)) :=
  [ binary main_v38 main_v39 main_v40 ((fun a b => concatenate S2048x2048 1 [⟨S2048x1024, a⟩, ⟨S2048x1024, b⟩] concatenates_S2048x1024_S2048x1024_S2048x2048_d1) : (⟨S2048x1024, .f32⟩ : BufTy).Contents (Elt F) → (⟨S2048x1024, .f32⟩ : BufTy).Contents (Elt F) → (⟨S2048x2048, .f32⟩ : BufTy).Contents (Elt F)),
    binary main_arg3 main_arg14 main_v41 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    unary main_arg15 main_v42 (broadcastInDim S1x2048 ![1] bcast_S2048_S1x2048_1 : (⟨S2048, .f32⟩ : BufTy).Contents (Elt F) → (⟨S1x2048, .f32⟩ : BufTy).Contents (Elt F)),
    unary main_v42 main_v43 (broadcastInDim S2048x2048 ![0, 1] bcast_S1x2048_S2048x2048_0_1 : (⟨S1x2048, .f32⟩ : BufTy).Contents (Elt F) → (⟨S2048x2048, .f32⟩ : BufTy).Contents (Elt F)),
    binary main_v41 main_v43 main_v44 (addf : (⟨S2048x2048, .f32⟩ : BufTy).Contents (Elt F) → (⟨S2048x2048, .f32⟩ : BufTy).Contents (Elt F) → (⟨S2048x2048, .f32⟩ : BufTy).Contents (Elt F)),
    unary main_v44 main_v45 (Host.negf : (⟨S2048x2048, .f32⟩ : BufTy).Contents (Elt F) → (⟨S2048x2048, .f32⟩ : BufTy).Contents (Elt F)),
    unary main_v45 main_v46 (Host.exp : (⟨S2048x2048, .f32⟩ : BufTy).Contents (Elt F) → (⟨S2048x2048, .f32⟩ : BufTy).Contents (Elt F)),
    nullary main_cst_5 (constant S_ .f32 0x3F800000#32),
    unary main_cst_5 main_v47 (broadcastInDim S2048x2048 ![] bcast_S_S2048x2048 : (⟨S_, .f32⟩ : BufTy).Contents (Elt F) → (⟨S2048x2048, .f32⟩ : BufTy).Contents (Elt F)),
    binary main_v47 main_v46 main_v48 (addf : (⟨S2048x2048, .f32⟩ : BufTy).Contents (Elt F) → (⟨S2048x2048, .f32⟩ : BufTy).Contents (Elt F) → (⟨S2048x2048, .f32⟩ : BufTy).Contents (Elt F)),
    nullary main_cst_6 (constant S_ .f32 0x3F800000#32),
    unary main_cst_6 main_v49 (broadcastInDim S2048x2048 ![] bcast_S_S2048x2048 : (⟨S_, .f32⟩ : BufTy).Contents (Elt F) → (⟨S2048x2048, .f32⟩ : BufTy).Contents (Elt F)),
    binary main_v49 main_v48 main_v50 (Host.divf : (⟨S2048x2048, .f32⟩ : BufTy).Contents (Elt F) → (⟨S2048x2048, .f32⟩ : BufTy).Contents (Elt F) → (⟨S2048x2048, .f32⟩ : BufTy).Contents (Elt F)),
    nullary main_cst_7 (constant S_ .f32 0x3F000000#32),
    unary main_cst_7 main_v51 (broadcastInDim S2048x2048 ![] bcast_S_S2048x2048 : (⟨S_, .f32⟩ : BufTy).Contents (Elt F) → (⟨S2048x2048, .f32⟩ : BufTy).Contents (Elt F)),
    binary main_v51 main_arg3 main_v52 (mulf : (⟨S2048x2048, .f32⟩ : BufTy).Contents (Elt F) → (⟨S2048x2048, .f32⟩ : BufTy).Contents (Elt F) → (⟨S2048x2048, .f32⟩ : BufTy).Contents (Elt F)),
    binary main_v52 main_v50 main_v53 (mulf : (⟨S2048x2048, .f32⟩ : BufTy).Contents (Elt F) → (⟨S2048x2048, .f32⟩ : BufTy).Contents (Elt F) → (⟨S2048x2048, .f32⟩ : BufTy).Contents (Elt F)),
    nullary main_cst_8 (constant S_ .f32 0x3F000000#32),
    unary main_cst_8 main_v54 (broadcastInDim S2048x2048 ![] bcast_S_S2048x2048 : (⟨S_, .f32⟩ : BufTy).Contents (Elt F) → (⟨S2048x2048, .f32⟩ : BufTy).Contents (Elt F)),
    binary main_v54 main_v40 main_v55 (mulf : (⟨S2048x2048, .f32⟩ : BufTy).Contents (Elt F) → (⟨S2048x2048, .f32⟩ : BufTy).Contents (Elt F) → (⟨S2048x2048, .f32⟩ : BufTy).Contents (Elt F)),
    binary main_v53 main_v55 main_v56 (addf : (⟨S2048x2048, .f32⟩ : BufTy).Contents (Elt F) → (⟨S2048x2048, .f32⟩ : BufTy).Contents (Elt F) → (⟨S2048x2048, .f32⟩ : BufTy).Contents (Elt F)),
    binary main_v56 main_arg12 main_v57 ((fun l r => Host.dotGeneral dot_S2048x2048_S2048x1024_S2048x1024_1_0_0_1_n_n none l r) : (⟨S2048x2048, .f32⟩ : BufTy).Contents (Elt F) → (⟨S2048x1024, .f32⟩ : BufTy).Contents (Elt F) → (⟨S2048x1024, .f32⟩ : BufTy).Contents (Elt F)),
    unary main_arg13 main_v58 (broadcastInDim S1x1024 ![1] bcast_S1024_S1x1024_1 : (⟨S1024, .f32⟩ : BufTy).Contents (Elt F) → (⟨S1x1024, .f32⟩ : BufTy).Contents (Elt F)),
    unary main_v58 main_v59 (broadcastInDim S2048x1024 ![0, 1] bcast_S1x1024_S2048x1024_0_1 : (⟨S1x1024, .f32⟩ : BufTy).Contents (Elt F) → (⟨S2048x1024, .f32⟩ : BufTy).Contents (Elt F)),
    binary main_v57 main_v59 main_v60 (addf : (⟨S2048x1024, .f32⟩ : BufTy).Contents (Elt F) → (⟨S2048x1024, .f32⟩ : BufTy).Contents (Elt F) → (⟨S2048x1024, .f32⟩ : BufTy).Contents (Elt F)),
    unary main_v60 main_v61 (Host.tanh : (⟨S2048x1024, .f32⟩ : BufTy).Contents (Elt F) → (⟨S2048x1024, .f32⟩ : BufTy).Contents (Elt F)) ]

/-- The third stretch: the four gates and the two outputs `main_v87`, `main_v96`. -/
abbrev opsC : List (HloOp τ sig (Elt F)) :=
  [ binary main_v40 main_arg16 main_v62 ((fun l r => Host.dotGeneral dot_S2048x2048_S2048x4096_S2048x4096_1_0_0_1_n_n none l r) : (⟨S2048x2048, .f32⟩ : BufTy).Contents (Elt F) → (⟨S2048x4096, .f32⟩ : BufTy).Contents (Elt F) → (⟨S2048x4096, .f32⟩ : BufTy).Contents (Elt F)),
    binary main_arg1 main_arg17 main_v63 ((fun l r => Host.dotGeneral dot_S2048x1024_S1024x4096_S2048x4096_1_0_0_1_n_n none l r) : (⟨S2048x1024, .f32⟩ : BufTy).Contents (Elt F) → (⟨S1024x4096, .f32⟩ : BufTy).Contents (Elt F) → (⟨S2048x4096, .f32⟩ : BufTy).Contents (Elt F)),
    binary main_v62 main_v63 main_v64 (addf : (⟨S2048x4096, .f32⟩ : BufTy).Contents (Elt F) → (⟨S2048x4096, .f32⟩ : BufTy).Contents (Elt F) → (⟨S2048x4096, .f32⟩ : BufTy).Contents (Elt F)),
    unary main_arg18 main_v65 (broadcastInDim S1x4096 ![1] bcast_S4096_S1x4096_1 : (⟨S4096, .f32⟩ : BufTy).Contents (Elt F) → (⟨S1x4096, .f32⟩ : BufTy).Contents (Elt F)),
    unary main_v65 main_v66 (broadcastInDim S2048x4096 ![0, 1] bcast_S1x4096_S2048x4096_0_1 : (⟨S1x4096, .f32⟩ : BufTy).Contents (Elt F) → (⟨S2048x4096, .f32⟩ : BufTy).Contents (Elt F)),
    binary main_v64 main_v66 main_v67 (addf : (⟨S2048x4096, .f32⟩ : BufTy).Contents (Elt F) → (⟨S2048x4096, .f32⟩ : BufTy).Contents (Elt F) → (⟨S2048x4096, .f32⟩ : BufTy).Contents (Elt F)),
    unary main_v67 main_v68 ((extractStridedSlice S2048x1024 ![0, 0] · slices_S2048x4096_S2048x1024_0_0) : (⟨S2048x4096, .f32⟩ : BufTy).Contents (Elt F) → (⟨S2048x1024, .f32⟩ : BufTy).Contents (Elt F)),
    unary main_v67 main_v69 ((extractStridedSlice S2048x1024 ![0, 1024] · slices_S2048x4096_S2048x1024_0_1024) : (⟨S2048x4096, .f32⟩ : BufTy).Contents (Elt F) → (⟨S2048x1024, .f32⟩ : BufTy).Contents (Elt F)),
    unary main_v67 main_v70 ((extractStridedSlice S2048x1024 ![0, 2048] · slices_S2048x4096_S2048x1024_0_2048) : (⟨S2048x4096, .f32⟩ : BufTy).Contents (Elt F) → (⟨S2048x1024, .f32⟩ : BufTy).Contents (Elt F)),
    unary main_v67 main_v71 ((extractStridedSlice S2048x1024 ![0, 3072] · slices_S2048x4096_S2048x1024_0_3072) : (⟨S2048x4096, .f32⟩ : BufTy).Contents (Elt F) → (⟨S2048x1024, .f32⟩ : BufTy).Contents (Elt F)),
    unary main_v68 main_v72 (Host.negf : (⟨S2048x1024, .f32⟩ : BufTy).Contents (Elt F) → (⟨S2048x1024, .f32⟩ : BufTy).Contents (Elt F)),
    unary main_v72 main_v73 (Host.exp : (⟨S2048x1024, .f32⟩ : BufTy).Contents (Elt F) → (⟨S2048x1024, .f32⟩ : BufTy).Contents (Elt F)),
    nullary main_cst_9 (constant S_ .f32 0x3F800000#32),
    unary main_cst_9 main_v74 (broadcastInDim S2048x1024 ![] bcast_S_S2048x1024 : (⟨S_, .f32⟩ : BufTy).Contents (Elt F) → (⟨S2048x1024, .f32⟩ : BufTy).Contents (Elt F)),
    binary main_v74 main_v73 main_v75 (addf : (⟨S2048x1024, .f32⟩ : BufTy).Contents (Elt F) → (⟨S2048x1024, .f32⟩ : BufTy).Contents (Elt F) → (⟨S2048x1024, .f32⟩ : BufTy).Contents (Elt F)),
    nullary main_cst_10 (constant S_ .f32 0x3F800000#32),
    unary main_cst_10 main_v76 (broadcastInDim S2048x1024 ![] bcast_S_S2048x1024 : (⟨S_, .f32⟩ : BufTy).Contents (Elt F) → (⟨S2048x1024, .f32⟩ : BufTy).Contents (Elt F)),
    binary main_v76 main_v75 main_v77 (Host.divf : (⟨S2048x1024, .f32⟩ : BufTy).Contents (Elt F) → (⟨S2048x1024, .f32⟩ : BufTy).Contents (Elt F) → (⟨S2048x1024, .f32⟩ : BufTy).Contents (Elt F)),
    unary main_v69 main_v78 (Host.negf : (⟨S2048x1024, .f32⟩ : BufTy).Contents (Elt F) → (⟨S2048x1024, .f32⟩ : BufTy).Contents (Elt F)),
    unary main_v78 main_v79 (Host.exp : (⟨S2048x1024, .f32⟩ : BufTy).Contents (Elt F) → (⟨S2048x1024, .f32⟩ : BufTy).Contents (Elt F)),
    nullary main_cst_11 (constant S_ .f32 0x3F800000#32),
    unary main_cst_11 main_v80 (broadcastInDim S2048x1024 ![] bcast_S_S2048x1024 : (⟨S_, .f32⟩ : BufTy).Contents (Elt F) → (⟨S2048x1024, .f32⟩ : BufTy).Contents (Elt F)),
    binary main_v80 main_v79 main_v81 (addf : (⟨S2048x1024, .f32⟩ : BufTy).Contents (Elt F) → (⟨S2048x1024, .f32⟩ : BufTy).Contents (Elt F) → (⟨S2048x1024, .f32⟩ : BufTy).Contents (Elt F)),
    nullary main_cst_12 (constant S_ .f32 0x3F800000#32),
    unary main_cst_12 main_v82 (broadcastInDim S2048x1024 ![] bcast_S_S2048x1024 : (⟨S_, .f32⟩ : BufTy).Contents (Elt F) → (⟨S2048x1024, .f32⟩ : BufTy).Contents (Elt F)),
    binary main_v82 main_v81 main_v83 (Host.divf : (⟨S2048x1024, .f32⟩ : BufTy).Contents (Elt F) → (⟨S2048x1024, .f32⟩ : BufTy).Contents (Elt F) → (⟨S2048x1024, .f32⟩ : BufTy).Contents (Elt F)),
    binary main_v83 main_arg2 main_v84 (mulf : (⟨S2048x1024, .f32⟩ : BufTy).Contents (Elt F) → (⟨S2048x1024, .f32⟩ : BufTy).Contents (Elt F) → (⟨S2048x1024, .f32⟩ : BufTy).Contents (Elt F)),
    unary main_v70 main_v85 (Host.tanh : (⟨S2048x1024, .f32⟩ : BufTy).Contents (Elt F) → (⟨S2048x1024, .f32⟩ : BufTy).Contents (Elt F)),
    binary main_v77 main_v85 main_v86 (mulf : (⟨S2048x1024, .f32⟩ : BufTy).Contents (Elt F) → (⟨S2048x1024, .f32⟩ : BufTy).Contents (Elt F) → (⟨S2048x1024, .f32⟩ : BufTy).Contents (Elt F)),
    binary main_v84 main_v86 main_v87 (addf : (⟨S2048x1024, .f32⟩ : BufTy).Contents (Elt F) → (⟨S2048x1024, .f32⟩ : BufTy).Contents (Elt F) → (⟨S2048x1024, .f32⟩ : BufTy).Contents (Elt F)),
    unary main_v71 main_v88 (Host.negf : (⟨S2048x1024, .f32⟩ : BufTy).Contents (Elt F) → (⟨S2048x1024, .f32⟩ : BufTy).Contents (Elt F)),
    unary main_v88 main_v89 (Host.exp : (⟨S2048x1024, .f32⟩ : BufTy).Contents (Elt F) → (⟨S2048x1024, .f32⟩ : BufTy).Contents (Elt F)),
    nullary main_cst_13 (constant S_ .f32 0x3F800000#32),
    unary main_cst_13 main_v90 (broadcastInDim S2048x1024 ![] bcast_S_S2048x1024 : (⟨S_, .f32⟩ : BufTy).Contents (Elt F) → (⟨S2048x1024, .f32⟩ : BufTy).Contents (Elt F)),
    binary main_v90 main_v89 main_v91 (addf : (⟨S2048x1024, .f32⟩ : BufTy).Contents (Elt F) → (⟨S2048x1024, .f32⟩ : BufTy).Contents (Elt F) → (⟨S2048x1024, .f32⟩ : BufTy).Contents (Elt F)),
    nullary main_cst_14 (constant S_ .f32 0x3F800000#32),
    unary main_cst_14 main_v92 (broadcastInDim S2048x1024 ![] bcast_S_S2048x1024 : (⟨S_, .f32⟩ : BufTy).Contents (Elt F) → (⟨S2048x1024, .f32⟩ : BufTy).Contents (Elt F)),
    binary main_v92 main_v91 main_v93 (Host.divf : (⟨S2048x1024, .f32⟩ : BufTy).Contents (Elt F) → (⟨S2048x1024, .f32⟩ : BufTy).Contents (Elt F) → (⟨S2048x1024, .f32⟩ : BufTy).Contents (Elt F)),
    unary main_v87 main_v94 (Host.tanh : (⟨S2048x1024, .f32⟩ : BufTy).Contents (Elt F) → (⟨S2048x1024, .f32⟩ : BufTy).Contents (Elt F)),
    binary main_v93 main_v94 main_v95 (mulf : (⟨S2048x1024, .f32⟩ : BufTy).Contents (Elt F) → (⟨S2048x1024, .f32⟩ : BufTy).Contents (Elt F) → (⟨S2048x1024, .f32⟩ : BufTy).Contents (Elt F)),
    binary main_v95 main_v61 main_v96 (addf : (⟨S2048x1024, .f32⟩ : BufTy).Contents (Elt F) → (⟨S2048x1024, .f32⟩ : BufTy).Contents (Elt F) → (⟨S2048x1024, .f32⟩ : BufTy).Contents (Elt F)) ]

set_option maxRecDepth 8192 in
set_option maxHeartbeats 4000000 in
theorem ops_split : (ops : List (HloOp τ sig (Elt F))) = opsA ++ (opsB ++ opsC) := rfl

/-- The fold over a concatenation is the fold over the second list from the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-! ## What each stretch leaves alone -/

set_option maxRecDepth 8192 in
set_option maxHeartbeats 4000000 in
theorem frameA_arg1 (V : Valuation τ sig (Elt F)) :
    after (opsA (F := F)) V (Proc.devRef .tc main_arg1) = V (Proc.devRef .tc main_arg1) := by
  after_results_simp

set_option maxRecDepth 8192 in
set_option maxHeartbeats 4000000 in
theorem frameA_arg2 (V : Valuation τ sig (Elt F)) :
    after (opsA (F := F)) V (Proc.devRef .tc main_arg2) = V (Proc.devRef .tc main_arg2) := by
  after_results_simp

set_option maxRecDepth 8192 in
set_option maxHeartbeats 4000000 in
theorem frameA_arg3 (V : Valuation τ sig (Elt F)) :
    after (opsA (F := F)) V (Proc.devRef .tc main_arg3) = V (Proc.devRef .tc main_arg3) := by
  after_results_simp

set_option maxRecDepth 8192 in
set_option maxHeartbeats 4000000 in
theorem frameA_arg12 (V : Valuation τ sig (Elt F)) :
    after (opsA (F := F)) V (Proc.devRef .tc main_arg12) = V (Proc.devRef .tc main_arg12) := by
  after_results_simp

set_option maxRecDepth 8192 in
set_option maxHeartbeats 4000000 in
theorem frameA_arg13 (V : Valuation τ sig (Elt F)) :
    after (opsA (F := F)) V (Proc.devRef .tc main_arg13) = V (Proc.devRef .tc main_arg13) := by
  after_results_simp

set_option maxRecDepth 8192 in
set_option maxHeartbeats 4000000 in
theorem frameA_arg14 (V : Valuation τ sig (Elt F)) :
    after (opsA (F := F)) V (Proc.devRef .tc main_arg14) = V (Proc.devRef .tc main_arg14) := by
  after_results_simp

set_option maxRecDepth 8192 in
set_option maxHeartbeats 4000000 in
theorem frameA_arg15 (V : Valuation τ sig (Elt F)) :
    after (opsA (F := F)) V (Proc.devRef .tc main_arg15) = V (Proc.devRef .tc main_arg15) := by
  after_results_simp

set_option maxRecDepth 8192 in
set_option maxHeartbeats 4000000 in
theorem frameA_arg16 (V : Valuation τ sig (Elt F)) :
    after (opsA (F := F)) V (Proc.devRef .tc main_arg16) = V (Proc.devRef .tc main_arg16) := by
  after_results_simp

set_option maxRecDepth 8192 in
set_option maxHeartbeats 4000000 in
theorem frameA_arg17 (V : Valuation τ sig (Elt F)) :
    after (opsA (F := F)) V (Proc.devRef .tc main_arg17) = V (Proc.devRef .tc main_arg17) := by
  after_results_simp

set_option maxRecDepth 8192 in
set_option maxHeartbeats 4000000 in
theorem frameA_arg18 (V : Valuation τ sig (Elt F)) :
    after (opsA (F := F)) V (Proc.devRef .tc main_arg18) = V (Proc.devRef .tc main_arg18) := by
  after_results_simp

set_option maxRecDepth 8192 in
set_option maxHeartbeats 4000000 in
theorem frameB_arg1 (V : Valuation τ sig (Elt F)) :
    after (opsB (F := F)) V (Proc.devRef .tc main_arg1) = V (Proc.devRef .tc main_arg1) := by
  after_results_simp

set_option maxRecDepth 8192 in
set_option maxHeartbeats 4000000 in
theorem frameB_arg2 (V : Valuation τ sig (Elt F)) :
    after (opsB (F := F)) V (Proc.devRef .tc main_arg2) = V (Proc.devRef .tc main_arg2) := by
  after_results_simp

set_option maxRecDepth 8192 in
set_option maxHeartbeats 4000000 in
theorem frameB_arg16 (V : Valuation τ sig (Elt F)) :
    after (opsB (F := F)) V (Proc.devRef .tc main_arg16) = V (Proc.devRef .tc main_arg16) := by
  after_results_simp

set_option maxRecDepth 8192 in
set_option maxHeartbeats 4000000 in
theorem frameB_arg17 (V : Valuation τ sig (Elt F)) :
    after (opsB (F := F)) V (Proc.devRef .tc main_arg17) = V (Proc.devRef .tc main_arg17) := by
  after_results_simp

set_option maxRecDepth 8192 in
set_option maxHeartbeats 4000000 in
theorem frameB_arg18 (V : Valuation τ sig (Elt F)) :
    after (opsB (F := F)) V (Proc.devRef .tc main_arg18) = V (Proc.devRef .tc main_arg18) := by
  after_results_simp

set_option maxRecDepth 8192 in
set_option maxHeartbeats 4000000 in
theorem frameC_v56 (V : Valuation τ sig (Elt F)) :
    after (opsC (F := F)) V (Proc.devRef .tc main_v56) = V (Proc.devRef .tc main_v56) := by
  after_results_simp

/-! ## What each stretch computes

Each proof computes the fold at the buffer (every operation's result at its own buffer is its function's value, at
another buffer what was there), rewrites the atoms the hypotheses name, and unfolds the stage functions of the
stretch: the two sides are then one term. -/

set_option maxRecDepth 8192 in
set_option maxHeartbeats 4000000 in
/-- The first stretch ends with `main_v38` at its stage function of the arguments it starts from. -/
theorem stageA_v38 (V : Valuation τ sig (Elt F)) {x0 : (⟨S2048x4096, .f32⟩ : BufTy).Contents (Elt F)} {x4 : (⟨S2048x1024, .f32⟩ : BufTy).Contents (Elt F)} {x5 : (⟨S2048x1024, .f32⟩ : BufTy).Contents (Elt F)} {x6 : (⟨S1024x1024, .f32⟩ : BufTy).Contents (Elt F)} {x7 : (⟨S1024x1024, .f32⟩ : BufTy).Contents (Elt F)} {x8 : (⟨S1024x1024, .f32⟩ : BufTy).Contents (Elt F)}
    (h0 : V (Proc.devRef .tc main_arg0) = x0) (h4 : V (Proc.devRef .tc main_arg4) = x4) (h5 : V (Proc.devRef .tc main_arg5) = x5) (h6 : V (Proc.devRef .tc main_arg6) = x6) (h7 : V (Proc.devRef .tc main_arg7) = x7) (h8 : V (Proc.devRef .tc main_arg8) = x8) :
    after (opsA (F := F)) V (Proc.devRef .tc main_v38) = ReadP.val_main_v38 (F := F) x0 x4 x5 x6 x7 x8 := by
  subst h0 h4 h5 h6 h7 h8
  after_results_simp
  simp only [ReadP.val_main_v0, ReadP.val_main_v1, ReadP.val_main_v2, ReadP.val_main_v3, ReadP.val_main_v4, ReadP.val_main_v5, ReadP.val_main_v6, ReadP.val_main_v7, ReadP.val_main_v8, ReadP.val_main_v9, ReadP.val_main_cst, ReadP.val_main_v10, ReadP.val_main_cst_0, ReadP.val_main_v11, ReadP.val_main_v12, ReadP.val_main_v13, ReadP.val_main_v14, ReadP.val_main_v15, ReadP.val_main_v16, ReadP.val_main_cst_1, ReadP.val_main_v17, ReadP.val_main_v18, ReadP.val_main_v19, ReadP.val_main_v20, ReadP.val_main_v21, ReadP.val_main_v22, ReadP.val_main_v23, ReadP.val_main_v24, ReadP.val_main_v25, ReadP.val_main_v26, ReadP.val_main_cst_2, ReadP.val_main_v27, ReadP.val_main_cst_3, ReadP.val_main_v28, ReadP.val_main_v29, ReadP.val_main_v30, ReadP.val_main_v31, ReadP.val_main_v32, ReadP.val_main_v33, ReadP.val_main_cst_4, ReadP.val_main_v34, ReadP.val_main_v35, ReadP.val_main_v36, ReadP.val_main_v37, ReadP.val_main_v38, ReadP.val_main_v39]

set_option maxRecDepth 8192 in
set_option maxHeartbeats 4000000 in
/-- The first stretch ends with `main_v39` at its stage function of the arguments it starts from. -/
theorem stageA_v39 (V : Valuation τ sig (Elt F)) {x0 : (⟨S2048x4096, .f32⟩ : BufTy).Contents (Elt F)} {x4 : (⟨S2048x1024, .f32⟩ : BufTy).Contents (Elt F)} {x5 : (⟨S2048x1024, .f32⟩ : BufTy).Contents (Elt F)} {x9 : (⟨S1024x1024, .f32⟩ : BufTy).Contents (Elt F)} {x10 : (⟨S1024x1024, .f32⟩ : BufTy).Contents (Elt F)} {x11 : (⟨S1024x1024, .f32⟩ : BufTy).Contents (Elt F)}
    (h0 : V (Proc.devRef .tc main_arg0) = x0) (h4 : V (Proc.devRef .tc main_arg4) = x4) (h5 : V (Proc.devRef .tc main_arg5) = x5) (h9 : V (Proc.devRef .tc main_arg9) = x9) (h10 : V (Proc.devRef .tc main_arg10) = x10) (h11 : V (Proc.devRef .tc main_arg11) = x11) :
    after (opsA (F := F)) V (Proc.devRef .tc main_v39) = ReadP.val_main_v39 (F := F) x0 x4 x5 x9 x10 x11 := by
  subst h0 h4 h5 h9 h10 h11
  after_results_simp
  simp only [ReadP.val_main_v0, ReadP.val_main_v1, ReadP.val_main_v2, ReadP.val_main_v3, ReadP.val_main_v4, ReadP.val_main_v5, ReadP.val_main_v6, ReadP.val_main_v7, ReadP.val_main_v8, ReadP.val_main_v9, ReadP.val_main_cst, ReadP.val_main_v10, ReadP.val_main_cst_0, ReadP.val_main_v11, ReadP.val_main_v12, ReadP.val_main_v13, ReadP.val_main_v14, ReadP.val_main_v15, ReadP.val_main_v16, ReadP.val_main_cst_1, ReadP.val_main_v17, ReadP.val_main_v18, ReadP.val_main_v19, ReadP.val_main_v20, ReadP.val_main_v21, ReadP.val_main_v22, ReadP.val_main_v23, ReadP.val_main_v24, ReadP.val_main_v25, ReadP.val_main_v26, ReadP.val_main_cst_2, ReadP.val_main_v27, ReadP.val_main_cst_3, ReadP.val_main_v28, ReadP.val_main_v29, ReadP.val_main_v30, ReadP.val_main_v31, ReadP.val_main_v32, ReadP.val_main_v33, ReadP.val_main_cst_4, ReadP.val_main_v34, ReadP.val_main_v35, ReadP.val_main_v36, ReadP.val_main_v37, ReadP.val_main_v38, ReadP.val_main_v39]

set_option maxRecDepth 8192 in
set_option maxHeartbeats 4000000 in
/-- The second stretch, started where `main_v38` and `main_v39` hold their stages, ends with `main_v40` at its stage. -/
theorem stageB_v40 (V : Valuation τ sig (Elt F)) {x0 : (⟨S2048x4096, .f32⟩ : BufTy).Contents (Elt F)} {x4 : (⟨S2048x1024, .f32⟩ : BufTy).Contents (Elt F)} {x5 : (⟨S2048x1024, .f32⟩ : BufTy).Contents (Elt F)} {x6 : (⟨S1024x1024, .f32⟩ : BufTy).Contents (Elt F)} {x7 : (⟨S1024x1024, .f32⟩ : BufTy).Contents (Elt F)} {x8 : (⟨S1024x1024, .f32⟩ : BufTy).Contents (Elt F)} {x9 : (⟨S1024x1024, .f32⟩ : BufTy).Contents (Elt F)} {x10 : (⟨S1024x1024, .f32⟩ : BufTy).Contents (Elt F)} {x11 : (⟨S1024x1024, .f32⟩ : BufTy).Contents (Elt F)}
    (h38 : V (Proc.devRef .tc main_v38) = ReadP.val_main_v38 (F := F) x0 x4 x5 x6 x7 x8)
    (h39 : V (Proc.devRef .tc main_v39) = ReadP.val_main_v39 (F := F) x0 x4 x5 x9 x10 x11) :
    after (opsB (F := F)) V (Proc.devRef .tc main_v40) = ReadP.val_main_v40 (F := F) x0 x4 x5 x6 x7 x8 x9 x10 x11 := by
  after_results_simp
  rw [h38, h39]
  simp only [ReadP.val_main_v40]

set_option maxRecDepth 8192 in
set_option maxHeartbeats 4000000 in
/-- The second stretch, started where `main_v38` and `main_v39` hold their stages, ends with `main_v56` at its stage. -/
theorem stageB_v56 (V : Valuation τ sig (Elt F)) {x0 : (⟨S2048x4096, .f32⟩ : BufTy).Contents (Elt F)} {x3 : (⟨S2048x2048, .f32⟩ : BufTy).Contents (Elt F)} {x4 : (⟨S2048x1024, .f32⟩ : BufTy).Contents (Elt F)} {x5 : (⟨S2048x1024, .f32⟩ : BufTy).Contents (Elt F)} {x6 : (⟨S1024x1024, .f32⟩ : BufTy).Contents (Elt F)} {x7 : (⟨S1024x1024, .f32⟩ : BufTy).Contents (Elt F)} {x8 : (⟨S1024x1024, .f32⟩ : BufTy).Contents (Elt F)} {x9 : (⟨S1024x1024, .f32⟩ : BufTy).Contents (Elt F)} {x10 : (⟨S1024x1024, .f32⟩ : BufTy).Contents (Elt F)} {x11 : (⟨S1024x1024, .f32⟩ : BufTy).Contents (Elt F)} {x14 : (⟨S2048x2048, .f32⟩ : BufTy).Contents (Elt F)} {x15 : (⟨S2048, .f32⟩ : BufTy).Contents (Elt F)}
    (h3 : V (Proc.devRef .tc main_arg3) = x3) (h14 : V (Proc.devRef .tc main_arg14) = x14) (h15 : V (Proc.devRef .tc main_arg15) = x15)
    (h38 : V (Proc.devRef .tc main_v38) = ReadP.val_main_v38 (F := F) x0 x4 x5 x6 x7 x8)
    (h39 : V (Proc.devRef .tc main_v39) = ReadP.val_main_v39 (F := F) x0 x4 x5 x9 x10 x11) :
    after (opsB (F := F)) V (Proc.devRef .tc main_v56) = ReadP.val_main_v56 (F := F) x0 x3 x4 x5 x6 x7 x8 x9 x10 x11 x14 x15 := by
  subst h3 h14 h15
  after_results_simp
  rw [h38, h39]
  simp only [ReadP.val_main_v40, ReadP.val_main_v41, ReadP.val_main_v42, ReadP.val_main_v43, ReadP.val_main_v44, ReadP.val_main_v45, ReadP.val_main_v46, ReadP.val_main_cst_5, ReadP.val_main_v47, ReadP.val_main_v48, ReadP.val_main_cst_6, ReadP.val_main_v49, ReadP.val_main_v50, ReadP.val_main_cst_7, ReadP.val_main_v51, ReadP.val_main_v52, ReadP.val_main_v53, ReadP.val_main_cst_8, ReadP.val_main_v54, ReadP.val_main_v55, ReadP.val_main_v56, ReadP.val_main_v57, ReadP.val_main_v58, ReadP.val_main_v59, ReadP.val_main_v60, ReadP.val_main_v61]

set_option maxRecDepth 8192 in
set_option maxHeartbeats 4000000 in
/-- The second stretch, started where `main_v38` and `main_v39` hold their stages, ends with `main_v61` at its stage. -/
theorem stageB_v61 (V : Valuation τ sig (Elt F)) {x0 : (⟨S2048x4096, .f32⟩ : BufTy).Contents (Elt F)} {x3 : (⟨S2048x2048, .f32⟩ : BufTy).Contents (Elt F)} {x4 : (⟨S2048x1024, .f32⟩ : BufTy).Contents (Elt F)} {x5 : (⟨S2048x1024, .f32⟩ : BufTy).Contents (Elt F)} {x6 : (⟨S1024x1024, .f32⟩ : BufTy).Contents (Elt F)} {x7 : (⟨S1024x1024, .f32⟩ : BufTy).Contents (Elt F)} {x8 : (⟨S1024x1024, .f32⟩ : BufTy).Contents (Elt F)} {x9 : (⟨S1024x1024, .f32⟩ : BufTy).Contents (Elt F)} {x10 : (⟨S1024x1024, .f32⟩ : BufTy).Contents (Elt F)} {x11 : (⟨S1024x1024, .f32⟩ : BufTy).Contents (Elt F)} {x12 : (⟨S2048x1024, .f32⟩ : BufTy).Contents (Elt F)} {x13 : (⟨S1024, .f32⟩ : BufTy).Contents (Elt F)} {x14 : (⟨S2048x2048, .f32⟩ : BufTy).Contents (Elt F)} {x15 : (⟨S2048, .f32⟩ : BufTy).Contents (Elt F)}
    (h3 : V (Proc.devRef .tc main_arg3) = x3) (h12 : V (Proc.devRef .tc main_arg12) = x12) (h13 : V (Proc.devRef .tc main_arg13) = x13) (h14 : V (Proc.devRef .tc main_arg14) = x14) (h15 : V (Proc.devRef .tc main_arg15) = x15)
    (h38 : V (Proc.devRef .tc main_v38) = ReadP.val_main_v38 (F := F) x0 x4 x5 x6 x7 x8)
    (h39 : V (Proc.devRef .tc main_v39) = ReadP.val_main_v39 (F := F) x0 x4 x5 x9 x10 x11) :
    after (opsB (F := F)) V (Proc.devRef .tc main_v61) = ReadP.val_main_v61 (F := F) x0 x3 x4 x5 x6 x7 x8 x9 x10 x11 x12 x13 x14 x15 := by
  subst h3 h12 h13 h14 h15
  after_results_simp
  rw [h38, h39]
  simp only [ReadP.val_main_v40, ReadP.val_main_v41, ReadP.val_main_v42, ReadP.val_main_v43, ReadP.val_main_v44, ReadP.val_main_v45, ReadP.val_main_v46, ReadP.val_main_cst_5, ReadP.val_main_v47, ReadP.val_main_v48, ReadP.val_main_cst_6, ReadP.val_main_v49, ReadP.val_main_v50, ReadP.val_main_cst_7, ReadP.val_main_v51, ReadP.val_main_v52, ReadP.val_main_v53, ReadP.val_main_cst_8, ReadP.val_main_v54, ReadP.val_main_v55, ReadP.val_main_v56, ReadP.val_main_v57, ReadP.val_main_v58, ReadP.val_main_v59, ReadP.val_main_v60, ReadP.val_main_v61]

set_option maxRecDepth 8192 in
set_option maxHeartbeats 4000000 in
/-- The third stretch, started where `main_v40` holds its stage, ends with `main_v87` at its stage. -/
theorem stageC_v87 (V : Valuation τ sig (Elt F)) {x0 : (⟨S2048x4096, .f32⟩ : BufTy).Contents (Elt F)} {x1 : (⟨S2048x1024, .f32⟩ : BufTy).Contents (Elt F)} {x2 : (⟨S2048x1024, .f32⟩ : BufTy).Contents (Elt F)} {x4 : (⟨S2048x1024, .f32⟩ : BufTy).Contents (Elt F)} {x5 : (⟨S2048x1024, .f32⟩ : BufTy).Contents (Elt F)} {x6 : (⟨S1024x1024, .f32⟩ : BufTy).Contents (Elt F)} {x7 : (⟨S1024x1024, .f32⟩ : BufTy).Contents (Elt F)} {x8 : (⟨S1024x1024, .f32⟩ : BufTy).Contents (Elt F)} {x9 : (⟨S1024x1024, .f32⟩ : BufTy).Contents (Elt F)} {x10 : (⟨S1024x1024, .f32⟩ : BufTy).Contents (Elt F)} {x11 : (⟨S1024x1024, .f32⟩ : BufTy).Contents (Elt F)} {x16 : (⟨S2048x4096, .f32⟩ : BufTy).Contents (Elt F)} {x17 : (⟨S1024x4096, .f32⟩ : BufTy).Contents (Elt F)} {x18 : (⟨S4096, .f32⟩ : BufTy).Contents (Elt F)}
    (h1 : V (Proc.devRef .tc main_arg1) = x1) (h2 : V (Proc.devRef .tc main_arg2) = x2) (h16 : V (Proc.devRef .tc main_arg16) = x16) (h17 : V (Proc.devRef .tc main_arg17) = x17) (h18 : V (Proc.devRef .tc main_arg18) = x18)
    (h40 : V (Proc.devRef .tc main_v40) = ReadP.val_main_v40 (F := F) x0 x4 x5 x6 x7 x8 x9 x10 x11) :
    after (opsC (F := F)) V (Proc.devRef .tc main_v87) = ReadP.val_main_v87 (F := F) x0 x1 x2 x4 x5 x6 x7 x8 x9 x10 x11 x16 x17 x18 := by
  subst h1 h2 h16 h17 h18
  after_results_simp
  rw [h40]
  simp only [ReadP.val_main_v62, ReadP.val_main_v63, ReadP.val_main_v64, ReadP.val_main_v65, ReadP.val_main_v66, ReadP.val_main_v67, ReadP.val_main_v68, ReadP.val_main_v69, ReadP.val_main_v70, ReadP.val_main_v71, ReadP.val_main_v72, ReadP.val_main_v73, ReadP.val_main_cst_9, ReadP.val_main_v74, ReadP.val_main_v75, ReadP.val_main_cst_10, ReadP.val_main_v76, ReadP.val_main_v77, ReadP.val_main_v78, ReadP.val_main_v79, ReadP.val_main_cst_11, ReadP.val_main_v80, ReadP.val_main_v81, ReadP.val_main_cst_12, ReadP.val_main_v82, ReadP.val_main_v83, ReadP.val_main_v84, ReadP.val_main_v85, ReadP.val_main_v86, ReadP.val_main_v87, ReadP.val_main_v88, ReadP.val_main_v89, ReadP.val_main_cst_13, ReadP.val_main_v90, ReadP.val_main_v91, ReadP.val_main_cst_14, ReadP.val_main_v92, ReadP.val_main_v93, ReadP.val_main_v94, ReadP.val_main_v95, ReadP.val_main_v96]

set_option maxRecDepth 8192 in
set_option maxHeartbeats 4000000 in
/-- The third stretch, started where `main_v40` and `main_v61` hold their stages, ends with `main_v96` at its stage. -/
theorem stageC_v96 (V : Valuation τ sig (Elt F)) {x0 : (⟨S2048x4096, .f32⟩ : BufTy).Contents (Elt F)} {x1 : (⟨S2048x1024, .f32⟩ : BufTy).Contents (Elt F)} {x2 : (⟨S2048x1024, .f32⟩ : BufTy).Contents (Elt F)} {x3 : (⟨S2048x2048, .f32⟩ : BufTy).Contents (Elt F)} {x4 : (⟨S2048x1024, .f32⟩ : BufTy).Contents (Elt F)} {x5 : (⟨S2048x1024, .f32⟩ : BufTy).Contents (Elt F)} {x6 : (⟨S1024x1024, .f32⟩ : BufTy).Contents (Elt F)} {x7 : (⟨S1024x1024, .f32⟩ : BufTy).Contents (Elt F)} {x8 : (⟨S1024x1024, .f32⟩ : BufTy).Contents (Elt F)} {x9 : (⟨S1024x1024, .f32⟩ : BufTy).Contents (Elt F)} {x10 : (⟨S1024x1024, .f32⟩ : BufTy).Contents (Elt F)} {x11 : (⟨S1024x1024, .f32⟩ : BufTy).Contents (Elt F)} {x12 : (⟨S2048x1024, .f32⟩ : BufTy).Contents (Elt F)} {x13 : (⟨S1024, .f32⟩ : BufTy).Contents (Elt F)} {x14 : (⟨S2048x2048, .f32⟩ : BufTy).Contents (Elt F)} {x15 : (⟨S2048, .f32⟩ : BufTy).Contents (Elt F)} {x16 : (⟨S2048x4096, .f32⟩ : BufTy).Contents (Elt F)} {x17 : (⟨S1024x4096, .f32⟩ : BufTy).Contents (Elt F)} {x18 : (⟨S4096, .f32⟩ : BufTy).Contents (Elt F)}
    (h1 : V (Proc.devRef .tc main_arg1) = x1) (h2 : V (Proc.devRef .tc main_arg2) = x2) (h16 : V (Proc.devRef .tc main_arg16) = x16) (h17 : V (Proc.devRef .tc main_arg17) = x17) (h18 : V (Proc.devRef .tc main_arg18) = x18)
    (h40 : V (Proc.devRef .tc main_v40) = ReadP.val_main_v40 (F := F) x0 x4 x5 x6 x7 x8 x9 x10 x11)
    (h61 : V (Proc.devRef .tc main_v61) = ReadP.val_main_v61 (F := F) x0 x3 x4 x5 x6 x7 x8 x9 x10 x11 x12 x13 x14 x15) :
    after (opsC (F := F)) V (Proc.devRef .tc main_v96) = ReadP.val_main_v96 (F := F) x0 x1 x2 x3 x4 x5 x6 x7 x8 x9 x10 x11 x12 x13 x14 x15 x16 x17 x18 := by
  subst h1 h2 h16 h17 h18
  after_results_simp
  rw [h40, h61]
  simp only [ReadP.val_main_v62, ReadP.val_main_v63, ReadP.val_main_v64, ReadP.val_main_v65, ReadP.val_main_v66, ReadP.val_main_v67, ReadP.val_main_v68, ReadP.val_main_v69, ReadP.val_main_v70, ReadP.val_main_v71, ReadP.val_main_v72, ReadP.val_main_v73, ReadP.val_main_cst_9, ReadP.val_main_v74, ReadP.val_main_v75, ReadP.val_main_cst_10, ReadP.val_main_v76, ReadP.val_main_v77, ReadP.val_main_v78, ReadP.val_main_v79, ReadP.val_main_cst_11, ReadP.val_main_v80, ReadP.val_main_v81, ReadP.val_main_cst_12, ReadP.val_main_v82, ReadP.val_main_v83, ReadP.val_main_v84, ReadP.val_main_v85, ReadP.val_main_v86, ReadP.val_main_v87, ReadP.val_main_v88, ReadP.val_main_v89, ReadP.val_main_cst_13, ReadP.val_main_v90, ReadP.val_main_v91, ReadP.val_main_cst_14, ReadP.val_main_v92, ReadP.val_main_v93, ReadP.val_main_v94, ReadP.val_main_v95, ReadP.val_main_v96]

/-! ## The whole line -/

/-- The three results of the whole line, from any contents `W`: each at its stage function of the arguments' contents. -/
theorem results (W : Valuation τ sig (Elt F)) :
    after (ops (F := F)) W (Proc.devRef .tc main_v96) = ReadP.val_main_v96 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18))
    ∧ after (ops (F := F)) W (Proc.devRef .tc main_v87) = ReadP.val_main_v87 (F := F) (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg16)) (W (Proc.devRef .tc main_arg17)) (W (Proc.devRef .tc main_arg18))
    ∧ after (ops (F := F)) W (Proc.devRef .tc main_v56) = ReadP.val_main_v56 (F := F) (W (Proc.devRef .tc main_arg0)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg14)) (W (Proc.devRef .tc main_arg15)) := by
  rw [ops_split, after_append, after_append]
  have h38 := stageA_v38 W rfl rfl rfl rfl rfl rfl
  have h39 := stageA_v39 W rfl rfl rfl rfl rfl rfl
  have h40 := stageB_v40 (after (opsA (F := F)) W) h38 h39
  have h56 := stageB_v56 (after (opsA (F := F)) W) (frameA_arg3 W) (frameA_arg14 W) (frameA_arg15 W) h38 h39
  have h61 := stageB_v61 (after (opsA (F := F)) W) (frameA_arg3 W) (frameA_arg12 W) (frameA_arg13 W) (frameA_arg14 W) (frameA_arg15 W) h38 h39
  have f1 : after (opsB (F := F)) (after (opsA (F := F)) W) (Proc.devRef .tc main_arg1) = W (Proc.devRef .tc main_arg1) := (frameB_arg1 _).trans (frameA_arg1 W)
  have f2 : after (opsB (F := F)) (after (opsA (F := F)) W) (Proc.devRef .tc main_arg2) = W (Proc.devRef .tc main_arg2) := (frameB_arg2 _).trans (frameA_arg2 W)
  have f16 : after (opsB (F := F)) (after (opsA (F := F)) W) (Proc.devRef .tc main_arg16) = W (Proc.devRef .tc main_arg16) := (frameB_arg16 _).trans (frameA_arg16 W)
  have f17 : after (opsB (F := F)) (after (opsA (F := F)) W) (Proc.devRef .tc main_arg17) = W (Proc.devRef .tc main_arg17) := (frameB_arg17 _).trans (frameA_arg17 W)
  have f18 : after (opsB (F := F)) (after (opsA (F := F)) W) (Proc.devRef .tc main_arg18) = W (Proc.devRef .tc main_arg18) := (frameB_arg18 _).trans (frameA_arg18 W)
  exact ⟨stageC_v96 _ f1 f2 f16 f17 f18 h40 h61, stageC_v87 _ f1 f2 f16 f17 f18 h40, (frameC_v56 _).trans h56⟩

set_option maxRecDepth 8192 in
set_option maxHeartbeats 4000000 in
/-- On every device, from any memory with zero counters: every weakly fair execution of @main terminates with
    each result at its stage function of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v96) = ReadP.val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v87) = ReadP.val_main_v87 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg16)) (m ((c.tc : Thread nD τ).loc main_arg17)) (m ((c.tc : Thread nD τ).loc main_arg18))
      ∧ r.2.mem ((c.tc : Thread nD τ).loc main_v56) = ReadP.val_main_v56 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c =>
      have key := results (F := Ideal) (launchContents m c)
      ⟨(h c main_v96).trans key.1,
       (h c main_v87).trans key.2.1,
       (h c main_v56).trans key.2.2,
       (h c main_arg0).trans (by after_results_simp),
       (h c main_arg1).trans (by after_results_simp),
       (h c main_arg2).trans (by after_results_simp),
       (h c main_arg3).trans (by after_results_simp),
       (h c main_arg4).trans (by after_results_simp),
       (h c main_arg5).trans (by after_results_simp),
       (h c main_arg6).trans (by after_results_simp),
       (h c main_arg7).trans (by after_results_simp),
       (h c main_arg8).trans (by after_results_simp),
       (h c main_arg9).trans (by after_results_simp),
       (h c main_arg10).trans (by after_results_simp),
       (h c main_arg11).trans (by after_results_simp),
       (h c main_arg12).trans (by after_results_simp),
       (h c main_arg13).trans (by after_results_simp),
       (h c main_arg14).trans (by after_results_simp),
       (h c main_arg15).trans (by after_results_simp),
       (h c main_arg16).trans (by after_results_simp),
       (h c main_arg17).trans (by after_results_simp),
       (h c main_arg18).trans (by after_results_simp)⟩)
    (run_seq scopedRefs_eq scopedSems_eq defs main (fun _ => ops) main_eq (fun _ => ops_sub) m ρ)

end Cert.ReferenceIdeal.Hand

end
-- ==== Proof.lean ====
/-
  The certificate of one step of a recurrent cell with two cross-attention gates and a cross-history: a Pallas program of
  three kernels over blocks of 128 rows against a plain array program.

  On the extended reals a change of float format is the identity, so both programs compute, row by row: two embeddings
  (matrix products), two gates (each a softmax along the row of tanh of a sum of two products times a third product),
  x = the embeddings times the gates side by side; the decomposition gate (the logistic function of a product plus a
  bias), the merged cross-history (half the old history times the gate plus half of x) and its projection (tanh of a
  product plus a bias); the cell's pre-activations (two products plus a bias), its four gates, the new cell state and
  the new hidden state. Every operation acts row by row, so each kernel, on a block of rows, computes that block of rows
  of the reference's stage (RowOps, BlockOps, Region0–2); the blocks tile each result array; and each array a later
  kernel reads is what an earlier one wrote (Thread). No law beyond the definitions is used: the two sides apply the
  same operations in the same order, and a sum is the same sum however the machine groups it. The inputs' finiteness is
  not needed.

  The frames of the two kernel programs are the generated ones; the reference's run is proved in RefRun; the ideal pass
  rewrote nothing, so `preserves` is trivial.
-/
import proofs.«136214_j19172734009719_1_alg».proof.Defs
import proofs.«136214_j19172734009719_1_alg».proof.Proof.Gen.Kernel
import proofs.«136214_j19172734009719_1_alg».proof.Proof.Gen.Kernel.Skeleton
import proofs.«136214_j19172734009719_1_alg».proof.Proof.Gen.Kernel.Launch
import proofs.«136214_j19172734009719_1_alg».proof.Proof.Gen.Kernel.Points
import proofs.«136214_j19172734009719_1_alg».proof.Proof.Gen.Kernel.Frame
import proofs.«136214_j19172734009719_1_alg».proof.Proof.Gen.KernelIdeal
import proofs.«136214_j19172734009719_1_alg».proof.Proof.Gen.KernelIdeal.Skeleton
import proofs.«136214_j19172734009719_1_alg».proof.Proof.Gen.KernelIdeal.Launch
import proofs.«136214_j19172734009719_1_alg».proof.Proof.Gen.KernelIdeal.Points
import proofs.«136214_j19172734009719_1_alg».proof.Proof.Gen.KernelIdeal.Frame
import proofs.«136214_j19172734009719_1_alg».proof.Proof.Gen.ReferenceIdeal
import proofs.«136214_j19172734009719_1_alg».proof.Proof.Gen.Pre_finite_inputs
import proofs.«136214_j19172734009719_1_alg».proof.Proof.Thread
import proofs.«136214_j19172734009719_1_alg».proof.Proof.RefRun
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the three results dropped. -/
theorem frame_ri : Cert.frame_ReferenceIdeal := fun m ρ _ =>
  (θ_run Cert.ReferenceIdeal.defs _ _).mono (fun _ h c => (h c).2.2.2) (Cert.ReferenceIdeal.Hand.run m ρ)

/-- From memories agreeing on the arguments both programs run; the kernel program's three results are the reference's three
    result stages of the arguments, and so are the reference's. -/
theorem algebraic : Cert.algebraic_KernelIdeal_ReferenceIdeal := by
  intro m ρ m' ρ' _ hagree
  refine ⟨fun c => Cert.KernelIdeal.Thread.H96 m c, fun c => Cert.KernelIdeal.Thread.C87 m c, fun c => Cert.KernelIdeal.Thread.C56 m c,
    Cert.KernelIdeal.Thread.run m ρ, ?_⟩
  refine (θ_run Cert.ReferenceIdeal.defs _ _).mono (fun _ h c => ?_) (Cert.ReferenceIdeal.Hand.run m' ρ')
  obtain ⟨e0, e1, e2, e3, e4, e5, e6, e7, e8, e9, e10, e11, e12, e13, e14, e15, e16, e17, e18⟩ := hagree c
  refine ⟨(h c).1.trans ?_, (h c).2.1.trans ?_, (h c).2.2.1.trans ?_, (h c).2.2.2⟩
  · rw [e0, e1, e2, e3, e4, e5, e6, e7, e8, e9, e10, e11, e12, e13, e14, e15, e16, e17, e18]
  · rw [e0, e1, e2, e4, e5, e6, e7, e8, e9, e10, e11, e16, e17, e18]
  · rw [e0, e3, e4, e5, e6, e7, e8, e9, e10, e11, e14, e15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
